-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v39)) (v1 : (c : Dev Cert.KernelIdeal.nD) → Buf (Elt Ideal) ((c.tc : Thread Cert.KernelIdeal.nD Cert.KernelIdeal.τ).loc Cert.KernelIdeal.main_v37)) (v2 : (c : Dev Cert.KernelIdeal.nD) → Buf (Elt Ideal) ((c.tc : Thread Cert.KernelIdeal.nD Cert.KernelIdeal.τ).loc Cert.KernelIdeal.main_v38)) (v3 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_v37) = v1 c
          ∧ r.2.mem ((c.tc : Thread Cert.KernelIdeal.nD Cert.KernelIdeal.τ).loc Cert.KernelIdeal.main_v38) = v2 c
          ∧ r.2.mem ((c.tc : Thread Cert.KernelIdeal.nD Cert.KernelIdeal.τ).loc Cert.KernelIdeal.main_v37) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_v54) = v2 c
          ∧ r.2.mem ((c.tc : Thread Cert.ReferenceIdeal.nD Cert.ReferenceIdeal.τ).loc Cert.ReferenceIdeal.main_v36) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S2x262144 : Shape := ⟨2, ![2, 262144]⟩
abbrev S262144 : Shape := ⟨1, ![262144]⟩
abbrev S512x256 : Shape := ⟨2, ![512, 256]⟩
abbrev S256x128 : Shape := ⟨2, ![256, 128]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S262144 : S_.BroadcastsInDim S262144 (![] : Fin 0 → Fin S262144.rank)
  reducesTo_S262144_S_d0 : S262144.ReducesTo [0] S_
  bcast_S_S512x256 : S_.BroadcastsInDim S512x256 (![] : Fin 0 → Fin S512x256.rank)
  reducesTo_S512x256_S_d0_1 : S512x256.ReducesTo [0, 1] S_
  bcast_S_S256x128 : S_.BroadcastsInDim S256x128 (![] : Fin 0 → Fin S256x128.rank)
  reducesTo_S256x128_S_d0_1 : S256x128.ReducesTo [0, 1] S_

variable [Facts]

def fn_part1 {F : FTy → Type} [FloatOps F] (main_arg5 : FVec F S256x128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S256x128 .f32 := Host.absf main_arg5
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  main_v23

def fn {F : FTy → Type} [FloatOps F] (main_arg0 : FVec F S8192x512 .f32) (main_arg1 : IVec S2x262144 32) (main_arg2 : FVec F S262144 .f32) (main_arg3 : FVec F S512x256 .f32) (main_arg4 : FVec F S256x128 .f32) (main_arg5 : FVec F S256x128 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S262144 .f32 := Host.absf main_arg2
  let main_cst_0 : FVec F S_ .f32 := constant S_ .f32 0x7F800000#32
  let main_v5 : FVec F S262144 .f32 := broadcastInDim S262144 ![] bcast_S_S262144 main_cst_0
  let main_v6 : IVec S262144 1 := cmpf .olt main_v4 main_v5
  let main_c_1 : IVec S_ 1 := constantI S_ 1 1#1
  let main_v7 : IVec S_ 1 := (fun x v => Host.reduce IntOp.andi x v reducesTo_S262144_S_d0 h_S_) main_v6 main_c_1
  let main_v8 : IVec S_ 1 := andi main_v3 main_v7
  let main_v9 : FVec F S512x256 .f32 := Host.absf main_arg3
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_v13 main_v16
-- ==== Kernel.lean ====
abbrev S8192x512 : Shape := ⟨2, ![8192, 512]⟩
abbrev S2x262144 : Shape := ⟨2, ![2, 262144]⟩
abbrev S262144 : Shape := ⟨1, ![262144]⟩
abbrev S512x256 : Shape := ⟨2, ![512, 256]⟩
abbrev S256x128 : Shape := ⟨2, ![256, 128]⟩
abbrev S8192x256 : Shape := ⟨2, ![8192, 256]⟩
abbrev S1024x512 : Shape := ⟨2, ![1024, 512]⟩
abbrev S1024x256 : Shape := ⟨2, ![1024, 256]⟩
abbrev S1x262144 : Shape := ⟨2, ![1, 262144]⟩
abbrev S_ : Shape := ⟨0, ![]⟩
abbrev S262144x1 : Shape := ⟨2, ![262144, 1]⟩
abbrev S262144x256 : Shape := ⟨2, ![262144, 256]⟩
abbrev S256x256 : Shape := ⟨2, ![256, 256]⟩
abbrev S8192x128 : Shape := ⟨2, ![8192, 128]⟩
abbrev S8192x8192 : Shape := ⟨2, ![8192, 8192]⟩
abbrev S1024x128 : Shape := ⟨2, ![1024, 128]⟩
abbrev S1024x1024 : Shape := ⟨2, ![1024, 1024]⟩

abbrev nBuf : Space → Nat
  | .hbm => 52
  | .vmem => 16
  | .smem => 0
  | _ => 0

abbrev bufTy : (tb : Table) → Fin (tcTables nBuf tb) → BufTy
  | .hbm, ⟨0, _⟩ => ⟨S8192x512, .f32⟩
  | .hbm, ⟨1, _⟩ => ⟨S2x262144, .i32⟩
  | .hbm, ⟨2, _⟩ => ⟨S262144, .f32⟩
  | .hbm, ⟨3, _⟩ => ⟨S512x256, .f32⟩
  | .hbm, ⟨4, _⟩ => ⟨S256x128, .f32⟩
  | .hbm, ⟨5, _⟩ => ⟨S256x128, .f32⟩
  | .hbm, ⟨6, _⟩ => ⟨S8192x256, .f32⟩
  | .hbm, ⟨7, _⟩ => ⟨S1x262144, .i32⟩
  | .hbm, ⟨8, _⟩ => ⟨S262144, .i32⟩
  | .hbm, ⟨9, _⟩ => ⟨S1x262144, .i32⟩
  | .hbm, ⟨10, _⟩ => ⟨S262144, .i32⟩
  | .hbm, ⟨11, _⟩ => ⟨S_, .i32⟩
  | .hbm, ⟨12, _⟩ => ⟨S262144, .i32⟩
  | .hbm, ⟨13, _⟩ => ⟨S262144, .i1⟩
  | .hbm, ⟨14, _⟩ => ⟨S_, .i32⟩
  | .hbm, ⟨15, _⟩ => ⟨S262144, .i32⟩
  | .hbm, ⟨16, _⟩ => ⟨S262144, .i32⟩
  | .hbm, ⟨17, _⟩ => ⟨S262144, .i32⟩
  | .hbm, ⟨18, _⟩ => ⟨S262144x1, .i32⟩
  | .hbm, ⟨19, _⟩ => ⟨S262144x256, .f32⟩
  | .hbm, ⟨20, _⟩ => ⟨S262144x1, .f32⟩
  | .hbm, ⟨21, _⟩ => ⟨S262144x256, .f32⟩
  | .hbm, ⟨22, _⟩ => ⟨S262144x256, .f32⟩
  | .hbm, ⟨23, _⟩ => ⟨S_, .f32⟩
  | .hbm, ⟨24, _⟩ => ⟨S8192x256, .f32⟩
  | .hbm, ⟨25, _⟩ => ⟨S262144x1, .i32⟩
  | .hbm, ⟨26, _⟩ => ⟨S8192x256, .f32⟩
  | .hbm, ⟨27, _⟩ => ⟨S256x256, .f32⟩
  | .hbm, ⟨28, _⟩ => ⟨S8192x256, .f32⟩
  | .hbm, ⟨29, _⟩ => ⟨S1x262144, .i32⟩
  | .hbm, ⟨30, _⟩ => ⟨S262144, .i32⟩
  | .hbm, ⟨31, _⟩ => ⟨S1x262144, .i32⟩
  | .hbm, ⟨32, _⟩ => ⟨S262144, .i32⟩
  | .hbm, ⟨33, _⟩ => ⟨S_, .i32⟩
  | .hbm, ⟨34, _⟩ => ⟨S262144, .i32⟩
  | .hbm, ⟨35, _⟩ => ⟨S262144, .i1⟩
  | .hbm, ⟨36, _⟩ => ⟨S_, .i32⟩
  | .hbm, ⟨37, _⟩ => ⟨S262144, .i32⟩
  | .hbm, ⟨38, _⟩ => ⟨S262144, .i32⟩
  | .hbm, ⟨39, _⟩ => ⟨S262144, .i32⟩
  | .hbm, ⟨40, _⟩ => ⟨S262144x1, .i32⟩
  | .hbm, ⟨41, _⟩ => ⟨S262144x256, .f32⟩
  | .hbm, ⟨42, _⟩ => ⟨S262144x1, .f32⟩
  | .hbm, ⟨43, _⟩ => ⟨S262144x256, .f32⟩
  | .hbm, ⟨44, _⟩ => ⟨S262144x256, .f32⟩
  | .hbm, ⟨45, _⟩ => ⟨S_, .f32⟩
  | .hbm, ⟨46, _⟩ => ⟨S8192x256, .f32⟩
  | .hbm, ⟨47, _⟩ => ⟨S262144x1, .i32⟩
  | .hbm, ⟨48, _⟩ => ⟨S8192x256, .f32⟩
  | .hbm, ⟨49, _⟩ => ⟨S8192x128, .f32⟩
  | .hbm, ⟨50, _⟩ => ⟨S8192x128, .f32⟩
  | .hbm, ⟨51, _⟩ => ⟨S8192x8192, .f32⟩
  | .local _ .vmem, ⟨0, _⟩ => ⟨S1024x512, .f32⟩
  | .local _ .vmem, ⟨1, _⟩ => ⟨S1024x512, .f32⟩
  | .local _ .vmem, ⟨2, _⟩ => ⟨S512x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S256x256, .f32⟩
  | .local _ .vmem, ⟨8, _⟩ => ⟨S1024x256, .f32⟩
  | .local _ .vmem, ⟨9, _⟩ => ⟨S1024x256, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x1024, .f32⟩
  | .local _ .vmem, ⟨15, _⟩ => ⟨S1024x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_c_1 : Ref sig .tc := ⟨.hbm, 33, rfl⟩
abbrev main_v24 : Ref sig .tc := ⟨.hbm, 34, rfl⟩
abbrev main_v25 : Ref sig .tc := ⟨.hbm, 35, rfl⟩
abbrev main_c_2 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_3 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![8, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1024x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

class Facts₀ : Prop where
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S1024x256_S1024x256_0_0 : ∀ a, (![0, 0] : Fin 2 → Nat) a + S1024x256.size a ≤ S1024x256.size a
  h_S1024x256 : 0 < S1024x256.numel
  slices_S2x262144_S1x262144_0_0 : S2x262144.Slices ![0, 0] S1x262144
  shapeCasts_S1x262144_S262144 : S1x262144.ShapeCasts S262144
  slices_S2x262144_S1x262144_1_0 : S2x262144.Slices ![1, 0] S1x262144
  bcast_S_S262144 : S_.BroadcastsInDim S262144 (![] : Fin 0 → Fin S262144.rank)
  bcast_S262144_S262144x1_0 : S262144.BroadcastsInDim S262144x1 (![0] : Fin 1 → Fin S262144x1.rank)
  bcast_S262144x1_S262144x256_0_1 : S262144x1.BroadcastsInDim S262144x256 (![0, 1] : Fin 2 → Fin S262144x256.rank)
  bcast_S_S8192x256 : S_.BroadcastsInDim S8192x256 (![] : Fin 0 → Fin S8192x256.rank)
  concatenates_S256x128_S256x128_S256x256_d1 : Shape.Concatenates [S256x128, S256x128] S256x256 1
  shapeCasts_S1024x256_S1024x256 : S1024x256.ShapeCasts S1024x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  slices_S8192x256_S8192x128_0_0 : S8192x256.Slices ![0, 0] S8192x128
  slices_S8192x256_S8192x128_0_128 : S8192x256.Slices ![0, 128] S8192x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x1024_S1024x1024_0_0 : ∀ a, (![0, 0] : Fin 2 → Nat) a + S1024x1024.size a ≤ S1024x1024.size a
  h_S1024x1024 : 0 < S1024x1024.numel
  dot_S1024x512_S512x256_S1024x256_1_0_0_1_n_n_wf : DotDims.WF S1024x512 S512x256 S1024x256 [1] [0] [0] [1] [] []
  gather_S8192x256_S262144x1_S262144x256_1_0_n_n_0_1_1256_wf : GatherDims.WF S8192x256 S262144x1 S262144x256 [1] [0] [] [0] [] 1 ![1, 256]
  scatter_S8192x256_S262144x1_S262144x256_1_0_0_1_wf : ScatterDims.WF S8192x256 S262144x1 S262144x256 [1] [0] [0] 1
  dot_S1024x256_S256x256_S1024x256_1_0_0_1_n_n_wf : DotDims.WF S1024x256 S256x256 S1024x256 [1] [0] [0] [1] [] []
  dot_S1024x128_S1024x128_S1024x1024_1_1_0_0_n_n_wf : DotDims.WF S1024x128 S1024x128 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S8192x256.size a
  hwx0_2 : ∀ i : grid0.Coords, EltTy.bits .f32 = 32 ∨ (Rect.block (s := S8192x256) S1024x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S8192x256.size a
  hwx1_0 : ∀ i : grid1.Coords, EltTy.bits .f32 = 32 ∨ (Rect.block (s := S8192x256) S1024x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x256.size a ≤ S8192x256.size a
  hwx1_2 : ∀ i : grid1.Coords, EltTy.bits .f32 = 32 ∨ (Rect.block (s := S8192x256) S1024x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x128.size a ≤ S8192x128.size a
  hwx2_0 : ∀ i : grid2.Coords, EltTy.bits .f32 = 32 ∨ (Rect.block (s := S8192x128) S1024x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x128.size a ≤ S8192x128.size a
  hwx2_1 : ∀ i : grid2.Coords, EltTy.bits .f32 = 32 ∨ (Rect.block (s := S8192x128) S1024x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1024.size a ≤ S8192x8192.size a
  hwx2_2 : ∀ i : grid2.Coords, EltTy.bits .f32 = 32 ∨ (Rect.block (s := S8192x8192) S1024x1024.size (cc2_transform_2 i) (hinb2_2 i)).WholeWords (EltTy.packing .f32)

variable [Facts₀]

def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def gather_S8192x256_S262144x1_S262144x256_1_0_n_n_0_1_1256 : GatherDims S8192x256 S262144x1 S262144x256 where
  offsetDims := [1]
  collapsedSliceDims := [0]
  operandBatchingDims := []
  startIndicesBatchingDims := []
  startIndexMap := [0]
  indexVectorDim := 1
  sliceSizes := ![1, 256]
  wf := gather_S8192x256_S262144x1_S262144x256_1_0_n_n_0_1_1256_wf
def scatter_S8192x256_S262144x1_S262144x256_1_0_0_1 : ScatterDims S8192x256 S262144x1 S262144x256 where
  updateWindowDims := [1]
  insertedWindowDims := [0]
  scatterDimsToOperandDims := [0]
  indexVectorDim := 1
  wf := scatter_S8192x256_S262144x1_S262144x256_1_0_0_1_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x128_S1024x128_S1024x1024_1_1_0_0_n_n : DotDims S1024x128 S1024x128 S1024x1024 where
  lhsContracting := [1]
  rhsContracting := [1]
  lhsNonContracting := [0]
  rhsNonContracting := [0]
  lhsBatch := []
  rhsBatch := []
  wf := dot_S1024x128_S1024x128_S1024x1024_1_1_0_0_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v17) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v19) S1024x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v37) S1024x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v37) S1024x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v39) S1024x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S8192x512 : Shape := ⟨2, ![8192, 512]⟩
abbrev S2x262144 : Shape := ⟨2, ![2, 262144]⟩
abbrev S262144 : Shape := ⟨1, ![262144]⟩
abbrev S512x256 : Shape := ⟨2, ![512, 256]⟩
abbrev S256x128 : Shape := ⟨2, ![256, 128]⟩
abbrev S8192x256 : Shape := ⟨2, ![8192, 256]⟩
abbrev S1x262144 : Shape := ⟨2, ![1, 262144]⟩
abbrev S_ : Shape := ⟨0, ![]⟩
abbrev S262144x1 : Shape := ⟨2, ![262144, 1]⟩
abbrev S262144x256 : Shape := ⟨2, ![262144, 256]⟩
abbrev S8192x128 : Shape := ⟨2, ![8192, 128]⟩
abbrev S262144x128 : Shape := ⟨2, ![262144, 128]⟩
abbrev S128x8192 : Shape := ⟨2, ![128, 8192]⟩
abbrev S8192x8192 : Shape := ⟨2, ![8192, 8192]⟩

abbrev nBuf : Space → Nat
  | .hbm => 74
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S2x262144, .i32⟩
  | .hbm, ⟨2, _⟩ => ⟨S262144, .f32⟩
  | .hbm, ⟨3, _⟩ => ⟨S512x256, .f32⟩
  | .hbm, ⟨4, _⟩ => ⟨S256x128, .f32⟩
  | .hbm, ⟨5, _⟩ => ⟨S256x128, .f32⟩
  | .hbm, ⟨6, _⟩ => ⟨S8192x256, .f32⟩
  | .hbm, ⟨7, _⟩ => ⟨S1x262144, .i32⟩
  | .hbm, ⟨8, _⟩ => ⟨S262144, .i32⟩
  | .hbm, ⟨9, _⟩ => ⟨S1x262144, .i32⟩
  | .hbm, ⟨10, _⟩ => ⟨S262144, .i32⟩
  | .hbm, ⟨11, _⟩ => ⟨S_, .i32⟩
  | .hbm, ⟨12, _⟩ => ⟨S262144, .i32⟩
  | .hbm, ⟨13, _⟩ => ⟨S262144, .i1⟩
  | .hbm, ⟨14, _⟩ => ⟨S_, .i32⟩
  | .hbm, ⟨15, _⟩ => ⟨S262144, .i32⟩
  | .hbm, ⟨16, _⟩ => ⟨S262144, .i32⟩
  | .hbm, ⟨17, _⟩ => ⟨S262144, .i32⟩
  | .hbm, ⟨18, _⟩ => ⟨S262144x1, .i32⟩
  | .hbm, ⟨19, _⟩ => ⟨S262144x256, .f32⟩
  | .hbm, ⟨20, _⟩ => ⟨S262144x1, .f32⟩
  | .hbm, ⟨21, _⟩ => ⟨S262144x256, .f32⟩
  | .hbm, ⟨22, _⟩ => ⟨S262144x256, .f32⟩
  | .hbm, ⟨23, _⟩ => ⟨S_, .f32⟩
  | .hbm, ⟨24, _⟩ => ⟨S8192x256, .f32⟩
  | .hbm, ⟨25, _⟩ => ⟨S262144x1, .i32⟩
  | .hbm, ⟨26, _⟩ => ⟨S8192x256, .f32⟩
  | .hbm, ⟨27, _⟩ => ⟨S_, .f32⟩
  | .hbm, ⟨28, _⟩ => ⟨S8192x256, .f32⟩
  | .hbm, ⟨29, _⟩ => ⟨S8192x256, .f32⟩
  | .hbm, ⟨30, _⟩ => ⟨S8192x128, .f32⟩
  | .hbm, ⟨31, _⟩ => ⟨S1x262144, .i32⟩
  | .hbm, ⟨32, _⟩ => ⟨S262144, .i32⟩
  | .hbm, ⟨33, _⟩ => ⟨S1x262144, .i32⟩
  | .hbm, ⟨34, _⟩ => ⟨S262144, .i32⟩
  | .hbm, ⟨35, _⟩ => ⟨S_, .i32⟩
  | .hbm, ⟨36, _⟩ => ⟨S262144, .i32⟩
  | .hbm, ⟨37, _⟩ => ⟨S262144, .i1⟩
  | .hbm, ⟨38, _⟩ => ⟨S_, .i32⟩
  | .hbm, ⟨39, _⟩ => ⟨S262144, .i32⟩
  | .hbm, ⟨40, _⟩ => ⟨S262144, .i32⟩
  | .hbm, ⟨41, _⟩ => ⟨S262144, .i32⟩
  | .hbm, ⟨42, _⟩ => ⟨S262144x1, .i32⟩
  | .hbm, ⟨43, _⟩ => ⟨S262144x128, .f32⟩
  | .hbm, ⟨44, _⟩ => ⟨S262144x1, .f32⟩
  | .hbm, ⟨45, _⟩ => ⟨S262144x128, .f32⟩
  | .hbm, ⟨46, _⟩ => ⟨S262144x128, .f32⟩
  | .hbm, ⟨47, _⟩ => ⟨S_, .f32⟩
  | .hbm, ⟨48, _⟩ => ⟨S8192x128, .f32⟩
  | .hbm, ⟨49, _⟩ => ⟨S262144x1, .i32⟩
  | .hbm, ⟨50, _⟩ => ⟨S8192x128, .f32⟩
  | .hbm, ⟨51, _⟩ => ⟨S8192x128, .f32⟩
  | .hbm, ⟨52, _⟩ => ⟨S1x262144, .i32⟩
  | .hbm, ⟨53, _⟩ => ⟨S262144, .i32⟩
  | .hbm, ⟨54, _⟩ => ⟨S1x262144, .i32⟩
  | .hbm, ⟨55, _⟩ => ⟨S262144, .i32⟩
  | .hbm, ⟨56, _⟩ => ⟨S_, .i32⟩
  | .hbm, ⟨57, _⟩ => ⟨S262144, .i32⟩
  | .hbm, ⟨58, _⟩ => ⟨S262144, .i1⟩
  | .hbm, ⟨59, _⟩ => ⟨S_, .i32⟩
  | .hbm, ⟨60, _⟩ => ⟨S262144, .i32⟩
  | .hbm, ⟨61, _⟩ => ⟨S262144, .i32⟩
  | .hbm, ⟨62, _⟩ => ⟨S262144, .i32⟩
  | .hbm, ⟨63, _⟩ => ⟨S262144x1, .i32⟩
  | .hbm, ⟨64, _⟩ => ⟨S262144x128, .f32⟩
  | .hbm, ⟨65, _⟩ => ⟨S262144x1, .f32⟩
  | .hbm, ⟨66, _⟩ => ⟨S262144x128, .f32⟩
  | .hbm, ⟨67, _⟩ => ⟨S262144x128, .f32⟩
  | .hbm, ⟨68, _⟩ => ⟨S_, .f32⟩
  | .hbm, ⟨69, _⟩ => ⟨S8192x128, .f32⟩
  | .hbm, ⟨70, _⟩ => ⟨S262144x1, .i32⟩
  | .hbm, ⟨71, _⟩ => ⟨S8192x128, .f32⟩
  | .hbm, ⟨72, _⟩ => ⟨S128x8192, .f32⟩
  | .hbm, ⟨73, _⟩ => ⟨S8192x8192, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_cst : Ref sig .tc := ⟨.hbm, 27, rfl⟩
abbrev main_call0_v0 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c_1 : Ref sig .tc := ⟨.hbm, 35, rfl⟩
abbrev main_v24 : Ref sig .tc := ⟨.hbm, 36, rfl⟩
abbrev main_v25 : Ref sig .tc := ⟨.hbm, 37, rfl⟩
abbrev main_c_2 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_3 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_c_4 : Ref sig .tc := ⟨.hbm, 56, rfl⟩
abbrev main_v42 : Ref sig .tc := ⟨.hbm, 57, rfl⟩
abbrev main_v43 : Ref sig .tc := ⟨.hbm, 58, rfl⟩
abbrev main_c_5 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_6 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩

abbrev nD : Nat := 1
abbrev τ : Topo := Topo.v7x

variable {F : FTy → Type} [FloatOps F]

class Facts₀ : Prop where
  slices_S2x262144_S1x262144_0_0 : S2x262144.Slices ![0, 0] S1x262144
  shapeCasts_S1x262144_S262144 : S1x262144.ShapeCasts S262144
  slices_S2x262144_S1x262144_1_0 : S2x262144.Slices ![1, 0] S1x262144
  bcast_S_S262144 : S_.BroadcastsInDim S262144 (![] : Fin 0 → Fin S262144.rank)
  bcast_S262144_S262144x1_0 : S262144.BroadcastsInDim S262144x1 (![0] : Fin 1 → Fin S262144x1.rank)
  bcast_S262144x1_S262144x256_0_1 : S262144x1.BroadcastsInDim S262144x256 (![0, 1] : Fin 2 → Fin S262144x256.rank)
  bcast_S_S8192x256 : S_.BroadcastsInDim S8192x256 (![] : Fin 0 → Fin S8192x256.rank)
  bcast_S262144x1_S262144x128_0_1 : S262144x1.BroadcastsInDim S262144x128 (![0, 1] : Fin 2 → Fin S262144x128.rank)
  bcast_S_S8192x128 : S_.BroadcastsInDim S8192x128 (![] : Fin 0 → Fin S8192x128.rank)
  transposes_S8192x128_S128x8192_1_0 : S8192x128.Transposes [1, 0] S128x8192
  dot_S8192x512_S512x256_S8192x256_1_0_0_1_n_n_wf : DotDims.WF S8192x512 S512x256 S8192x256 [1] [0] [0] [1] [] []
  gather_S8192x256_S262144x1_S262144x256_1_0_n_n_0_1_1256_wf : GatherDims.WF S8192x256 S262144x1 S262144x256 [1] [0] [] [0] [] 1 ![1, 256]
  scatter_S8192x256_S262144x1_S262144x256_1_0_0_1_wf : ScatterDims.WF S8192x256 S262144x1 S262144x256 [1] [0] [0] 1
  dot_S8192x256_S256x128_S8192x128_1_0_0_1_n_n_wf : DotDims.WF S8192x256 S256x128 S8192x128 [1] [0] [0] [1] [] []
  gather_S8192x128_S262144x1_S262144x128_1_0_n_n_0_1_1128_wf : GatherDims.WF S8192x128 S262144x1 S262144x128 [1] [0] [] [0] [] 1 ![1, 128]
  scatter_S8192x128_S262144x1_S262144x128_1_0_0_1_wf : ScatterDims.WF S8192x128 S262144x1 S262144x128 [1] [0] [0] 1
  dot_S8192x128_S128x8192_S8192x8192_1_0_0_1_n_n_wf : DotDims.WF S8192x128 S128x8192 S8192x8192 [1] [0] [0] [1] [] []

variable [Facts₀]

def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def gather_S8192x256_S262144x1_S262144x256_1_0_n_n_0_1_1256 : GatherDims S8192x256 S262144x1 S262144x256 where
  offsetDims := [1]
  collapsedSliceDims := [0]
  operandBatchingDims := []
  startIndicesBatchingDims := []
  startIndexMap := [0]
  indexVectorDim := 1
  sliceSizes := ![1, 256]
  wf := gather_S8192x256_S262144x1_S262144x256_1_0_n_n_0_1_1256_wf
def scatter_S8192x256_S262144x1_S262144x256_1_0_0_1 : ScatterDims S8192x256 S262144x1 S262144x256 where
  updateWindowDims := [1]
  insertedWindowDims := [0]
  scatterDimsToOperandDims := [0]
  indexVectorDim := 1
  wf := scatter_S8192x256_S262144x1_S262144x256_1_0_0_1_wf
def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf
def gather_S8192x128_S262144x1_S262144x128_1_0_n_n_0_1_1128 : GatherDims S8192x128 S262144x1 S262144x128 where
  offsetDims := [1]
  collapsedSliceDims := [0]
  operandBatchingDims := []
  startIndicesBatchingDims := []
  startIndexMap := [0]
  indexVectorDim := 1
  sliceSizes := ![1, 128]
  wf := gather_S8192x128_S262144x1_S262144x128_1_0_n_n_0_1_1128_wf
def scatter_S8192x128_S262144x1_S262144x128_1_0_0_1 : ScatterDims S8192x128 S262144x1 S262144x128 where
  updateWindowDims := [1]
  insertedWindowDims := [0]
  scatterDimsToOperandDims := [0]
  indexVectorDim := 1
  wf := scatter_S8192x128_S262144x1_S262144x128_1_0_0_1_wf
def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.KBody0.lean ====
/-
  Region 0 of the program: one grid point of the pallas call loads its two input blocks whole, forms the
  product block on the matrix unit, and stores it whole into the output block. Stated at a parameter `V`, the
  contents of the core's buffers when the region is entered: what each window's block is at a grid point, what
  the output's staging buffer holds after the body (the one store's payload of the two input blocks), the body's
  triple, the pipeline's proof data and the body obligation at every grid point.
-/
import proofs.«152238_j13048110646074_1_alg».proof.Proof.Gen.Kernel.Launch
import proofs.«152238_j13048110646074_1_alg».proof.Proof.Gen.Kernel.Skeleton
import proofs.«152238_j13048110646074_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first input's staging buffer holds its block at every grid point, whether it was fetched there or its
    block index did not move. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The second input's staging buffer likewise. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole rectangle of each block: what the body loads and stores. -/
abbrev r0_a : Rect S1024x512 := Rect.unit (s := S1024x512) ![0, 0] S1024x512.size inb_S1024x512_S1024x512_0_0
abbrev r0_b : Rect S512x256 := Rect.unit (s := S512x256) ![0, 0] S512x256.size inb_S512x256_S512x256_0_0
abbrev r0_o : Rect S1024x256 := Rect.unit (s := S1024x256) ![0, 0] S1024x256.size inb_S1024x256_S1024x256_0_0

/-- The output's staging buffer after the body: its one whole-block store of the product of the two input blocks. -/
def out0_2 (x0 : Vec F S1024x512 .f32) (x1 : Vec F S512x256 .f32) : Vec F S1024x256 .f32 :=
  View.canon [⟨r0_o, k0_pay1 (View.ld x0 r0_a) (View.ld x1 r0_b)⟩]

/-- The one store covers the block. -/
theorem cover0_2 (p0 : Vec F S1024x256 .f32) (y : S1024x256.Idx) :
    ∃ pc ∈ ([⟨r0_o, p0⟩] : List (View.Piece (Elt F) S1024x256 .f32)), y ∈ pc.1.set :=
  View.cover_of_tiled [⟨r0_o, p0⟩] S1024x256.size (by rfl) y

set_option maxHeartbeats 1000000 in
/-- The body on whole staging memrefs, the inputs' at contents `x0`, `x1` and the output's at anything, runs to
    the continuation holding the inputs' as they were and the output's at `out0_2 x0 x1`. -/
theorem sound_kernel0 (c : Dev nD) (E : Set ℕ) (i : grid0.Coords)
    (arg1 : Memref sig .tc .vmem S1024x512 .f32) (harg1 : arg1.IsWhole) (arg2 : Memref sig .tc .vmem S512x256 .f32) (harg2 : arg2.IsWhole)
    (arg3 : Memref sig .tc .vmem S1024x256 .f32) (harg3 : arg3.IsWhole)
    (x0 : Vec F S1024x512 .f32) (x1 : Vec F S512x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The pipeline's proof data on core `c`: the arrays as the region finds them; after the body at grid point `t`
    each input's buffer at its block and the output's at the product of the two input blocks; the invariant is the
    scoped rest and the random-number register, untouched; nothing owed. The windows' shares of their arrays are a
    parameter `q` (an array handed to two windows is held by each at a part of the full share). -/
def dat0 (q : Fin cfg0.W → PosShare TreeShare) (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q := q
  owed _ := 0

variable (q : Fin cfg0.W → PosShare TreeShare)

theorem A_eq0 (c : Dev nD) (w : Fin cfg0.W) : (dat0 V q c).A w = V c (Pipeline.arrRef spec0 w) := by
  dsimp only [dat0]

theorem after0_0 (c : Dev nD) (t : Fin cfg0.N) : (dat0 V q c).after 0 t = iblk0 V c 0 t := by dsimp only [dat0]
theorem after0_1 (c : Dev nD) (t : Fin cfg0.N) : (dat0 V q c).after 1 t = iblk0 V c 1 t := by dsimp only [dat0]
theorem after0_2 (c : Dev nD) (t : Fin cfg0.N) : (dat0 V q c).after 2 t = out0_2 (iblk0 V c 0 t) (iblk0 V c 1 t) := by dsimp only [dat0]

theorem before0_0 (c : Dev nD) (t : Fin cfg0.N) (d) : (dat0 V q c).before 0 t d = iblk0 V c 0 t :=
  before0_0_of V (dat0 V q c) (A_eq0 V q c 0) (after0_0 V q c) t d
theorem before0_1 (c : Dev nD) (t : Fin cfg0.N) (d) : (dat0 V q c).before 1 t d = iblk0 V c 1 t :=
  before0_1_of V (dat0 V q c) (A_eq0 V q c 1) (after0_1 V q c) t d

/-- What the body is called with at grid point `t`, the windows one by one, -/
def bodyPre0 (c : Dev nD) (t : Fin cfg0.N) : sProp 𝕄 :=
  iprop((dat0 V q c).Φ t.castSucc ∗ (dat0 V q c).owesAt () t.castSucc
    ∗ (∃ d, owns (c : Thread nD τ) (st0_0 t) fullShare ((dat0 V q c).before 0 t d))
    ∗ (∃ d, owns (c : Thread nD τ) (st0_1 t) fullShare ((dat0 V q c).before 1 t d))
    ∗ (∃ d, owns (c : Thread nD τ) (st0_2 t) fullShare ((dat0 V q c).before 2 t d)))

/-- and what it returns. -/
def bodyPost0 (c : Dev nD) (t : Fin cfg0.N) : sProp 𝕄 :=
  iprop((dat0 V q c).Φ t.succ ∗ (dat0 V q c).owesAt () t.succ
    ∗ owns (c : Thread nD τ) (st0_0 t) fullShare ((dat0 V q c).after 0 t)
    ∗ owns (c : Thread nD τ) (st0_1 t) fullShare ((dat0 V q c).after 1 t)
    ∗ owns (c : Thread nD τ) (st0_2 t) fullShare ((dat0 V q c).after 2 t))

/-- The body at any grid point: the inputs' memrefs hold their blocks, so the body's triple applies; the invariant
    and what the core owes pass through unread. -/
theorem sound_body0 (c : Dev nD) (t : Fin cfg0.N) :
    bodyPre0 V q c t ⊢ wp frame (wpE (defs₀ (F := F)) Variants.none c none) Set.univ (bodyAt0 t) (fun _ => bodyPost0 V q c t) := by
  unfold bodyPre0 bodyPost0 bodyAt0
  simp only [before0_0, before0_1]
  rw [show (dat0 V q c).Φ t.succ = (dat0 V q c).Φ t.castSucc from rfl,
    show (dat0 V q c).owesAt () t.succ = (dat0 V q c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every grid point. -/
theorem body_obligation0 (c : Dev nD) : BodyObligation (dat0 (F := F) V q c) (defs₀ (F := F)) Variants.none () Set.univ := fun t => by
  rw [bigSep_W0, bigSep_W0]
  exact sound_body0 V q c t

end Cert.Kernel.Fr

end
-- ==== Proof.KBody1.lean ====
/-
  Region 1 of the program: one grid point of the pallas call loads its two input blocks whole, forms the
  product block on the matrix unit, and stores it whole into the output block. Stated at a parameter `V`, the
  contents of the core's buffers when the region is entered: what each window's block is at a grid point, what
  the output's staging buffer holds after the body (the one store's payload of the two input blocks), the body's
  triple, the pipeline's proof data and the body obligation at every grid point.
-/
import proofs.«152238_j13048110646074_1_alg».proof.Proof.Gen.Kernel.Launch
import proofs.«152238_j13048110646074_1_alg».proof.Proof.Gen.Kernel.Skeleton
import proofs.«152238_j13048110646074_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first input's staging buffer holds its block at every grid point, whether it was fetched there or its
    block index did not move. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The second input's staging buffer likewise. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The whole rectangle of each block: what the body loads and stores. -/
abbrev r1_a : Rect S1024x256 := Rect.unit (s := S1024x256) ![0, 0] S1024x256.size inb_S1024x256_S1024x256_0_0
abbrev r1_b : Rect S256x256 := Rect.unit (s := S256x256) ![0, 0] S256x256.size inb_S256x256_S256x256_0_0
abbrev r1_o : Rect S1024x256 := Rect.unit (s := S1024x256) ![0, 0] S1024x256.size inb_S1024x256_S1024x256_0_0

/-- The output's staging buffer after the body: its one whole-block store of the product of the two input blocks. -/
def out1_2 (x0 : Vec F S1024x256 .f32) (x1 : Vec F S256x256 .f32) : Vec F S1024x256 .f32 :=
  View.canon [⟨r1_o, k1_pay1 (View.ld x0 r1_a) (View.ld x1 r1_b)⟩]

/-- The one store covers the block. -/
theorem cover1_2 (p0 : Vec F S1024x256 .f32) (y : S1024x256.Idx) :
    ∃ pc ∈ ([⟨r1_o, p0⟩] : List (View.Piece (Elt F) S1024x256 .f32)), y ∈ pc.1.set :=
  View.cover_of_tiled [⟨r1_o, p0⟩] S1024x256.size (by rfl) y

set_option maxHeartbeats 1000000 in
/-- The body on whole staging memrefs, the inputs' at contents `x0`, `x1` and the output's at anything, runs to
    the continuation holding the inputs' as they were and the output's at `out1_2 x0 x1`. -/
theorem sound_kernel1 (c : Dev nD) (E : Set ℕ) (i : grid1.Coords)
    (arg1 : Memref sig .tc .vmem S1024x256 .f32) (harg1 : arg1.IsWhole) (arg2 : Memref sig .tc .vmem S256x256 .f32) (harg2 : arg2.IsWhole)
    (arg3 : Memref sig .tc .vmem S1024x256 .f32) (harg3 : arg3.IsWhole)
    (x0 : Vec F S1024x256 .f32) (x1 : Vec F S256x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__matmul_kernel i arg1 harg1 arg2 harg2 arg3 harg3) K := by
  simp only [cc1__matmul_kernel_eq_skeleton]; unfold cc1__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The pipeline's proof data on core `c`: the arrays as the region finds them; after the body at grid point `t`
    each input's buffer at its block and the output's at the product of the two input blocks; the invariant is the
    scoped rest and the random-number register, untouched; nothing owed. The windows' shares of their arrays are a
    parameter `q` (an array handed to two windows is held by each at a part of the full share). -/
def dat1 (q : Fin cfg1.W → PosShare TreeShare) (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q := q
  owed _ := 0

variable (q : Fin cfg1.W → PosShare TreeShare)

theorem A_eq1 (c : Dev nD) (w : Fin cfg1.W) : (dat1 V q c).A w = V c (Pipeline.arrRef spec1 w) := by
  dsimp only [dat1]

theorem after1_0 (c : Dev nD) (t : Fin cfg1.N) : (dat1 V q c).after 0 t = iblk1 V c 0 t := by dsimp only [dat1]
theorem after1_1 (c : Dev nD) (t : Fin cfg1.N) : (dat1 V q c).after 1 t = iblk1 V c 1 t := by dsimp only [dat1]
theorem after1_2 (c : Dev nD) (t : Fin cfg1.N) : (dat1 V q c).after 2 t = out1_2 (iblk1 V c 0 t) (iblk1 V c 1 t) := by dsimp only [dat1]

theorem before1_0 (c : Dev nD) (t : Fin cfg1.N) (d) : (dat1 V q c).before 0 t d = iblk1 V c 0 t :=
  before1_0_of V (dat1 V q c) (A_eq1 V q c 0) (after1_0 V q c) t d
theorem before1_1 (c : Dev nD) (t : Fin cfg1.N) (d) : (dat1 V q c).before 1 t d = iblk1 V c 1 t :=
  before1_1_of V (dat1 V q c) (A_eq1 V q c 1) (after1_1 V q c) t d

/-- What the body is called with at grid point `t`, the windows one by one, -/
def bodyPre1 (c : Dev nD) (t : Fin cfg1.N) : sProp 𝕄 :=
  iprop((dat1 V q c).Φ t.castSucc ∗ (dat1 V q c).owesAt () t.castSucc
    ∗ (∃ d, owns (c : Thread nD τ) (st1_0 t) fullShare ((dat1 V q c).before 0 t d))
    ∗ (∃ d, owns (c : Thread nD τ) (st1_1 t) fullShare ((dat1 V q c).before 1 t d))
    ∗ (∃ d, owns (c : Thread nD τ) (st1_2 t) fullShare ((dat1 V q c).before 2 t d)))

/-- and what it returns. -/
def bodyPost1 (c : Dev nD) (t : Fin cfg1.N) : sProp 𝕄 :=
  iprop((dat1 V q c).Φ t.succ ∗ (dat1 V q c).owesAt () t.succ
    ∗ owns (c : Thread nD τ) (st1_0 t) fullShare ((dat1 V q c).after 0 t)
    ∗ owns (c : Thread nD τ) (st1_1 t) fullShare ((dat1 V q c).after 1 t)
    ∗ owns (c : Thread nD τ) (st1_2 t) fullShare ((dat1 V q c).after 2 t))

/-- The body at any grid point: the inputs' memrefs hold their blocks, so the body's triple applies; the invariant
    and what the core owes pass through unread. -/
theorem sound_body1 (c : Dev nD) (t : Fin cfg1.N) :
    bodyPre1 V q c t ⊢ wp frame (wpE (defs₀ (F := F)) Variants.none c none) Set.univ (bodyAt1 t) (fun _ => bodyPost1 V q c t) := by
  unfold bodyPre1 bodyPost1 bodyAt1
  simp only [before1_0, before1_1]
  rw [show (dat1 V q c).Φ t.succ = (dat1 V q c).Φ t.castSucc from rfl,
    show (dat1 V q c).owesAt () t.succ = (dat1 V q c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every grid point. -/
theorem body_obligation1 (c : Dev nD) : BodyObligation (dat1 (F := F) V q c) (defs₀ (F := F)) Variants.none () Set.univ := fun t => by
  rw [bigSep_W1, bigSep_W1]
  exact sound_body1 V q c t

end Cert.Kernel.Fr

end
-- ==== Proof.KBody2.lean ====
/-
  Region 2 of the program: one grid point of the pallas call loads its two input blocks whole, forms the
  product block on the matrix unit, and stores it whole into the output block. Stated at a parameter `V`, the
  contents of the core's buffers when the region is entered: what each window's block is at a grid point, what
  the output's staging buffer holds after the body (the one store's payload of the two input blocks), the body's
  triple, the pipeline's proof data and the body obligation at every grid point.
-/
import proofs.«152238_j13048110646074_1_alg».proof.Proof.Gen.Kernel.Launch
import proofs.«152238_j13048110646074_1_alg».proof.Proof.Gen.Kernel.Skeleton
import proofs.«152238_j13048110646074_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The first input's staging buffer holds its block at every grid point, whether it was fetched there or its
    block index did not move. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The second input's staging buffer likewise. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The whole rectangle of each block: what the body loads and stores. -/
abbrev r2_a : Rect S1024x128 := Rect.unit (s := S1024x128) ![0, 0] S1024x128.size inb_S1024x128_S1024x128_0_0
abbrev r2_b : Rect S1024x128 := Rect.unit (s := S1024x128) ![0, 0] S1024x128.size inb_S1024x128_S1024x128_0_0
abbrev r2_o : Rect S1024x1024 := Rect.unit (s := S1024x1024) ![0, 0] S1024x1024.size inb_S1024x1024_S1024x1024_0_0

/-- The output's staging buffer after the body: its one whole-block store of the product of the two input blocks. -/
def out2_2 (x0 : Vec F S1024x128 .f32) (x1 : Vec F S1024x128 .f32) : Vec F S1024x1024 .f32 :=
  View.canon [⟨r2_o, k2_pay1 (View.ld x0 r2_a) (View.ld x1 r2_b)⟩]

/-- The one store covers the block. -/
theorem cover2_2 (p0 : Vec F S1024x1024 .f32) (y : S1024x1024.Idx) :
    ∃ pc ∈ ([⟨r2_o, p0⟩] : List (View.Piece (Elt F) S1024x1024 .f32)), y ∈ pc.1.set :=
  View.cover_of_tiled [⟨r2_o, p0⟩] S1024x1024.size (by rfl) y

set_option maxHeartbeats 1000000 in
/-- The body on whole staging memrefs, the inputs' at contents `x0`, `x1` and the output's at anything, runs to
    the continuation holding the inputs' as they were and the output's at `out2_2 x0 x1`. -/
theorem sound_kernel2 (c : Dev nD) (E : Set ℕ) (i : grid2.Coords)
    (arg1 : Memref sig .tc .vmem S1024x128 .f32) (harg1 : arg1.IsWhole) (arg2 : Memref sig .tc .vmem S1024x128 .f32) (harg2 : arg2.IsWhole)
    (arg3 : Memref sig .tc .vmem S1024x1024 .f32) (harg3 : arg3.IsWhole)
    (x0 : Vec F S1024x128 .f32) (x1 : Vec F S1024x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__zzt_kernel i arg1 harg1 arg2 harg2 arg3 harg3) K := by
  simp only [cc2__zzt_kernel_eq_skeleton]; unfold cc2__zzt_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The pipeline's proof data on core `c`: the arrays as the region finds them; after the body at grid point `t`
    each input's buffer at its block and the output's at the product of the two input blocks; the invariant is the
    scoped rest and the random-number register, untouched; nothing owed. The windows' shares of their arrays are a
    parameter `q` (an array handed to two windows is held by each at a part of the full share). -/
def dat2 (q : Fin cfg2.W → PosShare TreeShare) (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q := q
  owed _ := 0

variable (q : Fin cfg2.W → PosShare TreeShare)

theorem A_eq2 (c : Dev nD) (w : Fin cfg2.W) : (dat2 V q c).A w = V c (Pipeline.arrRef spec2 w) := by
  dsimp only [dat2]

theorem after2_0 (c : Dev nD) (t : Fin cfg2.N) : (dat2 V q c).after 0 t = iblk2 V c 0 t := by dsimp only [dat2]
theorem after2_1 (c : Dev nD) (t : Fin cfg2.N) : (dat2 V q c).after 1 t = iblk2 V c 1 t := by dsimp only [dat2]
theorem after2_2 (c : Dev nD) (t : Fin cfg2.N) : (dat2 V q c).after 2 t = out2_2 (iblk2 V c 0 t) (iblk2 V c 1 t) := by dsimp only [dat2]

theorem before2_0 (c : Dev nD) (t : Fin cfg2.N) (d) : (dat2 V q c).before 0 t d = iblk2 V c 0 t :=
  before2_0_of V (dat2 V q c) (A_eq2 V q c 0) (after2_0 V q c) t d
theorem before2_1 (c : Dev nD) (t : Fin cfg2.N) (d) : (dat2 V q c).before 1 t d = iblk2 V c 1 t :=
  before2_1_of V (dat2 V q c) (A_eq2 V q c 1) (after2_1 V q c) t d

/-- What the body is called with at grid point `t`, the windows one by one, -/
def bodyPre2 (c : Dev nD) (t : Fin cfg2.N) : sProp 𝕄 :=
  iprop((dat2 V q c).Φ t.castSucc ∗ (dat2 V q c).owesAt () t.castSucc
    ∗ (∃ d, owns (c : Thread nD τ) (st2_0 t) fullShare ((dat2 V q c).before 0 t d))
    ∗ (∃ d, owns (c : Thread nD τ) (st2_1 t) fullShare ((dat2 V q c).before 1 t d))
    ∗ (∃ d, owns (c : Thread nD τ) (st2_2 t) fullShare ((dat2 V q c).before 2 t d)))

/-- and what it returns. -/
def bodyPost2 (c : Dev nD) (t : Fin cfg2.N) : sProp 𝕄 :=
  iprop((dat2 V q c).Φ t.succ ∗ (dat2 V q c).owesAt () t.succ
    ∗ owns (c : Thread nD τ) (st2_0 t) fullShare ((dat2 V q c).after 0 t)
    ∗ owns (c : Thread nD τ) (st2_1 t) fullShare ((dat2 V q c).after 1 t)
    ∗ owns (c : Thread nD τ) (st2_2 t) fullShare ((dat2 V q c).after 2 t))

/-- The body at any grid point: the inputs' memrefs hold their blocks, so the body's triple applies; the invariant
    and what the core owes pass through unread. -/
theorem sound_body2 (c : Dev nD) (t : Fin cfg2.N) :
    bodyPre2 V q c t ⊢ wp frame (wpE (defs₀ (F := F)) Variants.none c none) Set.univ (bodyAt2 t) (fun _ => bodyPost2 V q c t) := by
  unfold bodyPre2 bodyPost2 bodyAt2
  simp only [before2_0, before2_1]
  rw [show (dat2 V q c).Φ t.succ = (dat2 V q c).Φ t.castSucc from rfl,
    show (dat2 V q c).owesAt () t.succ = (dat2 V q c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every grid point. -/
theorem body_obligation2 (c : Dev nD) : BodyObligation (dat2 (F := F) V q c) (defs₀ (F := F)) Variants.none () Set.univ := fun t => by
  rw [bigSep_W2, bigSep_W2]
  exact sound_body2 V q c t

end Cert.Kernel.Fr

end
-- ==== Proof.KRun.lean ====
/-
  The run of the whole program: three kernel regions with two stretches of host operations between them.
  The contents of the core's buffers are followed from the launch through every item: a host stretch applies its
  operations; a region leaves its output array at what its write-backs made of it and every other buffer as
  entered. Each region is entered from "every unscoped buffer at the contents so far, the random-number register at
  some state, nothing owed" and left at the same with the contents updated. The third region reads one array
  through two input windows, each holding it at half of the full share.
-/
import proofs.«152238_j13048110646074_1_alg».proof.Proof.KBody0
import proofs.«152238_j13048110646074_1_alg».proof.Proof.KBody1
import proofs.«152238_j13048110646074_1_alg».proof.Proof.KBody2
import proofs.«152238_j13048110646074_1_alg».proof.Proof.Gen.Kernel.Regions

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' shares -/

/-- Every window of the first two regions holds its array whole. -/
abbrev qFull0 : Fin cfg0.W → PosShare TreeShare := fun _ => fullShare
abbrev qFull1 : Fin cfg1.W → PosShare TreeShare := fun _ => fullShare
/-- The third region's two input windows read ONE array: each holds it at half of the full share. -/
abbrev qHalf2 : Fin cfg2.W → PosShare TreeShare := fun w => match w with
  | ⟨0, _⟩ => fullShare.left
  | ⟨1, _⟩ => fullShare.right
  | ⟨2, _⟩ => fullShare

/-! ## The buffer contents at each boundary -/

/-- Core `c`'s buffers at launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After region 0: its arrays at what the pipeline leaves, every other buffer as entered. -/
def W1 (c : Dev nD) : Valuation τ sig (Elt F) :=
  Pipeline.withArrays spec0 c (W0 m ρ c) fun w => (dat0 (V0 m ρ) qFull0 c).arrAt w cfg0.N
theorem W1_arr (c : Dev nD) (w : Fin cfg0.W) :
    W1 m ρ c (Proc.devRef .tc (Pipeline.arrRef spec0 w)) = (dat0 (V0 m ρ) qFull0 c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) qFull0 c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the first host stretch (region 1's entry). -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- After region 1. -/
def W3 (c : Dev nD) : Valuation τ sig (Elt F) :=
  Pipeline.withArrays spec1 c (W2 m ρ c) fun w => (dat1 (V2 m ρ) qFull1 c).arrAt w cfg1.N
theorem W3_arr (c : Dev nD) (w : Fin cfg1.W) :
    W3 m ρ c (Proc.devRef .tc (Pipeline.arrRef spec1 w)) = (dat1 (V2 m ρ) qFull1 c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) qFull1 c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the second host stretch (region 2's entry). -/
abbrev W4 : Dev nD → Valuation τ sig (Elt F) := fun c => StableHlo.after hostOps2 (W3 m ρ c)
abbrev V4 : (c : Dev nD) → (b : Ref sig .tc) → Buf (Elt F) ((c : Thread nD τ).loc b) := fun c b => W4 m ρ c b
/-- After region 2: its output array at what the pipeline leaves, every other buffer as entered (its two input
    windows read one array and write nothing). -/
def W5 (c : Dev nD) : Valuation τ sig (Elt F) :=
  Function.update (W4 m ρ c) (Proc.devRef .tc main_v39) ((dat2 (V4 m ρ) qHalf2 c).arrAt 2 cfg2.N)
theorem W5_out (c : Dev nD) : W5 m ρ c (Proc.devRef .tc main_v39) = (dat2 (V4 m ρ) qHalf2 c).arrAt 2 cfg2.N := by
  unfold W5; exact Function.update_self ..
theorem W5_of_ne (c : Dev nD) (b : Ref sig .tc) (hb : b ≠ main_v39) :
    W5 m ρ c (Proc.devRef .tc b) = W4 m ρ c (Proc.devRef .tc b) := by
  unfold W5; exact Function.update_of_ne (StableHlo.devRef_ne_of_ne hb) ..
abbrev V5 : (c : Dev nD) → (b : Ref sig .tc) → Buf (Elt F) ((c : Thread nD τ).loc b) := fun c b => W5 m ρ c b

/-! ## The proof data family and the thread state -/

/-- No pipeline has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V0 m ρ) qFull0 c
  | ⟨1, _⟩ => fun c => dat1 (V2 m ρ) qFull1 c
  | ⟨2, _⟩ => fun c => dat2 (V4 m ρ) qHalf2 c
abbrev 𝒱₀ : Variants := Variants.none
abbrev L : GSem nD τ sig → Finset Unit := fun _ => ∅
abbrev lv : GSem nD τ sig → Unit → ℕ := fun _ _ => 0
/-- What rides beside the buffers through every item: the random-number register at some state, nothing owed. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps1_fresh' : (hostOps1 : List (HloOp τ sig (Elt F))).Forall fun op => op.fresh = ∅ := by
  simp only [List.Forall]; repeat' constructor
theorem hostOps2_fresh' : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last contents, the register at some state. -/
abbrev Tₙ (c : Dev nD) : sProp 𝕄 := iprop(StableHlo.held (c : Thread nD τ) (Pipeline.ucRefs τ sig) (W5 m ρ c) ∗ ∃ r, prngReg c r)

set_option backward.isDefEq.respectTransparency.types false in
/-- Region 0 over the thread state: entered from every unscoped buffer at the contents so far, left at the
    contents with its output array updated. Its arrays are split out of the unscoped buffers and put back at
    the exit contents; the random-number register goes into the invariant and comes back; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) qFull0 c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents so far, left at the
    contents with its output array updated. Its arrays are split out of the unscoped buffers and put back at
    the exit contents; the random-number register goes into the invariant and comes back; nothing is owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) qFull1 c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 2: one array behind two input windows -/

/-- The buffers behind region 2's arrays are two: the array both input windows read, and the output. -/
theorem arrImage2 : (Finset.univ.image (Pipeline.arrRef spec2) : Finset (Ref sig .tc)) = {main_v37, main_v39} := by decide

/-- Those two buffers, each whole at the full share. -/
theorem arrBufs2_eq (c : Dev nD) (V : (b : Ref sig .tc) → Buf (Elt F) ((c : Thread nD τ).loc b)) :
    (Pipeline.arrBufs (Ix := Unit) (Name := ℕ) (U := UR sig nD τ) (Lvl := ℕ) spec2 c V : sProp 𝕄)
      = iprop((((c : Thread nD τ).loc main_v37) ↦{fullShare} V main_v37) ∗ (((c : Thread nD τ).loc main_v39) ↦{fullShare} V main_v39)) := by
  unfold Pipeline.arrBufs
  rw [arrImage2, bigSep_insert (by decide), bigSep_singleton]
  rfl

/-- Region 2's arrays as the pipeline holds them: the shared array at the two halves of the full share, one per
    input window, and the output array whole. -/
theorem arrays2_eq (V : (c : Dev nD) → (b : Ref sig .tc) → Buf (Elt F) ((c : Thread nD τ).loc b)) (c : Dev nD)
    (G : (w : Fin cfg2.W) → Buf (Elt F) ((cfg2.win w).arr.view.loc (c : Thread nD τ))) :
    ((dat2 V qHalf2 c).arrays G : sProp 𝕄)
      = iprop((((c : Thread nD τ).loc main_v37) ↦{fullShare.left} G 0) ∗ (((c : Thread nD τ).loc main_v37) ↦{fullShare.right} G 1)
          ∗ (((c : Thread nD τ).loc main_v39) ↦{fullShare} G 2)) := by
  unfold Pipeline.Dat.arrays
  rw [bigSep_W2, (arr_whole2 0).set_eq_univ, (arr_whole2 2).set_eq_univ]
  rfl

set_option backward.isDefEq.respectTransparency.types false in
/-- Region 2 over the thread state. At entry the shared array's buffer is split along the share into the two
    input windows' halves; at exit the halves, both still at the entry contents (an input array is never written),
    are joined again, and the output array stands at what the write-backs left. -/
def reg2 : Pipeline.RegionSeg (pcfgs (F := F)) adm (pdats m ρ) () defs₀ 𝒱₀ L lv 2 where
  win := winFacts₀2
  block_pos := block_pos2
  stage_whole := stage_whole2
  K := PEmpty
  osem k := k.elim
  ho := Pipeline.OwnSemFacts.none _
  hbody c := (body_obligation2 (V4 m ρ) qHalf2 c).loose
  hwaits := Pipeline.hwaits_of_owed_zero _ _ _ _ L lv 2 fun _ _ => rfl
  pre c := iprop(StableHlo.held (c : Thread nD τ) (Pipeline.ucRefs τ sig) (W4 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit : (unscopedBufs (Ix := Unit) (Name := ℕ) (U := UR sig nD τ) (Lvl := ℕ) c (V4 m ρ c) : sProp 𝕄)
        ⊢ iprop((pdats m ρ 2 c).arrays ((pdats m ρ 2 c).arrAt · 0) ∗ Pipeline.unscopedRest spec2 c (V4 m ρ c)) := by
      rw [Pipeline.unscopedBufs_split₀ (Pipeline.pin (pcfgs (F := F)) adm) 2 winFacts₀2.arr_unscoped c (V4 m ρ c)]
      refine sep_mono ?_ .rfl
      show Pipeline.arrBufs spec2 c (V4 m ρ c) ⊢ _
      rw [show (pdats m ρ 2 c) = dat2 (V4 m ρ) qHalf2 c from rfl, arrays2_eq, arrBufs2_eq]
      iintro ⟨H37, H39⟩
      ihave H := (pointsTo_share (PosShare.mem_left_op_right fullShare)).1 $$ H37
      icases H with ⟨Ha, Hb⟩
      isplitl [Ha]; · iexact Ha
      isplitl [Hb]; · iexact Hb
      iexact H39
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin : iprop((pdats m ρ 2 c).arrays ((pdats m ρ 2 c).arrAt · cfg2.N) ∗ Pipeline.unscopedRest spec2 c (V4 m ρ c))
        ⊢ (unscopedBufs (Ix := Unit) (Name := ℕ) (U := UR sig nD τ) (Lvl := ℕ) c (V5 m ρ c) : sProp 𝕄) := by
      rw [Pipeline.unscopedBufs_split₀ (Pipeline.pin (pcfgs (F := F)) adm) 2 winFacts₀2.arr_unscoped c (V5 m ρ c)]
      refine sep_mono ?_ (Entails.of_eq ?_)
      · show _ ⊢ Pipeline.arrBufs spec2 c (V5 m ρ c)
        rw [show (pdats m ρ 2 c) = dat2 (V4 m ρ) qHalf2 c from rfl, arrays2_eq, arrBufs2_eq,
          show V5 m ρ c main_v37 = V4 m ρ c main_v37 from W5_of_ne m ρ c main_v37 (by decide),
          show V5 m ρ c main_v39 = (dat2 (V4 m ρ) qHalf2 c).arrAt 2 cfg2.N from W5_out m ρ c,
          show (dat2 (V4 m ρ) qHalf2 c).arrAt 0 cfg2.N = V4 m ρ c main_v37 from
            ((dat2 (V4 m ρ) qHalf2 c).arrAt_in 0 rfl _).trans (A_eq2 (V4 m ρ) qHalf2 c 0),
          show (dat2 (V4 m ρ) qHalf2 c).arrAt 1 cfg2.N = V4 m ρ c main_v37 from
            ((dat2 (V4 m ρ) qHalf2 c).arrAt_in 1 rfl _).trans (A_eq2 (V4 m ρ) qHalf2 c 1)]
        iintro ⟨Ha, Hb, H39⟩
        isplitl [Ha Hb]
        · iapply (pointsTo_share (PosShare.mem_left_op_right fullShare)).2
          isplitl [Ha] <;> iassumption
        iexact H39
      · unfold Pipeline.unscopedRest
        exact bigSep_congr fun b hb => by
          rw [show V5 m ρ c b = V4 m ρ c b from W5_of_ne m ρ c b fun e =>
            (Finset.mem_sdiff.mp hb).2 (e ▸ Finset.mem_image.mpr ⟨2, Finset.mem_univ _, rfl⟩)]
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's five items in order. -/
abbrev segs : List (Pipeline.Seg (pcfgs (F := F)) adm (pdats m ρ) () defs₀ 𝒱₀ L lv) :=
  [ .region (reg0 m ρ),
    .host (hseg hostOps1 hostOps1_sub hostOps1_fresh' (W1 m ρ)),
    .region (reg1 m ρ),
    .host (hseg hostOps2 hostOps2_sub hostOps2_fresh' (W3 m ρ)),
    .region (reg2 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting,
    and the final memory holds every unscoped buffer of every core at the last contents of the fold. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-! ## Reading the last contents -/

/-- A buffer that neither host stretch writes and that is no array of regions 1 and 2's outputs holds at the end what
    it held after region 0. -/
theorem W5_to_W1 (c : Dev nD) (b : Ref sig .tc) (h39 : b ≠ main_v39) (h2 : b ∉ hostOps2_W)
    (hs1 : ∀ w, Pipeline.arrRef spec1 w ≠ b) (h1 : b ∉ hostOps1_W) :
    W5 m ρ c (Proc.devRef .tc b) = W1 m ρ c (Proc.devRef .tc b) :=
  (W5_of_ne m ρ c b h39).trans <| (StableHlo.after_of_writes_sub hostOps2 _ hostOps2_writes h2).trans <|
    (W3_of_ne m ρ c b hs1).trans <| StableHlo.after_of_writes_sub hostOps1 _ hostOps1_writes h1

/-- Region 0 reads the node features through its first window and writes nothing there. -/
theorem W1_main_arg0 (c : Dev nD) : W1 m ρ c (Proc.devRef .tc main_arg0) = m ((c : Thread nD τ).loc main_arg0) :=
  (W1_arr m ρ c 0).trans (((dat0 (V0 m ρ) qFull0 c).arrAt_in 0 rfl _).trans (A_eq0 (V0 m ρ) qFull0 c 0))
/-- Region 0 reads the first weight matrix through its second window and writes nothing there. -/
theorem W1_main_arg3 (c : Dev nD) : W1 m ρ c (Proc.devRef .tc main_arg3) = m ((c : Thread nD τ).loc main_arg3) :=
  (W1_arr m ρ c 1).trans (((dat0 (V0 m ρ) qFull0 c).arrAt_in 1 rfl _).trans (A_eq0 (V0 m ρ) qFull0 c 1))
theorem W1_main_arg1 (c : Dev nD) : W1 m ρ c (Proc.devRef .tc main_arg1) = m ((c : Thread nD τ).loc main_arg1) :=
  W1_of_ne m ρ c main_arg1 (by decide)
theorem W1_main_arg2 (c : Dev nD) : W1 m ρ c (Proc.devRef .tc main_arg2) = m ((c : Thread nD τ).loc main_arg2) :=
  W1_of_ne m ρ c main_arg2 (by decide)
theorem W1_main_arg4 (c : Dev nD) : W1 m ρ c (Proc.devRef .tc main_arg4) = m ((c : Thread nD τ).loc main_arg4) :=
  W1_of_ne m ρ c main_arg4 (by decide)
theorem W1_main_arg5 (c : Dev nD) : W1 m ρ c (Proc.devRef .tc main_arg5) = m ((c : Thread nD τ).loc main_arg5) :=
  W1_of_ne m ρ c main_arg5 (by decide)

/-- Every argument array ends as launched: no host operation writes one, and a region only reads it. -/
theorem W5_main_arg0 (c : Dev nD) : W5 m ρ c (Proc.devRef .tc main_arg0) = m ((c : Thread nD τ).loc main_arg0) :=
  (W5_to_W1 m ρ c main_arg0 (by decide) (by decide) (by decide) (by decide)).trans (W1_main_arg0 m ρ c)
theorem W5_main_arg1 (c : Dev nD) : W5 m ρ c (Proc.devRef .tc main_arg1) = m ((c : Thread nD τ).loc main_arg1) :=
  (W5_to_W1 m ρ c main_arg1 (by decide) (by decide) (by decide) (by decide)).trans (W1_main_arg1 m ρ c)
theorem W5_main_arg2 (c : Dev nD) : W5 m ρ c (Proc.devRef .tc main_arg2) = m ((c : Thread nD τ).loc main_arg2) :=
  (W5_to_W1 m ρ c main_arg2 (by decide) (by decide) (by decide) (by decide)).trans (W1_main_arg2 m ρ c)
theorem W5_main_arg3 (c : Dev nD) : W5 m ρ c (Proc.devRef .tc main_arg3) = m ((c : Thread nD τ).loc main_arg3) :=
  (W5_to_W1 m ρ c main_arg3 (by decide) (by decide) (by decide) (by decide)).trans (W1_main_arg3 m ρ c)
theorem W5_main_arg4 (c : Dev nD) : W5 m ρ c (Proc.devRef .tc main_arg4) = m ((c : Thread nD τ).loc main_arg4) :=
  (W5_to_W1 m ρ c main_arg4 (by decide) (by decide) (by decide) (by decide)).trans (W1_main_arg4 m ρ c)
theorem W5_main_arg5 (c : Dev nD) : W5 m ρ c (Proc.devRef .tc main_arg5) = m ((c : Thread nD τ).loc main_arg5) :=
  (W5_to_W1 m ρ c main_arg5 (by decide) (by decide) (by decide) (by decide)).trans (W1_main_arg5 m ρ c)

/-- THE FRAME: every weakly fair execution of @main terminates, nothing faulting, and every final state has the
    argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c),
     (h c _ (mem_uc main_arg5 (by decide))).trans (W5_main_arg5 m ρ c)⟩) (run_all m ρ)

end Cert.Kernel.Fr

end
-- ==== Proof.KiBody0.lean ====
/-
  Region 0 of the program: one grid point of the pallas call loads its two input blocks whole, forms the
  product block on the matrix unit, and stores it whole into the output block. Stated at a parameter `V`, the
  contents of the core's buffers when the region is entered: what each window's block is at a grid point, what
  the output's staging buffer holds after the body (the one store's payload of the two input blocks), the body's
  triple, the pipeline's proof data and the body obligation at every grid point.
-/
import proofs.«152238_j13048110646074_1_alg».proof.Proof.Gen.KernelIdeal.Launch
import proofs.«152238_j13048110646074_1_alg».proof.Proof.Gen.KernelIdeal.Skeleton
import proofs.«152238_j13048110646074_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first input's staging buffer holds its block at every grid point, whether it was fetched there or its
    block index did not move. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The second input's staging buffer likewise. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole rectangle of each block: what the body loads and stores. -/
abbrev r0_a : Rect S1024x512 := Rect.unit (s := S1024x512) ![0, 0] S1024x512.size inb_S1024x512_S1024x512_0_0
abbrev r0_b : Rect S512x256 := Rect.unit (s := S512x256) ![0, 0] S512x256.size inb_S512x256_S512x256_0_0
abbrev r0_o : Rect S1024x256 := Rect.unit (s := S1024x256) ![0, 0] S1024x256.size inb_S1024x256_S1024x256_0_0

/-- The output's staging buffer after the body: its one whole-block store of the product of the two input blocks. -/
def out0_2 (x0 : Vec F S1024x512 .f32) (x1 : Vec F S512x256 .f32) : Vec F S1024x256 .f32 :=
  View.canon [⟨r0_o, k0_pay1 (View.ld x0 r0_a) (View.ld x1 r0_b)⟩]

/-- The one store covers the block. -/
theorem cover0_2 (p0 : Vec F S1024x256 .f32) (y : S1024x256.Idx) :
    ∃ pc ∈ ([⟨r0_o, p0⟩] : List (View.Piece (Elt F) S1024x256 .f32)), y ∈ pc.1.set :=
  View.cover_of_tiled [⟨r0_o, p0⟩] S1024x256.size (by rfl) y

set_option maxHeartbeats 1000000 in
/-- The body on whole staging memrefs, the inputs' at contents `x0`, `x1` and the output's at anything, runs to
    the continuation holding the inputs' as they were and the output's at `out0_2 x0 x1`. -/
theorem sound_kernel0 (c : Dev nD) (E : Set ℕ) (i : grid0.Coords)
    (arg1 : Memref sig .tc .vmem S1024x512 .f32) (harg1 : arg1.IsWhole) (arg2 : Memref sig .tc .vmem S512x256 .f32) (harg2 : arg2.IsWhole)
    (arg3 : Memref sig .tc .vmem S1024x256 .f32) (harg3 : arg3.IsWhole)
    (x0 : Vec F S1024x512 .f32) (x1 : Vec F S512x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The pipeline's proof data on core `c`: the arrays as the region finds them; after the body at grid point `t`
    each input's buffer at its block and the output's at the product of the two input blocks; the invariant is the
    scoped rest and the random-number register, untouched; nothing owed. The windows' shares of their arrays are a
    parameter `q` (an array handed to two windows is held by each at a part of the full share). -/
def dat0 (q : Fin cfg0.W → PosShare TreeShare) (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q := q
  owed _ := 0

variable (q : Fin cfg0.W → PosShare TreeShare)

theorem A_eq0 (c : Dev nD) (w : Fin cfg0.W) : (dat0 V q c).A w = V c (Pipeline.arrRef spec0 w) := by
  dsimp only [dat0]

theorem after0_0 (c : Dev nD) (t : Fin cfg0.N) : (dat0 V q c).after 0 t = iblk0 V c 0 t := by dsimp only [dat0]
theorem after0_1 (c : Dev nD) (t : Fin cfg0.N) : (dat0 V q c).after 1 t = iblk0 V c 1 t := by dsimp only [dat0]
theorem after0_2 (c : Dev nD) (t : Fin cfg0.N) : (dat0 V q c).after 2 t = out0_2 (iblk0 V c 0 t) (iblk0 V c 1 t) := by dsimp only [dat0]

theorem before0_0 (c : Dev nD) (t : Fin cfg0.N) (d) : (dat0 V q c).before 0 t d = iblk0 V c 0 t :=
  before0_0_of V (dat0 V q c) (A_eq0 V q c 0) (after0_0 V q c) t d
theorem before0_1 (c : Dev nD) (t : Fin cfg0.N) (d) : (dat0 V q c).before 1 t d = iblk0 V c 1 t :=
  before0_1_of V (dat0 V q c) (A_eq0 V q c 1) (after0_1 V q c) t d

/-- What the body is called with at grid point `t`, the windows one by one, -/
def bodyPre0 (c : Dev nD) (t : Fin cfg0.N) : sProp 𝕄 :=
  iprop((dat0 V q c).Φ t.castSucc ∗ (dat0 V q c).owesAt () t.castSucc
    ∗ (∃ d, owns (c : Thread nD τ) (st0_0 t) fullShare ((dat0 V q c).before 0 t d))
    ∗ (∃ d, owns (c : Thread nD τ) (st0_1 t) fullShare ((dat0 V q c).before 1 t d))
    ∗ (∃ d, owns (c : Thread nD τ) (st0_2 t) fullShare ((dat0 V q c).before 2 t d)))

/-- and what it returns. -/
def bodyPost0 (c : Dev nD) (t : Fin cfg0.N) : sProp 𝕄 :=
  iprop((dat0 V q c).Φ t.succ ∗ (dat0 V q c).owesAt () t.succ
    ∗ owns (c : Thread nD τ) (st0_0 t) fullShare ((dat0 V q c).after 0 t)
    ∗ owns (c : Thread nD τ) (st0_1 t) fullShare ((dat0 V q c).after 1 t)
    ∗ owns (c : Thread nD τ) (st0_2 t) fullShare ((dat0 V q c).after 2 t))

/-- The body at any grid point: the inputs' memrefs hold their blocks, so the body's triple applies; the invariant
    and what the core owes pass through unread. -/
theorem sound_body0 (c : Dev nD) (t : Fin cfg0.N) :
    bodyPre0 V q c t ⊢ wp frame (wpE (defs₀ (F := F)) Variants.none c none) Set.univ (bodyAt0 t) (fun _ => bodyPost0 V q c t) := by
  unfold bodyPre0 bodyPost0 bodyAt0
  simp only [before0_0, before0_1]
  rw [show (dat0 V q c).Φ t.succ = (dat0 V q c).Φ t.castSucc from rfl,
    show (dat0 V q c).owesAt () t.succ = (dat0 V q c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every grid point. -/
theorem body_obligation0 (c : Dev nD) : BodyObligation (dat0 (F := F) V q c) (defs₀ (F := F)) Variants.none () Set.univ := fun t => by
  rw [bigSep_W0, bigSep_W0]
  exact sound_body0 V q c t

end Cert.KernelIdeal.Fr

end
-- ==== Proof.KiBody1.lean ====
/-
  Region 1 of the program: one grid point of the pallas call loads its two input blocks whole, forms the
  product block on the matrix unit, and stores it whole into the output block. Stated at a parameter `V`, the
  contents of the core's buffers when the region is entered: what each window's block is at a grid point, what
  the output's staging buffer holds after the body (the one store's payload of the two input blocks), the body's
  triple, the pipeline's proof data and the body obligation at every grid point.
-/
import proofs.«152238_j13048110646074_1_alg».proof.Proof.Gen.KernelIdeal.Launch
import proofs.«152238_j13048110646074_1_alg».proof.Proof.Gen.KernelIdeal.Skeleton
import proofs.«152238_j13048110646074_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first input's staging buffer holds its block at every grid point, whether it was fetched there or its
    block index did not move. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The second input's staging buffer likewise. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The whole rectangle of each block: what the body loads and stores. -/
abbrev r1_a : Rect S1024x256 := Rect.unit (s := S1024x256) ![0, 0] S1024x256.size inb_S1024x256_S1024x256_0_0
abbrev r1_b : Rect S256x256 := Rect.unit (s := S256x256) ![0, 0] S256x256.size inb_S256x256_S256x256_0_0
abbrev r1_o : Rect S1024x256 := Rect.unit (s := S1024x256) ![0, 0] S1024x256.size inb_S1024x256_S1024x256_0_0

/-- The output's staging buffer after the body: its one whole-block store of the product of the two input blocks. -/
def out1_2 (x0 : Vec F S1024x256 .f32) (x1 : Vec F S256x256 .f32) : Vec F S1024x256 .f32 :=
  View.canon [⟨r1_o, k1_pay1 (View.ld x0 r1_a) (View.ld x1 r1_b)⟩]

/-- The one store covers the block. -/
theorem cover1_2 (p0 : Vec F S1024x256 .f32) (y : S1024x256.Idx) :
    ∃ pc ∈ ([⟨r1_o, p0⟩] : List (View.Piece (Elt F) S1024x256 .f32)), y ∈ pc.1.set :=
  View.cover_of_tiled [⟨r1_o, p0⟩] S1024x256.size (by rfl) y

set_option maxHeartbeats 1000000 in
/-- The body on whole staging memrefs, the inputs' at contents `x0`, `x1` and the output's at anything, runs to
    the continuation holding the inputs' as they were and the output's at `out1_2 x0 x1`. -/
theorem sound_kernel1 (c : Dev nD) (E : Set ℕ) (i : grid1.Coords)
    (arg1 : Memref sig .tc .vmem S1024x256 .f32) (harg1 : arg1.IsWhole) (arg2 : Memref sig .tc .vmem S256x256 .f32) (harg2 : arg2.IsWhole)
    (arg3 : Memref sig .tc .vmem S1024x256 .f32) (harg3 : arg3.IsWhole)
    (x0 : Vec F S1024x256 .f32) (x1 : Vec F S256x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__matmul_kernel i arg1 harg1 arg2 harg2 arg3 harg3) K := by
  simp only [cc1__matmul_kernel_eq_skeleton]; unfold cc1__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The pipeline's proof data on core `c`: the arrays as the region finds them; after the body at grid point `t`
    each input's buffer at its block and the output's at the product of the two input blocks; the invariant is the
    scoped rest and the random-number register, untouched; nothing owed. The windows' shares of their arrays are a
    parameter `q` (an array handed to two windows is held by each at a part of the full share). -/
def dat1 (q : Fin cfg1.W → PosShare TreeShare) (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q := q
  owed _ := 0

variable (q : Fin cfg1.W → PosShare TreeShare)

theorem A_eq1 (c : Dev nD) (w : Fin cfg1.W) : (dat1 V q c).A w = V c (Pipeline.arrRef spec1 w) := by
  dsimp only [dat1]

theorem after1_0 (c : Dev nD) (t : Fin cfg1.N) : (dat1 V q c).after 0 t = iblk1 V c 0 t := by dsimp only [dat1]
theorem after1_1 (c : Dev nD) (t : Fin cfg1.N) : (dat1 V q c).after 1 t = iblk1 V c 1 t := by dsimp only [dat1]
theorem after1_2 (c : Dev nD) (t : Fin cfg1.N) : (dat1 V q c).after 2 t = out1_2 (iblk1 V c 0 t) (iblk1 V c 1 t) := by dsimp only [dat1]

theorem before1_0 (c : Dev nD) (t : Fin cfg1.N) (d) : (dat1 V q c).before 0 t d = iblk1 V c 0 t :=
  before1_0_of V (dat1 V q c) (A_eq1 V q c 0) (after1_0 V q c) t d
theorem before1_1 (c : Dev nD) (t : Fin cfg1.N) (d) : (dat1 V q c).before 1 t d = iblk1 V c 1 t :=
  before1_1_of V (dat1 V q c) (A_eq1 V q c 1) (after1_1 V q c) t d

/-- What the body is called with at grid point `t`, the windows one by one, -/
def bodyPre1 (c : Dev nD) (t : Fin cfg1.N) : sProp 𝕄 :=
  iprop((dat1 V q c).Φ t.castSucc ∗ (dat1 V q c).owesAt () t.castSucc
    ∗ (∃ d, owns (c : Thread nD τ) (st1_0 t) fullShare ((dat1 V q c).before 0 t d))
    ∗ (∃ d, owns (c : Thread nD τ) (st1_1 t) fullShare ((dat1 V q c).before 1 t d))
    ∗ (∃ d, owns (c : Thread nD τ) (st1_2 t) fullShare ((dat1 V q c).before 2 t d)))

/-- and what it returns. -/
def bodyPost1 (c : Dev nD) (t : Fin cfg1.N) : sProp 𝕄 :=
  iprop((dat1 V q c).Φ t.succ ∗ (dat1 V q c).owesAt () t.succ
    ∗ owns (c : Thread nD τ) (st1_0 t) fullShare ((dat1 V q c).after 0 t)
    ∗ owns (c : Thread nD τ) (st1_1 t) fullShare ((dat1 V q c).after 1 t)
    ∗ owns (c : Thread nD τ) (st1_2 t) fullShare ((dat1 V q c).after 2 t))

/-- The body at any grid point: the inputs' memrefs hold their blocks, so the body's triple applies; the invariant
    and what the core owes pass through unread. -/
theorem sound_body1 (c : Dev nD) (t : Fin cfg1.N) :
    bodyPre1 V q c t ⊢ wp frame (wpE (defs₀ (F := F)) Variants.none c none) Set.univ (bodyAt1 t) (fun _ => bodyPost1 V q c t) := by
  unfold bodyPre1 bodyPost1 bodyAt1
  simp only [before1_0, before1_1]
  rw [show (dat1 V q c).Φ t.succ = (dat1 V q c).Φ t.castSucc from rfl,
    show (dat1 V q c).owesAt () t.succ = (dat1 V q c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every grid point. -/
theorem body_obligation1 (c : Dev nD) : BodyObligation (dat1 (F := F) V q c) (defs₀ (F := F)) Variants.none () Set.univ := fun t => by
  rw [bigSep_W1, bigSep_W1]
  exact sound_body1 V q c t

end Cert.KernelIdeal.Fr

end
-- ==== Proof.KiBody2.lean ====
/-
  Region 2 of the program: one grid point of the pallas call loads its two input blocks whole, forms the
  product block on the matrix unit, and stores it whole into the output block. Stated at a parameter `V`, the
  contents of the core's buffers when the region is entered: what each window's block is at a grid point, what
  the output's staging buffer holds after the body (the one store's payload of the two input blocks), the body's
  triple, the pipeline's proof data and the body obligation at every grid point.
-/
import proofs.«152238_j13048110646074_1_alg».proof.Proof.Gen.KernelIdeal.Launch
import proofs.«152238_j13048110646074_1_alg».proof.Proof.Gen.KernelIdeal.Skeleton
import proofs.«152238_j13048110646074_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The first input's staging buffer holds its block at every grid point, whether it was fetched there or its
    block index did not move. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The second input's staging buffer likewise. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The whole rectangle of each block: what the body loads and stores. -/
abbrev r2_a : Rect S1024x128 := Rect.unit (s := S1024x128) ![0, 0] S1024x128.size inb_S1024x128_S1024x128_0_0
abbrev r2_b : Rect S1024x128 := Rect.unit (s := S1024x128) ![0, 0] S1024x128.size inb_S1024x128_S1024x128_0_0
abbrev r2_o : Rect S1024x1024 := Rect.unit (s := S1024x1024) ![0, 0] S1024x1024.size inb_S1024x1024_S1024x1024_0_0

/-- The output's staging buffer after the body: its one whole-block store of the product of the two input blocks. -/
def out2_2 (x0 : Vec F S1024x128 .f32) (x1 : Vec F S1024x128 .f32) : Vec F S1024x1024 .f32 :=
  View.canon [⟨r2_o, k2_pay1 (View.ld x0 r2_a) (View.ld x1 r2_b)⟩]

/-- The one store covers the block. -/
theorem cover2_2 (p0 : Vec F S1024x1024 .f32) (y : S1024x1024.Idx) :
    ∃ pc ∈ ([⟨r2_o, p0⟩] : List (View.Piece (Elt F) S1024x1024 .f32)), y ∈ pc.1.set :=
  View.cover_of_tiled [⟨r2_o, p0⟩] S1024x1024.size (by rfl) y

set_option maxHeartbeats 1000000 in
/-- The body on whole staging memrefs, the inputs' at contents `x0`, `x1` and the output's at anything, runs to
    the continuation holding the inputs' as they were and the output's at `out2_2 x0 x1`. -/
theorem sound_kernel2 (c : Dev nD) (E : Set ℕ) (i : grid2.Coords)
    (arg1 : Memref sig .tc .vmem S1024x128 .f32) (harg1 : arg1.IsWhole) (arg2 : Memref sig .tc .vmem S1024x128 .f32) (harg2 : arg2.IsWhole)
    (arg3 : Memref sig .tc .vmem S1024x1024 .f32) (harg3 : arg3.IsWhole)
    (x0 : Vec F S1024x128 .f32) (x1 : Vec F S1024x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__zzt_kernel i arg1 harg1 arg2 harg2 arg3 harg3) K := by
  simp only [cc2__zzt_kernel_eq_skeleton]; unfold cc2__zzt_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The pipeline's proof data on core `c`: the arrays as the region finds them; after the body at grid point `t`
    each input's buffer at its block and the output's at the product of the two input blocks; the invariant is the
    scoped rest and the random-number register, untouched; nothing owed. The windows' shares of their arrays are a
    parameter `q` (an array handed to two windows is held by each at a part of the full share). -/
def dat2 (q : Fin cfg2.W → PosShare TreeShare) (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q := q
  owed _ := 0

variable (q : Fin cfg2.W → PosShare TreeShare)

theorem A_eq2 (c : Dev nD) (w : Fin cfg2.W) : (dat2 V q c).A w = V c (Pipeline.arrRef spec2 w) := by
  dsimp only [dat2]

theorem after2_0 (c : Dev nD) (t : Fin cfg2.N) : (dat2 V q c).after 0 t = iblk2 V c 0 t := by dsimp only [dat2]
theorem after2_1 (c : Dev nD) (t : Fin cfg2.N) : (dat2 V q c).after 1 t = iblk2 V c 1 t := by dsimp only [dat2]
theorem after2_2 (c : Dev nD) (t : Fin cfg2.N) : (dat2 V q c).after 2 t = out2_2 (iblk2 V c 0 t) (iblk2 V c 1 t) := by dsimp only [dat2]

theorem before2_0 (c : Dev nD) (t : Fin cfg2.N) (d) : (dat2 V q c).before 0 t d = iblk2 V c 0 t :=
  before2_0_of V (dat2 V q c) (A_eq2 V q c 0) (after2_0 V q c) t d
theorem before2_1 (c : Dev nD) (t : Fin cfg2.N) (d) : (dat2 V q c).before 1 t d = iblk2 V c 1 t :=
  before2_1_of V (dat2 V q c) (A_eq2 V q c 1) (after2_1 V q c) t d

/-- What the body is called with at grid point `t`, the windows one by one, -/
def bodyPre2 (c : Dev nD) (t : Fin cfg2.N) : sProp 𝕄 :=
  iprop((dat2 V q c).Φ t.castSucc ∗ (dat2 V q c).owesAt () t.castSucc
    ∗ (∃ d, owns (c : Thread nD τ) (st2_0 t) fullShare ((dat2 V q c).before 0 t d))
    ∗ (∃ d, owns (c : Thread nD τ) (st2_1 t) fullShare ((dat2 V q c).before 1 t d))
    ∗ (∃ d, owns (c : Thread nD τ) (st2_2 t) fullShare ((dat2 V q c).before 2 t d)))

/-- and what it returns. -/
def bodyPost2 (c : Dev nD) (t : Fin cfg2.N) : sProp 𝕄 :=
  iprop((dat2 V q c).Φ t.succ ∗ (dat2 V q c).owesAt () t.succ
    ∗ owns (c : Thread nD τ) (st2_0 t) fullShare ((dat2 V q c).after 0 t)
    ∗ owns (c : Thread nD τ) (st2_1 t) fullShare ((dat2 V q c).after 1 t)
    ∗ owns (c : Thread nD τ) (st2_2 t) fullShare ((dat2 V q c).after 2 t))

/-- The body at any grid point: the inputs' memrefs hold their blocks, so the body's triple applies; the invariant
    and what the core owes pass through unread. -/
theorem sound_body2 (c : Dev nD) (t : Fin cfg2.N) :
    bodyPre2 V q c t ⊢ wp frame (wpE (defs₀ (F := F)) Variants.none c none) Set.univ (bodyAt2 t) (fun _ => bodyPost2 V q c t) := by
  unfold bodyPre2 bodyPost2 bodyAt2
  simp only [before2_0, before2_1]
  rw [show (dat2 V q c).Φ t.succ = (dat2 V q c).Φ t.castSucc from rfl,
    show (dat2 V q c).owesAt () t.succ = (dat2 V q c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every grid point. -/
theorem body_obligation2 (c : Dev nD) : BodyObligation (dat2 (F := F) V q c) (defs₀ (F := F)) Variants.none () Set.univ := fun t => by
  rw [bigSep_W2, bigSep_W2]
  exact sound_body2 V q c t

end Cert.KernelIdeal.Fr

end
-- ==== Proof.KiRun.lean ====
/-
  The run of the whole program: three kernel regions with two stretches of host operations between them.
  The contents of the core's buffers are followed from the launch through every item: a host stretch applies its
  operations; a region leaves its output array at what its write-backs made of it and every other buffer as
  entered. Each region is entered from "every unscoped buffer at the contents so far, the random-number register at
  some state, nothing owed" and left at the same with the contents updated. The third region reads one array
  through two input windows, each holding it at half of the full share.
-/
import proofs.«152238_j13048110646074_1_alg».proof.Proof.KiBody0
import proofs.«152238_j13048110646074_1_alg».proof.Proof.KiBody1
import proofs.«152238_j13048110646074_1_alg».proof.Proof.KiBody2
import proofs.«152238_j13048110646074_1_alg».proof.Proof.Gen.KernelIdeal.Regions

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' shares -/

/-- Every window of the first two regions holds its array whole. -/
abbrev qFull0 : Fin cfg0.W → PosShare TreeShare := fun _ => fullShare
abbrev qFull1 : Fin cfg1.W → PosShare TreeShare := fun _ => fullShare
/-- The third region's two input windows read ONE array: each holds it at half of the full share. -/
abbrev qHalf2 : Fin cfg2.W → PosShare TreeShare := fun w => match w with
  | ⟨0, _⟩ => fullShare.left
  | ⟨1, _⟩ => fullShare.right
  | ⟨2, _⟩ => fullShare

/-! ## The buffer contents at each boundary -/

/-- Core `c`'s buffers at launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After region 0: its arrays at what the pipeline leaves, every other buffer as entered. -/
def W1 (c : Dev nD) : Valuation τ sig (Elt F) :=
  Pipeline.withArrays spec0 c (W0 m ρ c) fun w => (dat0 (V0 m ρ) qFull0 c).arrAt w cfg0.N
theorem W1_arr (c : Dev nD) (w : Fin cfg0.W) :
    W1 m ρ c (Proc.devRef .tc (Pipeline.arrRef spec0 w)) = (dat0 (V0 m ρ) qFull0 c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) qFull0 c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the first host stretch (region 1's entry). -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- After region 1. -/
def W3 (c : Dev nD) : Valuation τ sig (Elt F) :=
  Pipeline.withArrays spec1 c (W2 m ρ c) fun w => (dat1 (V2 m ρ) qFull1 c).arrAt w cfg1.N
theorem W3_arr (c : Dev nD) (w : Fin cfg1.W) :
    W3 m ρ c (Proc.devRef .tc (Pipeline.arrRef spec1 w)) = (dat1 (V2 m ρ) qFull1 c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) qFull1 c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the second host stretch (region 2's entry). -/
abbrev W4 : Dev nD → Valuation τ sig (Elt F) := fun c => StableHlo.after hostOps2 (W3 m ρ c)
abbrev V4 : (c : Dev nD) → (b : Ref sig .tc) → Buf (Elt F) ((c : Thread nD τ).loc b) := fun c b => W4 m ρ c b
/-- After region 2: its output array at what the pipeline leaves, every other buffer as entered (its two input
    windows read one array and write nothing). -/
def W5 (c : Dev nD) : Valuation τ sig (Elt F) :=
  Function.update (W4 m ρ c) (Proc.devRef .tc main_v39) ((dat2 (V4 m ρ) qHalf2 c).arrAt 2 cfg2.N)
theorem W5_out (c : Dev nD) : W5 m ρ c (Proc.devRef .tc main_v39) = (dat2 (V4 m ρ) qHalf2 c).arrAt 2 cfg2.N := by
  unfold W5; exact Function.update_self ..
theorem W5_of_ne (c : Dev nD) (b : Ref sig .tc) (hb : b ≠ main_v39) :
    W5 m ρ c (Proc.devRef .tc b) = W4 m ρ c (Proc.devRef .tc b) := by
  unfold W5; exact Function.update_of_ne (StableHlo.devRef_ne_of_ne hb) ..
abbrev V5 : (c : Dev nD) → (b : Ref sig .tc) → Buf (Elt F) ((c : Thread nD τ).loc b) := fun c b => W5 m ρ c b

/-! ## The proof data family and the thread state -/

/-- No pipeline has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V0 m ρ) qFull0 c
  | ⟨1, _⟩ => fun c => dat1 (V2 m ρ) qFull1 c
  | ⟨2, _⟩ => fun c => dat2 (V4 m ρ) qHalf2 c
abbrev 𝒱₀ : Variants := Variants.none
abbrev L : GSem nD τ sig → Finset Unit := fun _ => ∅
abbrev lv : GSem nD τ sig → Unit → ℕ := fun _ _ => 0
/-- What rides beside the buffers through every item: the random-number register at some state, nothing owed. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps1_fresh' : (hostOps1 : List (HloOp τ sig (Elt F))).Forall fun op => op.fresh = ∅ := by
  simp only [List.Forall]; repeat' constructor
theorem hostOps2_fresh' : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last contents, the register at some state. -/
abbrev Tₙ (c : Dev nD) : sProp 𝕄 := iprop(StableHlo.held (c : Thread nD τ) (Pipeline.ucRefs τ sig) (W5 m ρ c) ∗ ∃ r, prngReg c r)

set_option backward.isDefEq.respectTransparency.types false in
/-- Region 0 over the thread state: entered from every unscoped buffer at the contents so far, left at the
    contents with its output array updated. Its arrays are split out of the unscoped buffers and put back at
    the exit contents; the random-number register goes into the invariant and comes back; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) qFull0 c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents so far, left at the
    contents with its output array updated. Its arrays are split out of the unscoped buffers and put back at
    the exit contents; the random-number register goes into the invariant and comes back; nothing is owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) qFull1 c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 2: one array behind two input windows -/

/-- The buffers behind region 2's arrays are two: the array both input windows read, and the output. -/
theorem arrImage2 : (Finset.univ.image (Pipeline.arrRef spec2) : Finset (Ref sig .tc)) = {main_v37, main_v39} := by decide

/-- Those two buffers, each whole at the full share. -/
theorem arrBufs2_eq (c : Dev nD) (V : (b : Ref sig .tc) → Buf (Elt F) ((c : Thread nD τ).loc b)) :
    (Pipeline.arrBufs (Ix := Unit) (Name := ℕ) (U := UR sig nD τ) (Lvl := ℕ) spec2 c V : sProp 𝕄)
      = iprop((((c : Thread nD τ).loc main_v37) ↦{fullShare} V main_v37) ∗ (((c : Thread nD τ).loc main_v39) ↦{fullShare} V main_v39)) := by
  unfold Pipeline.arrBufs
  rw [arrImage2, bigSep_insert (by decide), bigSep_singleton]
  rfl

/-- Region 2's arrays as the pipeline holds them: the shared array at the two halves of the full share, one per
    input window, and the output array whole. -/
theorem arrays2_eq (V : (c : Dev nD) → (b : Ref sig .tc) → Buf (Elt F) ((c : Thread nD τ).loc b)) (c : Dev nD)
    (G : (w : Fin cfg2.W) → Buf (Elt F) ((cfg2.win w).arr.view.loc (c : Thread nD τ))) :
    ((dat2 V qHalf2 c).arrays G : sProp 𝕄)
      = iprop((((c : Thread nD τ).loc main_v37) ↦{fullShare.left} G 0) ∗ (((c : Thread nD τ).loc main_v37) ↦{fullShare.right} G 1)
          ∗ (((c : Thread nD τ).loc main_v39) ↦{fullShare} G 2)) := by
  unfold Pipeline.Dat.arrays
  rw [bigSep_W2, (arr_whole2 0).set_eq_univ, (arr_whole2 2).set_eq_univ]
  rfl

set_option backward.isDefEq.respectTransparency.types false in
/-- Region 2 over the thread state. At entry the shared array's buffer is split along the share into the two
    input windows' halves; at exit the halves, both still at the entry contents (an input array is never written),
    are joined again, and the output array stands at what the write-backs left. -/
def reg2 : Pipeline.RegionSeg (pcfgs (F := F)) adm (pdats m ρ) () defs₀ 𝒱₀ L lv 2 where
  win := winFacts₀2
  block_pos := block_pos2
  stage_whole := stage_whole2
  K := PEmpty
  osem k := k.elim
  ho := Pipeline.OwnSemFacts.none _
  hbody c := (body_obligation2 (V4 m ρ) qHalf2 c).loose
  hwaits := Pipeline.hwaits_of_owed_zero _ _ _ _ L lv 2 fun _ _ => rfl
  pre c := iprop(StableHlo.held (c : Thread nD τ) (Pipeline.ucRefs τ sig) (W4 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit : (unscopedBufs (Ix := Unit) (Name := ℕ) (U := UR sig nD τ) (Lvl := ℕ) c (V4 m ρ c) : sProp 𝕄)
        ⊢ iprop((pdats m ρ 2 c).arrays ((pdats m ρ 2 c).arrAt · 0) ∗ Pipeline.unscopedRest spec2 c (V4 m ρ c)) := by
      rw [Pipeline.unscopedBufs_split₀ (Pipeline.pin (pcfgs (F := F)) adm) 2 winFacts₀2.arr_unscoped c (V4 m ρ c)]
      refine sep_mono ?_ .rfl
      show Pipeline.arrBufs spec2 c (V4 m ρ c) ⊢ _
      rw [show (pdats m ρ 2 c) = dat2 (V4 m ρ) qHalf2 c from rfl, arrays2_eq, arrBufs2_eq]
      iintro ⟨H37, H39⟩
      ihave H := (pointsTo_share (PosShare.mem_left_op_right fullShare)).1 $$ H37
      icases H with ⟨Ha, Hb⟩
      isplitl [Ha]; · iexact Ha
      isplitl [Hb]; · iexact Hb
      iexact H39
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin : iprop((pdats m ρ 2 c).arrays ((pdats m ρ 2 c).arrAt · cfg2.N) ∗ Pipeline.unscopedRest spec2 c (V4 m ρ c))
        ⊢ (unscopedBufs (Ix := Unit) (Name := ℕ) (U := UR sig nD τ) (Lvl := ℕ) c (V5 m ρ c) : sProp 𝕄) := by
      rw [Pipeline.unscopedBufs_split₀ (Pipeline.pin (pcfgs (F := F)) adm) 2 winFacts₀2.arr_unscoped c (V5 m ρ c)]
      refine sep_mono ?_ (Entails.of_eq ?_)
      · show _ ⊢ Pipeline.arrBufs spec2 c (V5 m ρ c)
        rw [show (pdats m ρ 2 c) = dat2 (V4 m ρ) qHalf2 c from rfl, arrays2_eq, arrBufs2_eq,
          show V5 m ρ c main_v37 = V4 m ρ c main_v37 from W5_of_ne m ρ c main_v37 (by decide),
          show V5 m ρ c main_v39 = (dat2 (V4 m ρ) qHalf2 c).arrAt 2 cfg2.N from W5_out m ρ c,
          show (dat2 (V4 m ρ) qHalf2 c).arrAt 0 cfg2.N = V4 m ρ c main_v37 from
            ((dat2 (V4 m ρ) qHalf2 c).arrAt_in 0 rfl _).trans (A_eq2 (V4 m ρ) qHalf2 c 0),
          show (dat2 (V4 m ρ) qHalf2 c).arrAt 1 cfg2.N = V4 m ρ c main_v37 from
            ((dat2 (V4 m ρ) qHalf2 c).arrAt_in 1 rfl _).trans (A_eq2 (V4 m ρ) qHalf2 c 1)]
        iintro ⟨Ha, Hb, H39⟩
        isplitl [Ha Hb]
        · iapply (pointsTo_share (PosShare.mem_left_op_right fullShare)).2
          isplitl [Ha] <;> iassumption
        iexact H39
      · unfold Pipeline.unscopedRest
        exact bigSep_congr fun b hb => by
          rw [show V5 m ρ c b = V4 m ρ c b from W5_of_ne m ρ c b fun e =>
            (Finset.mem_sdiff.mp hb).2 (e ▸ Finset.mem_image.mpr ⟨2, Finset.mem_univ _, rfl⟩)]
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's five items in order. -/
abbrev segs : List (Pipeline.Seg (pcfgs (F := F)) adm (pdats m ρ) () defs₀ 𝒱₀ L lv) :=
  [ .region (reg0 m ρ),
    .host (hseg hostOps1 hostOps1_sub hostOps1_fresh' (W1 m ρ)),
    .region (reg1 m ρ),
    .host (hseg hostOps2 hostOps2_sub hostOps2_fresh' (W3 m ρ)),
    .region (reg2 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting,
    and the final memory holds every unscoped buffer of every core at the last contents of the fold. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-! ## Reading the last contents -/

/-- A buffer that neither host stretch writes and that is no array of regions 1 and 2's outputs holds at the end what
    it held after region 0. -/
theorem W5_to_W1 (c : Dev nD) (b : Ref sig .tc) (h39 : b ≠ main_v39) (h2 : b ∉ hostOps2_W)
    (hs1 : ∀ w, Pipeline.arrRef spec1 w ≠ b) (h1 : b ∉ hostOps1_W) :
    W5 m ρ c (Proc.devRef .tc b) = W1 m ρ c (Proc.devRef .tc b) :=
  (W5_of_ne m ρ c b h39).trans <| (StableHlo.after_of_writes_sub hostOps2 _ hostOps2_writes h2).trans <|
    (W3_of_ne m ρ c b hs1).trans <| StableHlo.after_of_writes_sub hostOps1 _ hostOps1_writes h1

/-- Region 0 reads the node features through its first window and writes nothing there. -/
theorem W1_main_arg0 (c : Dev nD) : W1 m ρ c (Proc.devRef .tc main_arg0) = m ((c : Thread nD τ).loc main_arg0) :=
  (W1_arr m ρ c 0).trans (((dat0 (V0 m ρ) qFull0 c).arrAt_in 0 rfl _).trans (A_eq0 (V0 m ρ) qFull0 c 0))
/-- Region 0 reads the first weight matrix through its second window and writes nothing there. -/
theorem W1_main_arg3 (c : Dev nD) : W1 m ρ c (Proc.devRef .tc main_arg3) = m ((c : Thread nD τ).loc main_arg3) :=
  (W1_arr m ρ c 1).trans (((dat0 (V0 m ρ) qFull0 c).arrAt_in 1 rfl _).trans (A_eq0 (V0 m ρ) qFull0 c 1))
theorem W1_main_arg1 (c : Dev nD) : W1 m ρ c (Proc.devRef .tc main_arg1) = m ((c : Thread nD τ).loc main_arg1) :=
  W1_of_ne m ρ c main_arg1 (by decide)
theorem W1_main_arg2 (c : Dev nD) : W1 m ρ c (Proc.devRef .tc main_arg2) = m ((c : Thread nD τ).loc main_arg2) :=
  W1_of_ne m ρ c main_arg2 (by decide)
theorem W1_main_arg4 (c : Dev nD) : W1 m ρ c (Proc.devRef .tc main_arg4) = m ((c : Thread nD τ).loc main_arg4) :=
  W1_of_ne m ρ c main_arg4 (by decide)
theorem W1_main_arg5 (c : Dev nD) : W1 m ρ c (Proc.devRef .tc main_arg5) = m ((c : Thread nD τ).loc main_arg5) :=
  W1_of_ne m ρ c main_arg5 (by decide)

/-- Every argument array ends as launched: no host operation writes one, and a region only reads it. -/
theorem W5_main_arg0 (c : Dev nD) : W5 m ρ c (Proc.devRef .tc main_arg0) = m ((c : Thread nD τ).loc main_arg0) :=
  (W5_to_W1 m ρ c main_arg0 (by decide) (by decide) (by decide) (by decide)).trans (W1_main_arg0 m ρ c)
theorem W5_main_arg1 (c : Dev nD) : W5 m ρ c (Proc.devRef .tc main_arg1) = m ((c : Thread nD τ).loc main_arg1) :=
  (W5_to_W1 m ρ c main_arg1 (by decide) (by decide) (by decide) (by decide)).trans (W1_main_arg1 m ρ c)
theorem W5_main_arg2 (c : Dev nD) : W5 m ρ c (Proc.devRef .tc main_arg2) = m ((c : Thread nD τ).loc main_arg2) :=
  (W5_to_W1 m ρ c main_arg2 (by decide) (by decide) (by decide) (by decide)).trans (W1_main_arg2 m ρ c)
theorem W5_main_arg3 (c : Dev nD) : W5 m ρ c (Proc.devRef .tc main_arg3) = m ((c : Thread nD τ).loc main_arg3) :=
  (W5_to_W1 m ρ c main_arg3 (by decide) (by decide) (by decide) (by decide)).trans (W1_main_arg3 m ρ c)
theorem W5_main_arg4 (c : Dev nD) : W5 m ρ c (Proc.devRef .tc main_arg4) = m ((c : Thread nD τ).loc main_arg4) :=
  (W5_to_W1 m ρ c main_arg4 (by decide) (by decide) (by decide) (by decide)).trans (W1_main_arg4 m ρ c)
theorem W5_main_arg5 (c : Dev nD) : W5 m ρ c (Proc.devRef .tc main_arg5) = m ((c : Thread nD τ).loc main_arg5) :=
  (W5_to_W1 m ρ c main_arg5 (by decide) (by decide) (by decide) (by decide)).trans (W1_main_arg5 m ρ c)

/-- THE FRAME: every weakly fair execution of @main terminates, nothing faulting, and every final state has the
    argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c),
     (h c _ (mem_uc main_arg5 (by decide))).trans (W5_main_arg5 m ρ c)⟩) (run_all m ρ)

end Cert.KernelIdeal.Fr

end
-- ==== Proof.Pay.lean ====
/-
  The three matrix-unit payloads of the kernel program, read at an index over the extended reals.

  Each payload is a product into a zero accumulator, after format changes that are the identity over the extended
  reals; the second one first takes the entrywise maximum with the zero pattern. At an entry the product is the sum,
  over the one contracted axis, of the products of the operands' entries.
-/
import proofs.«152238_j13048110646074_1_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-! ### Operand indices of `dot_S1024x512_S512x256_S1024x256_1_0_0_1_n_n` by coordinates -/

theorem d0_lhs_non (i : S1024x256.Idx) (c : dot_S1024x512_S512x256_S1024x256_1_0_0_1_n_n.contr.Idx) :
    (dot_S1024x512_S512x256_S1024x256_1_0_0_1_n_n.lhsIdx i c 0).val = (i 0).val := by
  unfold DotDims.lhsIdx
  rw [dif_neg (show ¬(0 : Fin S1024x512.rank) ∈ dot_S1024x512_S512x256_S1024x256_1_0_0_1_n_n.lhsBatch by decide),
    dif_pos (show (0 : Fin S1024x512.rank) ∈ dot_S1024x512_S512x256_S1024x256_1_0_0_1_n_n.lhsNonContracting by decide)]
  rfl
theorem d0_lhs_con (i : S1024x256.Idx) (c : dot_S1024x512_S512x256_S1024x256_1_0_0_1_n_n.contr.Idx) :
    (dot_S1024x512_S512x256_S1024x256_1_0_0_1_n_n.lhsIdx i c 1).val = (c ⟨0, by decide⟩).val :=
  dot_S1024x512_S512x256_S1024x256_1_0_0_1_n_n.lhsIdx_val_of_single rfl i c
theorem d0_rhs_con (i : S1024x256.Idx) (c : dot_S1024x512_S512x256_S1024x256_1_0_0_1_n_n.contr.Idx) :
    (dot_S1024x512_S512x256_S1024x256_1_0_0_1_n_n.rhsIdx i c 0).val = (c ⟨0, by decide⟩).val :=
  dot_S1024x512_S512x256_S1024x256_1_0_0_1_n_n.rhsIdx_val_of_single rfl i c
theorem d0_rhs_non (i : S1024x256.Idx) (c : dot_S1024x512_S512x256_S1024x256_1_0_0_1_n_n.contr.Idx) :
    (dot_S1024x512_S512x256_S1024x256_1_0_0_1_n_n.rhsIdx i c 1).val = (i 1).val := by
  unfold DotDims.rhsIdx
  rw [dif_neg (show ¬(1 : Fin S512x256.rank) ∈ dot_S1024x512_S512x256_S1024x256_1_0_0_1_n_n.rhsBatch by decide),
    dif_pos (show (1 : Fin S512x256.rank) ∈ dot_S1024x512_S512x256_S1024x256_1_0_0_1_n_n.rhsNonContracting by decide)]
  rfl

/-! ### Operand indices of `dot_S1024x256_S256x256_S1024x256_1_0_0_1_n_n` by coordinates -/

theorem d1_lhs_non (i : S1024x256.Idx) (c : dot_S1024x256_S256x256_S1024x256_1_0_0_1_n_n.contr.Idx) :
    (dot_S1024x256_S256x256_S1024x256_1_0_0_1_n_n.lhsIdx i c 0).val = (i 0).val := by
  unfold DotDims.lhsIdx
  rw [dif_neg (show ¬(0 : Fin S1024x256.rank) ∈ dot_S1024x256_S256x256_S1024x256_1_0_0_1_n_n.lhsBatch by decide),
    dif_pos (show (0 : Fin S1024x256.rank) ∈ dot_S1024x256_S256x256_S1024x256_1_0_0_1_n_n.lhsNonContracting by decide)]
  rfl
theorem d1_lhs_con (i : S1024x256.Idx) (c : dot_S1024x256_S256x256_S1024x256_1_0_0_1_n_n.contr.Idx) :
    (dot_S1024x256_S256x256_S1024x256_1_0_0_1_n_n.lhsIdx i c 1).val = (c ⟨0, by decide⟩).val :=
  dot_S1024x256_S256x256_S1024x256_1_0_0_1_n_n.lhsIdx_val_of_single rfl i c
theorem d1_rhs_con (i : S1024x256.Idx) (c : dot_S1024x256_S256x256_S1024x256_1_0_0_1_n_n.contr.Idx) :
    (dot_S1024x256_S256x256_S1024x256_1_0_0_1_n_n.rhsIdx i c 0).val = (c ⟨0, by decide⟩).val :=
  dot_S1024x256_S256x256_S1024x256_1_0_0_1_n_n.rhsIdx_val_of_single rfl i c
theorem d1_rhs_non (i : S1024x256.Idx) (c : dot_S1024x256_S256x256_S1024x256_1_0_0_1_n_n.contr.Idx) :
    (dot_S1024x256_S256x256_S1024x256_1_0_0_1_n_n.rhsIdx i c 1).val = (i 1).val := by
  unfold DotDims.rhsIdx
  rw [dif_neg (show ¬(1 : Fin S256x256.rank) ∈ dot_S1024x256_S256x256_S1024x256_1_0_0_1_n_n.rhsBatch by decide),
    dif_pos (show (1 : Fin S256x256.rank) ∈ dot_S1024x256_S256x256_S1024x256_1_0_0_1_n_n.rhsNonContracting by decide)]
  rfl

/-! ### Operand indices of `dot_S1024x128_S1024x128_S1024x1024_1_1_0_0_n_n` by coordinates -/

theorem d2_lhs_non (i : S1024x1024.Idx) (c : dot_S1024x128_S1024x128_S1024x1024_1_1_0_0_n_n.contr.Idx) :
    (dot_S1024x128_S1024x128_S1024x1024_1_1_0_0_n_n.lhsIdx i c 0).val = (i 0).val := by
  unfold DotDims.lhsIdx
  rw [dif_neg (show ¬(0 : Fin S1024x128.rank) ∈ dot_S1024x128_S1024x128_S1024x1024_1_1_0_0_n_n.lhsBatch by decide),
    dif_pos (show (0 : Fin S1024x128.rank) ∈ dot_S1024x128_S1024x128_S1024x1024_1_1_0_0_n_n.lhsNonContracting by decide)]
  rfl
theorem d2_lhs_con (i : S1024x1024.Idx) (c : dot_S1024x128_S1024x128_S1024x1024_1_1_0_0_n_n.contr.Idx) :
    (dot_S1024x128_S1024x128_S1024x1024_1_1_0_0_n_n.lhsIdx i c 1).val = (c ⟨0, by decide⟩).val :=
  dot_S1024x128_S1024x128_S1024x1024_1_1_0_0_n_n.lhsIdx_val_of_single rfl i c
theorem d2_rhs_con (i : S1024x1024.Idx) (c : dot_S1024x128_S1024x128_S1024x1024_1_1_0_0_n_n.contr.Idx) :
    (dot_S1024x128_S1024x128_S1024x1024_1_1_0_0_n_n.rhsIdx i c 1).val = (c ⟨0, by decide⟩).val :=
  dot_S1024x128_S1024x128_S1024x1024_1_1_0_0_n_n.rhsIdx_val_of_single rfl i c
theorem d2_rhs_non (i : S1024x1024.Idx) (c : dot_S1024x128_S1024x128_S1024x1024_1_1_0_0_n_n.contr.Idx) :
    (dot_S1024x128_S1024x128_S1024x1024_1_1_0_0_n_n.rhsIdx i c 0).val = (i 1).val := by
  unfold DotDims.rhsIdx
  rw [dif_neg (show ¬(0 : Fin S1024x128.rank) ∈ dot_S1024x128_S1024x128_S1024x1024_1_1_0_0_n_n.rhsBatch by decide),
    dif_pos (show (0 : Fin S1024x128.rank) ∈ dot_S1024x128_S1024x128_S1024x1024_1_1_0_0_n_n.rhsNonContracting by decide)]
  rfl

/-! ### The payloads at an index -/

/-- The first product at `(p, q)`: the sum over `k` of `v0 (p, k) * v2 (k, q)`. -/
theorem k0_pay1_apply (v0 : Vec Ideal S1024x512 .f32) (v2 : Vec Ideal S512x256 .f32) (p : Fin 1024) (q : Fin 256) :
    Gen.k0_pay1 (F := Ideal) v0 v2 (ix2 p q) = ∑ k : Fin 512, v0 (ix2 p k) * v2 (ix2 k q) := by
  unfold Gen.k0_pay1
  simp only [matmul]
  rw [Ideal.matmul_constant_zero_apply, ← Equiv.sum_comp (contrEquiv1 dot_S1024x512_S512x256_S1024x256_1_0_0_1_n_n 512 rfl rfl).symm]
  refine Finset.sum_congr rfl fun k _ => ?_
  have hk := contrEquiv1_symm_val dot_S1024x512_S512x256_S1024x256_1_0_0_1_n_n 512 rfl rfl k
  have el : dot_S1024x512_S512x256_S1024x256_1_0_0_1_n_n.lhsIdx (ix2 p q) ((contrEquiv1 dot_S1024x512_S512x256_S1024x256_1_0_0_1_n_n 512 rfl rfl).symm k) = ix2 p k :=
    funext fun a => Fin.ext (by
      match a with
      | ⟨0, _⟩ => exact d0_lhs_non _ _
      | ⟨1, _⟩ => exact (d0_lhs_con _ _).trans hk)
  have er : dot_S1024x512_S512x256_S1024x256_1_0_0_1_n_n.rhsIdx (ix2 p q) ((contrEquiv1 dot_S1024x512_S512x256_S1024x256_1_0_0_1_n_n 512 rfl rfl).symm k) = ix2 k q :=
    funext fun a => Fin.ext (by
      match a with
      | ⟨0, _⟩ => exact (d0_rhs_con _ _).trans hk
      | ⟨1, _⟩ => exact d0_rhs_non _ _)
  rw [el, er]
  rfl

/-- The second product at `(p, q)`: the left operand's entries are first bounded below by the zero pattern. -/
theorem k1_pay1_apply (v0 : Vec Ideal S1024x256 .f32) (v5 : Vec Ideal S256x256 .f32) (p : Fin 1024) (q : Fin 256) :
    Gen.k1_pay1 (F := Ideal) v0 v5 (ix2 p q)
      = ∑ k : Fin 256, max (v0 (ix2 p k)) (Ideal.ofBits .f32 0x00000000#32) * v5 (ix2 k q) := by
  unfold Gen.k1_pay1
  simp only [matmul, shapeCast_self]
  rw [Ideal.matmul_constant_zero_apply, ← Equiv.sum_comp (contrEquiv1 dot_S1024x256_S256x256_S1024x256_1_0_0_1_n_n 256 rfl rfl).symm]
  refine Finset.sum_congr rfl fun k _ => ?_
  have hk := contrEquiv1_symm_val dot_S1024x256_S256x256_S1024x256_1_0_0_1_n_n 256 rfl rfl k
  have el : dot_S1024x256_S256x256_S1024x256_1_0_0_1_n_n.lhsIdx (ix2 p q) ((contrEquiv1 dot_S1024x256_S256x256_S1024x256_1_0_0_1_n_n 256 rfl rfl).symm k) = ix2 p k :=
    funext fun a => Fin.ext (by
      match a with
      | ⟨0, _⟩ => exact d1_lhs_non _ _
      | ⟨1, _⟩ => exact (d1_lhs_con _ _).trans hk)
  have er : dot_S1024x256_S256x256_S1024x256_1_0_0_1_n_n.rhsIdx (ix2 p q) ((contrEquiv1 dot_S1024x256_S256x256_S1024x256_1_0_0_1_n_n 256 rfl rfl).symm k) = ix2 k q :=
    funext fun a => Fin.ext (by
      match a with
      | ⟨0, _⟩ => exact (d1_rhs_con _ _).trans hk
      | ⟨1, _⟩ => exact d1_rhs_non _ _)
  rw [el, er]
  rfl

/-- The third product at `(p, q)`: both operands are read along their rows, `v0 (p, k) * v3 (q, k)`. -/
theorem k2_pay1_apply (v0 v3 : Vec Ideal S1024x128 .f32) (p q : Fin 1024) :
    Gen.k2_pay1 (F := Ideal) v0 v3 (ix2 p q) = ∑ k : Fin 128, v0 (ix2 p k) * v3 (ix2 q k) := by
  unfold Gen.k2_pay1
  simp only [matmul, shapeCast_self]
  rw [Ideal.matmul_constant_zero_apply, ← Equiv.sum_comp (contrEquiv1 dot_S1024x128_S1024x128_S1024x1024_1_1_0_0_n_n 128 rfl rfl).symm]
  refine Finset.sum_congr rfl fun k _ => ?_
  have hk := contrEquiv1_symm_val dot_S1024x128_S1024x128_S1024x1024_1_1_0_0_n_n 128 rfl rfl k
  have el : dot_S1024x128_S1024x128_S1024x1024_1_1_0_0_n_n.lhsIdx (ix2 p q) ((contrEquiv1 dot_S1024x128_S1024x128_S1024x1024_1_1_0_0_n_n 128 rfl rfl).symm k) = ix2 p k :=
    funext fun a => Fin.ext (by
      match a with
      | ⟨0, _⟩ => exact d2_lhs_non _ _
      | ⟨1, _⟩ => exact (d2_lhs_con _ _).trans hk)
  have er : dot_S1024x128_S1024x128_S1024x1024_1_1_0_0_n_n.rhsIdx (ix2 p q) ((contrEquiv1 dot_S1024x128_S1024x128_S1024x1024_1_1_0_0_n_n 128 rfl rfl).symm k) = ix2 q k :=
    funext fun a => Fin.ext (by
      match a with
      | ⟨0, _⟩ => exact d2_rhs_non _ _
      | ⟨1, _⟩ => exact (d2_rhs_con _ _).trans hk)
  rw [el, er]
  rfl

end Cert.KernelIdeal.Pay

end
-- ==== Proof.LibRowOps.lean ====
/-
  Row gather and row scatter-add, read at an index.

  A table `x : [N, C]` indexed by a column of `E` start words `idx : [E, 1]`:
  * the row gather `x[idx]` has entry `(e, c)` equal to `x (r e, c)`, where `r e` is word `e` read as a signed
    integer and clamped into `[0, N - 1]`;
  * the accumulating row scatter (`out[idx[e]] += upd[e]`) over the extended reals has entry `(r, c)` equal to the
    operand's entry plus the sum of `upd (e, c)` over the edges `e` whose word, read signed and NOT clamped, is `r`;
    a word outside `[0, N)` contributes to no row.
  Both statements are column by column: column `c` of the result depends on column `c` of the table only.
-/
import Idealize.ShloMosaic.PureOps.Ideal
import Idealize.ShloMosaic.Lib.ValueIdx

noncomputable section

open scoped BigOperators

namespace Cert.RowOps

open Idealize.ShloMosaic Idealize.ShloMosaic.ValueIdx

/-- The dimension numbers of a row gather: operand `[N, C]`, start words `[E, 1]`, result `[E, C]`. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The dimension numbers of a row scatter: operand `[N, C]`, scatter words `[E, 1]`, updates `[E, C]`. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The row a gather reads for edge `e`: its start word read signed, clamped into `[0, N - 1]`. -/
def gatherRow (N : Nat) (hN : 0 < N) {E w : Nat} (idx : IVec ⟨2, ![E, 1]⟩ w) (e : Fin E) : Fin N :=
  ⟨min (idx (ix2 e 0)).toInt.toNat (N - 1), by omega⟩

/-- The row a scatter adds edge `e` into: its word read signed, not clamped (outside `[0, N)`: no row). -/
def scatterRow {E w : Nat} (idx : IVec ⟨2, ![E, 1]⟩ w) (e : Fin E) : Int := (idx (ix2 e 0)).toInt

/-- THE ROW GATHER AT `(e, c)`. -/
theorem gather_rows_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGatherDims N E C wf) x idx (ix2 e c) = x (ix2 (gatherRow N hN idx e) c) := by
  unfold Host.gather
  congr 1
  funext a
  refine Fin.ext ?_
  match a with
  | ⟨0, _⟩ =>
    -- the row axis: the start word clamped, no batching coordinate, no offset coordinate (the axis is collapsed)
    show (rowGatherDims N E C wf).start (ix2 e c) idx 0 + (rowGatherDims N E C wf).batchCoord (ix2 e c) 0
      + (rowGatherDims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e c) ⟨List.idxOf (0 : Fin 2) (rowGatherDims N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    -- the column axis: no start word, no batching coordinate, the offset coordinate is the column
    show (rowGatherDims N E C wf).start (ix2 e c) idx 1 + (rowGatherDims N E C wf).batchCoord (ix2 e c) 1
      + (rowGatherDims N E C wf).offCoord (ix2 e c) 1 = _
    rw [GatherDims.batchCoord_eq_zero _ _ _ List.not_mem_nil]
    unfold GatherDims.start
    rw [dif_neg (show (1 : Fin 2) ∉ ([0] : List (Fin 2)) by decide)]
    simp only [Nat.add_zero, Nat.zero_add]
    unfold GatherDims.offCoord
    rw [dif_pos ((GatherDims.mem_sKept (rowGatherDims N E C wf) 1).mpr
      ⟨(show (1 : Fin 2) ∉ ([0] : List (Fin 2)) by decide), List.not_mem_nil⟩)]
    rfl

/-- For any scatter: an update lands at `i` exactly when, on every operand axis, its start plus its window coordinate
    is `i`'s coordinate. -/
theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  constructor
  · intro h
    split at h
    · rename_i hr
      have hi := Option.some.inj h
      intro a
      have ha := congrFun hi a
      have hra := hr a
      rw [← ha]
      show _ = (((d.start j idx a + (d.window j a : Int)).toNat : Nat) : Int)
      omega
    · cases h
  · intro h
    have hr : ∀ a, 0 ≤ d.start j idx a + (d.window j a : Int) ∧ d.start j idx a + (d.window j a : Int) < (s.size a : Int) := by
      intro a
      have := h a
      have := (i a).isLt
      omega
    rw [dif_pos hr]
    congr 1
    funext a
    refine Fin.ext ?_
    show (d.start j idx a + (d.window j a : Int)).toNat = (i a).val
    have := h a
    omega

section Rows
variable {N E C w : Nat} (wf : ScatterDims.WF ⟨2, ![N, C]⟩ ⟨2, ![E, 1]⟩ ⟨2, ![E, C]⟩ [1] [0] [0] 1)
  (idx : IVec ⟨2, ![E, 1]⟩ w) (e : Fin E) (c' : Fin C)

/-- The row scatter's start on the row axis, for update `(e, c')`: word `e` read signed. -/
theorem rowScatter_start_row : (rowScatterDims N E C wf).start (ix2 e c') idx 0 = scatterRow idx e := by
  unfold ScatterDims.start
  rw [dif_pos (show (0 : Fin 2) ∈ (rowScatterDims N E C wf).scatterDimsToOperandDims from List.mem_singleton.mpr rfl)]
  have hsi : (rowScatterDims N E C wf).siIdx (ix2 e c') ⟨List.idxOf (0 : Fin 2) (rowScatterDims N E C wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- Its start on the column axis is `0` (the map does not name that axis). -/
theorem rowScatter_start_col : (rowScatterDims N E C wf).start (ix2 e c') idx 1 = 0 := by
  unfold ScatterDims.start
  rw [dif_neg (show (1 : Fin 2) ∉ ([0] : List (Fin 2)) by decide)]

/-- Its window coordinate on the row axis is `0` (an inserted axis). -/
theorem rowScatter_window_row : (rowScatterDims N E C wf).window (ix2 e c') 0 = 0 := by
  unfold ScatterDims.window
  have hk : (0 : Fin 2) ∉ (rowScatterDims N E C wf).sKept := by
    show (0 : Fin 2) ∉ (List.finRange 2).filter (fun a => a ∉ ([0] : List (Fin 2)))
    decide
  rw [dif_neg hk]

/-- Its window coordinate on the column axis is the update's column. -/
theorem rowScatter_window_col : (rowScatterDims N E C wf).window (ix2 e c') 1 = c'.val := by
  unfold ScatterDims.window
  have hk : (1 : Fin 2) ∈ (rowScatterDims N E C wf).sKept := by
    show (1 : Fin 2) ∈ (List.finRange 2).filter (fun a => a ∉ ([0] : List (Fin 2)))
    decide
  rw [dif_pos hk]
  rfl

/-- Update `(e, c')` of a row scatter lands at `(r, c)` exactly when word `e`, read signed, is `r` and `c' = c`. -/
theorem rowScatter_resultIdx?_iff (r : Fin N) (c : Fin C) :
    (rowScatterDims N E C wf).resultIdx? (ix2 e c') idx = some (ix2 r c) ↔ scatterRow idx e = (r.val : Int) ∧ c' = c := by
  rw [resultIdx?_eq_some_iff]
  constructor
  · intro h
    have h0 : (rowScatterDims N E C wf).start (ix2 e c') idx 0 + (((rowScatterDims N E C wf).window (ix2 e c') 0 : Nat) : Int)
        = (r.val : Int) := h 0
    have h1 : (rowScatterDims N E C wf).start (ix2 e c') idx 1 + (((rowScatterDims N E C wf).window (ix2 e c') 1 : Nat) : Int)
        = (c.val : Int) := h 1
    rw [rowScatter_start_row, rowScatter_window_row] at h0
    rw [rowScatter_start_col, rowScatter_window_col] at h1
    exact ⟨by omega, Fin.ext (by omega)⟩
  · rintro ⟨h0, rfl⟩ a
    match a with
    | ⟨0, _⟩ =>
      show (rowScatterDims N E C wf).start (ix2 e c') idx 0 + (((rowScatterDims N E C wf).window (ix2 e c') 0 : Nat) : Int)
        = (r.val : Int)
      rw [rowScatter_start_row, rowScatter_window_row]; omega
    | ⟨1, _⟩ =>
      show (rowScatterDims N E C wf).start (ix2 e c') idx 1 + (((rowScatterDims N E C wf).window (ix2 e c') 1 : Nat) : Int)
        = (c'.val : Int)
      rw [rowScatter_start_col, rowScatter_window_col]; omega

end Rows

/-- THE ACCUMULATING ROW SCATTER AT `(r, c)`, over the extended reals. -/
theorem scatterAdd_rows_apply {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w)
    (upd : (⟨2, ![E, C]⟩ : Shape).Idx → EReal) (r : Fin N) (c : Fin C) :
    Host.scatterAdd (F := Ideal) (φ := .f32) (rowScatterDims N E C wf) x idx upd (ix2 r c)
      = x (ix2 r c) + ∑ e ∈ Finset.univ.filter (fun e : Fin E => scatterRow idx e = (r.val : Int)), upd (ix2 e c) := by
  show Ideal.hostScatterAdd (rowScatterDims N E C wf) x idx upd (ix2 r c) = _
  unfold Ideal.hostScatterAdd
  congr 1
  -- the sum over the updates landing at (r, c), as a double sum over edges and columns; only column c survives
  rw [Finset.sum_filter, sum_idx2, Finset.sum_filter]
  refine Finset.sum_congr rfl fun e _ => ?_
  simp only [rowScatter_resultIdx?_iff]
  by_cases h : scatterRow idx e = (r.val : Int)
  · simp [h]
  · simp [h]

end Cert.RowOps

end
-- ==== Proof.Spec.lean ====
/-
  The function both programs compute, over the extended reals.

  A two-layer graph convolution with an inner-product decoder. With `x : [8192, 512]` the node features, one
  weight `w e` per edge `e`, each edge carrying a source row `src e` (clamped into the table) and a destination
  word `dst e` (a signed integer: outside `[0, 8192)` the edge reaches no row), and weights `W1, W2, W3`:

      agg T (d, c) = z + Σ_{e : dst e = d} T (src e, c) · w e          (the weighted neighbourhood sum, column by column)
      h1      = max (agg (x · W1)) z
      mu      = agg (h1 · W2)
      logvar  = agg (h1 · W3)
      adj     = mu · muᵀ

  `z` is the value of the zero pattern, kept as a parameter: both programs spell it by the same literal, so it is
  never evaluated.
-/
import Idealize.ShloMosaic.PureOps.Ideal
import Idealize.ShloMosaic.Lib.ValueIdx
import proofs.«152238_j13048110646074_1_alg».proof.Proof.LibRowOps

noncomputable section

open scoped BigOperators

namespace Cert.Gcn

open Idealize.ShloMosaic Idealize.ShloMosaic.ValueIdx

/-- A matrix of extended reals with literal extents. -/
abbrev Mat (n m : Nat) : Type := (⟨2, ![n, m]⟩ : Shape).Idx → EReal

/-- The matrix product. -/
def mm {n k m : Nat} (A : Mat n k) (B : Mat k m) : Mat n m :=
  fun i => ∑ t : Fin k, A (ix2 (i 0) t) * B (ix2 t (i 1))

/-- The product of a matrix with its own transpose. -/
def gram {n k : Nat} (A : Mat n k) : Mat n n :=
  fun i => ∑ t : Fin k, A (ix2 (i 0) t) * A (ix2 (i 1) t)

/-- The entrywise maximum with `z`. -/
def relu {n m : Nat} (z : EReal) (A : Mat n m) : Mat n m := fun i => max (A i) z

/-- The weighted neighbourhood sum: entry `(d, c)` is `z` plus the sum, over the edges whose destination is `d`,
    of the source row's entry in column `c` times the edge's weight. -/
def agg {N E C : Nat} (z : EReal) (src : Fin E → Fin N) (dst : Fin E → Int) (wgt : Fin E → EReal) (T : Mat N C) : Mat N C :=
  fun i => z + ∑ e ∈ Finset.univ.filter (fun e : Fin E => dst e = ((i 0).val : Int)), T (ix2 (src e) (i 1)) * wgt e

section Model

variable (z : EReal) (src : Fin 262144 → Fin 8192) (dst : Fin 262144 → Int) (wgt : Fin 262144 → EReal)
  (x : Mat 8192 512) (W1 : Mat 512 256) (W2 W3 : Mat 256 128)

/-- The hidden layer. -/
def hidden : Mat 8192 256 := relu z (agg z src dst wgt (mm x W1))
/-- The mean head. -/
def mu : Mat 8192 128 := agg z src dst wgt (mm (hidden z src dst wgt x W1) W2)
/-- The log-variance head. -/
def logvar : Mat 8192 128 := agg z src dst wgt (mm (hidden z src dst wgt x W1) W3)
/-- The reconstructed adjacency. -/
def adj : Mat 8192 8192 := gram (mu z src dst wgt x W1 W2)

end Model

end Cert.Gcn

end
-- ==== Proof.KiVal0.lean ====
/-
  Region 0 of the program, from blocks to the array: a row block of the first array times the whole second array,
  written back row block by row block, leaves the product of the two arrays.

  Grid point `t` (of 8) reads rows `1024 t … 1024 t + 1023` of the first array and the whole second array, and writes
  rows `1024 t … 1024 t + 1023` of the result. Entry `(p, q)` of the block product is the sum over `k` of the block's
  `(p, k)` times the second array's `(k, q)`, which is entry `(1024 t + p, q)` of the product of the arrays; the 8 row
  blocks cover the result.
-/
import proofs.«152238_j13048110646074_1_alg».proof.Proof.KiBody0
import proofs.«152238_j13048110646074_1_alg».proof.Proof.Pay
import proofs.«152238_j13048110646074_1_alg».proof.Proof.Spec
import Idealize.ShloMosaic.Lib.Pipeline.Value
import Idealize.ShloMosaic.Lib.ValueIdx

noncomputable section

open scoped BigOperators

namespace Cert.KernelIdeal.Val

open Cert.KernelIdeal Cert.KernelIdeal.Gen Idealize.ShloMosaic Idealize.ShloMosaic.TcCoe Idealize.SL.Sem
open Idealize.ShloMosaic.ValueIdx
open Idealize.SL Idealize.SL.RA
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block indices over the grid: the first input and the output move down one row block per point, the second
    input stays. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The first input's block at point `t`, entry `(p, k)`: the first array's entry `(1024 t + p, k)`. -/
theorem iblk0_0_apply (c : Dev nD) (t : Fin cfg0.N) (p : Fin 1024) (k : Fin 512) (r : Fin 8192)
    (hr : r.val = t.val * 1024 + p.val) :
    (Fr.iblk0 V c 0 t : Vec Ideal S1024x512 .f32) (ix2 p k) = (V c main_arg0 : S8192x512.Idx → EReal) (ix2 r k) := by
  obtain ⟨e0, e1, -⟩ := idx_facts0 t
  unfold Fr.iblk0
  rw [View.read_apply]
  show V c main_arg0 _ = V c main_arg0 _
  congr 1
  funext a
  apply Fin.ext
  match a with
  | ⟨0, _⟩ => show win0_0.index t (0 : Fin 2) * 1024 + 1 * p.val = r.val; omega
  | ⟨1, _⟩ => show win0_0.index t (1 : Fin 2) * 512 + 1 * k.val = k.val; omega

/-- The second input's block at any point is the second array. -/
theorem iblk0_1_apply (c : Dev nD) (t : Fin cfg0.N) (k : Fin 512) (q : Fin 256) :
    (Fr.iblk0 V c 1 t : Vec Ideal S512x256 .f32) (ix2 k q) = (V c main_arg3 : S512x256.Idx → EReal) (ix2 k q) := by
  obtain ⟨-, -, e2, e3, -⟩ := idx_facts0 t
  unfold Fr.iblk0
  rw [View.read_apply]
  show V c main_arg3 _ = V c main_arg3 _
  congr 1
  funext a
  apply Fin.ext
  match a with
  | ⟨0, _⟩ => show win0_1.index t (0 : Fin 2) * 512 + 1 * k.val = k.val; omega
  | ⟨1, _⟩ => show win0_1.index t (1 : Fin 2) * 256 + 1 * q.val = q.val; omega

/-- One entry of a block product: when row `p` of the left block is row `r` of `A` and column `q` of the right block is
    column `q` of `B`, entry `(p, q)` of the block product is entry `(r, q)` of `A · B`. -/
theorem point0 (A : Cert.Gcn.Mat 8192 512) (B : Cert.Gcn.Mat 512 256) (x0 : Vec Ideal S1024x512 .f32)
    (x1 : Vec Ideal S512x256 .f32) (p : Fin 1024) (q : Fin 256) (r : Fin 8192)
    (h0 : ∀ k : Fin 512, x0 (ix2 p k) = A (ix2 r k)) (h1 : ∀ k : Fin 512, x1 (ix2 k q) = B (ix2 k q)) :
    Gen.k0_pay1 (F := Ideal) x0 x1 (ix2 p q) = Cert.Gcn.mm A B (ix2 r q) := by
  refine (Pay.k0_pay1_apply x0 x1 p q).trans ?_
  unfold Cert.Gcn.mm
  refine Finset.sum_congr rfl fun k _ => ?_
  show x0 (ix2 p k) * x1 (ix2 k q) = A (ix2 r k) * B (ix2 k q)
  rw [h0 k, h1 k]

variable (q : Fin cfg0.W → PosShare TreeShare)

/-- What point `t` writes back is its block of the product of the two arrays. -/
theorem flushed0_eq (c : Dev nD) (t : Fin cfg0.N) :
    (Fr.dat0 (F := Ideal) V q c).flushed 2 t
      = ((cfg0.win 2).blk t).view.read (Elt Ideal) (Cert.Gcn.mm (V c main_arg0) (V c main_arg3)) := by
  show (cfg0.win 2).cut (grid0.coords t) ((Fr.dat0 V q c).after 2 t) = _
  rw [Fr.after0_2]
  unfold Fr.out0_2
  rw [View.canon_unit_zero hz]
  simp only [View.ld_unit_zero (S := S1024x512) hz, View.ld_unit_zero (S := S512x256) hz]
  funext j
  obtain ⟨p, q', rfl⟩ : ∃ (p : Fin 1024) (q' : Fin 256), j = ix2 p q' := ⟨j 0, j 1, eq_ix2 j⟩
  obtain ⟨-, -, -, -, e4, e5⟩ := idx_facts0 t
  have hN : grid0.N = 8 := N_0
  have ht : t.val < 8 := hN ▸ t.isLt
  rw [View.read_apply]
  have hemb : ((cfg0.win 2).blk t).view.emb (ix2 p q') = (ix2 (⟨t.val * 1024 + p.val, by omega⟩ : Fin 8192) q' : S8192x256.Idx) := by
    funext a; apply Fin.ext
    match a with
    | ⟨0, _⟩ => show win0_2.index t (0 : Fin 2) * 1024 + 1 * p.val = t.val * 1024 + p.val; omega
    | ⟨1, _⟩ => show win0_2.index t (1 : Fin 2) * 256 + 1 * q'.val = q'.val; omega
  rw [hemb]
  exact point0 _ _ (Fr.iblk0 V c 0 t) (Fr.iblk0 V c 1 t) p q' _ (fun k => iblk0_0_apply V c t p k _ rfl)
    (fun k => iblk0_1_apply V c t k q')

/-- An index of the result is in point `t`'s block iff each coordinate is in the block's range on its axis. -/
theorem mem_blk0 (t : Fin cfg0.N) (i : S8192x256.Idx) :
    i ∈ ((cfg0.win 2).blk t).view.set ↔ ∀ a : Fin 2, win0_2.index t a * S1024x256.size a ≤ (i a).val
      ∧ (i a).val < win0_2.index t a * S1024x256.size a + S1024x256.size a := by
  show i ∈ ((View.whole main_v0).slice (win0_2.rect t)).set ↔ _
  rw [View.set_slice_whole, Rect.mem_set_unit]
  exact Iff.rfl

/-- Every index of the result is in the block of the point its row block names. -/
theorem cover0 (i : S8192x256.Idx) : ∃ t : Fin cfg0.N, (cfg0.win 2).flush t = true ∧ i ∈ ((cfg0.win 2).blk t).view.set := by
  have hN : grid0.N = 8 := N_0
  have hi0 : (i 0).val < 8192 := (i 0).isLt
  have hi1 : (i 1).val < 256 := (i 1).isLt
  refine ⟨⟨(i 0).val / 1024, by rw [show cfg0.N = 8 from N_0]; omega⟩, flush0_2 _, ?_⟩
  rw [mem_blk0]
  obtain ⟨-, -, -, -, e4, e5⟩ := idx_facts0 ⟨(i 0).val / 1024, by rw [show cfg0.N = 8 from N_0]; omega⟩
  intro a
  match a with
  | ⟨0, _⟩ =>
    show win0_2.index _ (0 : Fin 2) * 1024 ≤ (i 0).val ∧ (i 0).val < win0_2.index _ (0 : Fin 2) * 1024 + 1024
    rw [e4]; show (i 0).val / 1024 * 1024 ≤ (i 0).val ∧ (i 0).val < (i 0).val / 1024 * 1024 + 1024; omega
  | ⟨1, _⟩ =>
    show win0_2.index _ (1 : Fin 2) * 256 ≤ (i 1).val ∧ (i 1).val < win0_2.index _ (1 : Fin 2) * 256 + 256
    rw [e5]; omega

/-- THE RESULT ARRAY after region 0: the product of the two input arrays as the region finds them. -/
theorem final0 (c : Dev nD) :
    (Fr.dat0 (F := Ideal) V q c).arrAt 2 cfg0.N = Cert.Gcn.mm (V c main_arg0) (V c main_arg3) :=
  (Fr.dat0 (F := Ideal) V q c).arrAt_eq_of_cover 2 _ (fun t _ => flushed0_eq V q c t) cover0

end Cert.KernelIdeal.Val

end
-- ==== Proof.KiVal1.lean ====
/-
  Region 1 of the program, from blocks to the array: a row block of the first array, bounded below entrywise by the zero
  pattern, times the whole second array, written back row block by row block, leaves the product of the bounded first
  array and the second array.

  Grid point `t` (of 8) reads rows `1024 t … 1024 t + 1023` of the first array and the whole second array, and writes
  rows `1024 t … 1024 t + 1023` of the result. Entry `(p, q)` of the block product is the sum over `k` of the maximum of
  the block's `(p, k)` and the zero pattern's value, times the second array's `(k, q)`, which is entry `(1024 t + p, q)` of
  the product of the bounded first array and the second array; the 8 row blocks cover the result.
-/
import proofs.«152238_j13048110646074_1_alg».proof.Proof.KiBody1
import proofs.«152238_j13048110646074_1_alg».proof.Proof.Pay
import proofs.«152238_j13048110646074_1_alg».proof.Proof.Spec
import Idealize.ShloMosaic.Lib.Pipeline.Value
import Idealize.ShloMosaic.Lib.ValueIdx

noncomputable section

open scoped BigOperators

namespace Cert.KernelIdeal.Val

open Cert.KernelIdeal Cert.KernelIdeal.Gen Idealize.ShloMosaic Idealize.ShloMosaic.TcCoe Idealize.SL.Sem
open Idealize.ShloMosaic.ValueIdx
open Idealize.SL Idealize.SL.RA
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block indices over the grid: the first input and the output move down one row block per point, the second
    input stays. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The first input's block at point `t`, entry `(p, k)`: the first array's entry `(1024 t + p, k)`. -/
theorem iblk1_0_apply (c : Dev nD) (t : Fin cfg1.N) (p : Fin 1024) (k : Fin 256) (r : Fin 8192)
    (hr : r.val = t.val * 1024 + p.val) :
    (Fr.iblk1 V c 0 t : Vec Ideal S1024x256 .f32) (ix2 p k) = (V c main_v17 : S8192x256.Idx → EReal) (ix2 r k) := by
  obtain ⟨e0, e1, -⟩ := idx_facts1 t
  unfold Fr.iblk1
  rw [View.read_apply]
  show V c main_v17 _ = V c main_v17 _
  congr 1
  funext a
  apply Fin.ext
  match a with
  | ⟨0, _⟩ => show win1_0.index t (0 : Fin 2) * 1024 + 1 * p.val = r.val; omega
  | ⟨1, _⟩ => show win1_0.index t (1 : Fin 2) * 256 + 1 * k.val = k.val; omega

/-- The second input's block at any point is the second array. -/
theorem iblk1_1_apply (c : Dev nD) (t : Fin cfg1.N) (k : Fin 256) (q : Fin 256) :
    (Fr.iblk1 V c 1 t : Vec Ideal S256x256 .f32) (ix2 k q) = (V c main_v18 : S256x256.Idx → EReal) (ix2 k q) := by
  obtain ⟨-, -, e2, e3, -⟩ := idx_facts1 t
  unfold Fr.iblk1
  rw [View.read_apply]
  show V c main_v18 _ = V c main_v18 _
  congr 1
  funext a
  apply Fin.ext
  match a with
  | ⟨0, _⟩ => show win1_1.index t (0 : Fin 2) * 256 + 1 * k.val = k.val; omega
  | ⟨1, _⟩ => show win1_1.index t (1 : Fin 2) * 256 + 1 * q.val = q.val; omega

/-- One entry of a block product: when row `p` of the left block is row `r` of `A` and column `q` of the right block is
    column `q` of `B`, entry `(p, q)` of the block product is entry `(r, q)` of `max A z · B`. -/
theorem point1 (A : Cert.Gcn.Mat 8192 256) (B : Cert.Gcn.Mat 256 256) (x0 : Vec Ideal S1024x256 .f32)
    (x1 : Vec Ideal S256x256 .f32) (p : Fin 1024) (q : Fin 256) (r : Fin 8192)
    (h0 : ∀ k : Fin 256, x0 (ix2 p k) = A (ix2 r k)) (h1 : ∀ k : Fin 256, x1 (ix2 k q) = B (ix2 k q)) :
    Gen.k1_pay1 (F := Ideal) x0 x1 (ix2 p q) = Cert.Gcn.mm (Cert.Gcn.relu (Ideal.ofBits .f32 0x00000000#32) A) B (ix2 r q) := by
  refine (Pay.k1_pay1_apply x0 x1 p q).trans ?_
  unfold Cert.Gcn.mm Cert.Gcn.relu
  refine Finset.sum_congr rfl fun k _ => ?_
  show max (x0 (ix2 p k)) (Ideal.ofBits .f32 0x00000000#32) * x1 (ix2 k q) = max (A (ix2 r k)) (Ideal.ofBits .f32 0x00000000#32) * B (ix2 k q)
  rw [h0 k, h1 k]

variable (q : Fin cfg1.W → PosShare TreeShare)

/-- What point `t` writes back is its block of the product of the bounded first array and the second array. -/
theorem flushed1_eq (c : Dev nD) (t : Fin cfg1.N) :
    (Fr.dat1 (F := Ideal) V q c).flushed 2 t
      = ((cfg1.win 2).blk t).view.read (Elt Ideal) (Cert.Gcn.mm (Cert.Gcn.relu (Ideal.ofBits .f32 0x00000000#32) (V c main_v17)) (V c main_v18)) := by
  show (cfg1.win 2).cut (grid1.coords t) ((Fr.dat1 V q c).after 2 t) = _
  rw [Fr.after1_2]
  unfold Fr.out1_2
  rw [View.canon_unit_zero hz]
  simp only [View.ld_unit_zero (S := S1024x256) hz, View.ld_unit_zero (S := S256x256) hz]
  funext j
  obtain ⟨p, q', rfl⟩ : ∃ (p : Fin 1024) (q' : Fin 256), j = ix2 p q' := ⟨j 0, j 1, eq_ix2 j⟩
  obtain ⟨-, -, -, -, e4, e5⟩ := idx_facts1 t
  have hN : grid1.N = 8 := N_1
  have ht : t.val < 8 := hN ▸ t.isLt
  rw [View.read_apply]
  have hemb : ((cfg1.win 2).blk t).view.emb (ix2 p q') = (ix2 (⟨t.val * 1024 + p.val, by omega⟩ : Fin 8192) q' : S8192x256.Idx) := by
    funext a; apply Fin.ext
    match a with
    | ⟨0, _⟩ => show win1_2.index t (0 : Fin 2) * 1024 + 1 * p.val = t.val * 1024 + p.val; omega
    | ⟨1, _⟩ => show win1_2.index t (1 : Fin 2) * 256 + 1 * q'.val = q'.val; omega
  rw [hemb]
  exact point1 _ _ (Fr.iblk1 V c 0 t) (Fr.iblk1 V c 1 t) p q' _ (fun k => iblk1_0_apply V c t p k _ rfl)
    (fun k => iblk1_1_apply V c t k q')

/-- An index of the result is in point `t`'s block iff each coordinate is in the block's range on its axis. -/
theorem mem_blk1 (t : Fin cfg1.N) (i : S8192x256.Idx) :
    i ∈ ((cfg1.win 2).blk t).view.set ↔ ∀ a : Fin 2, win1_2.index t a * S1024x256.size a ≤ (i a).val
      ∧ (i a).val < win1_2.index t a * S1024x256.size a + S1024x256.size a := by
  show i ∈ ((View.whole main_v19).slice (win1_2.rect t)).set ↔ _
  rw [View.set_slice_whole, Rect.mem_set_unit]
  exact Iff.rfl

/-- Every index of the result is in the block of the point its row block names. -/
theorem cover1 (i : S8192x256.Idx) : ∃ t : Fin cfg1.N, (cfg1.win 2).flush t = true ∧ i ∈ ((cfg1.win 2).blk t).view.set := by
  have hN : grid1.N = 8 := N_1
  have hi0 : (i 0).val < 8192 := (i 0).isLt
  have hi1 : (i 1).val < 256 := (i 1).isLt
  refine ⟨⟨(i 0).val / 1024, by rw [show cfg1.N = 8 from N_1]; omega⟩, flush1_2 _, ?_⟩
  rw [mem_blk1]
  obtain ⟨-, -, -, -, e4, e5⟩ := idx_facts1 ⟨(i 0).val / 1024, by rw [show cfg1.N = 8 from N_1]; omega⟩
  intro a
  match a with
  | ⟨0, _⟩ =>
    show win1_2.index _ (0 : Fin 2) * 1024 ≤ (i 0).val ∧ (i 0).val < win1_2.index _ (0 : Fin 2) * 1024 + 1024
    rw [e4]; show (i 0).val / 1024 * 1024 ≤ (i 0).val ∧ (i 0).val < (i 0).val / 1024 * 1024 + 1024; omega
  | ⟨1, _⟩ =>
    show win1_2.index _ (1 : Fin 2) * 256 ≤ (i 1).val ∧ (i 1).val < win1_2.index _ (1 : Fin 2) * 256 + 256
    rw [e5]; omega

/-- THE RESULT ARRAY after region 1: the product of the first input array, bounded below by the zero pattern, and the
    second, as the region finds them. -/
theorem final1 (c : Dev nD) :
    (Fr.dat1 (F := Ideal) V q c).arrAt 2 cfg1.N = Cert.Gcn.mm (Cert.Gcn.relu (Ideal.ofBits .f32 0x00000000#32) (V c main_v17)) (V c main_v18) :=
  (Fr.dat1 (F := Ideal) V q c).arrAt_eq_of_cover 2 _ (fun t _ => flushed1_eq V q c t) cover1

end Cert.KernelIdeal.Val

end
-- ==== Proof.KiVal2.lean ====
/-
  Region 2 of the program, from blocks to the array: a row block of an array times the transpose of another row block
  of the same array, written back block by block, leaves the product of the array with its own transpose.

  Grid point `t` (of 64) reads rows `1024 (t / 8) … + 1023` and rows `1024 (t % 8) … + 1023` of the one input array
  and writes block `(t / 8, t % 8)` of the result. Entry `(p, q)` of the block product is the sum over the 128 columns
  `k` of the first block's `(p, k)` times the second block's `(q, k)`, which is entry `(1024 (t / 8) + p, 1024 (t % 8) + q)`
  of the array times its transpose; the 8 × 8 blocks cover the result.
-/
import proofs.«152238_j13048110646074_1_alg».proof.Proof.KiBody2
import proofs.«152238_j13048110646074_1_alg».proof.Proof.Pay
import proofs.«152238_j13048110646074_1_alg».proof.Proof.Spec
import Idealize.ShloMosaic.Lib.Pipeline.Value
import Idealize.ShloMosaic.Lib.ValueIdx

noncomputable section

open scoped BigOperators

namespace Cert.KernelIdeal.Val

open Cert.KernelIdeal Cert.KernelIdeal.Gen Idealize.ShloMosaic Idealize.ShloMosaic.TcCoe Idealize.SL.Sem
open Idealize.ShloMosaic.ValueIdx
open Idealize.SL Idealize.SL.RA
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block indices over the grid: point `t` is block row `t / 8` of the first input, block row `t % 8` of the second,
    and block `(t / 8, t % 8)` of the output. -/
theorem idx_facts2 : ∀ t : Fin cfg2.N, win2_0.index t (0 : Fin 2) = t.val / 8 ∧ win2_0.index t (1 : Fin 2) = 0
    ∧ win2_1.index t (0 : Fin 2) = t.val % 8 ∧ win2_1.index t (1 : Fin 2) = 0
    ∧ win2_2.index t (0 : Fin 2) = t.val / 8 ∧ win2_2.index t (1 : Fin 2) = t.val % 8 :=
  (by decide +kernel : ∀ t : Fin grid2.N, _)

/-- The first input's block at point `t`, entry `(p, k)`: the array's entry `(1024 (t / 8) + p, k)`. -/
theorem iblk2_0_apply (c : Dev nD) (t : Fin cfg2.N) (p : Fin 1024) (k : Fin 128) (r : Fin 8192)
    (hr : r.val = t.val / 8 * 1024 + p.val) :
    (Fr.iblk2 V c 0 t : Vec Ideal S1024x128 .f32) (ix2 p k) = (V c main_v37 : S8192x128.Idx → EReal) (ix2 r k) := by
  obtain ⟨e0, e1, -⟩ := idx_facts2 t
  unfold Fr.iblk2
  rw [View.read_apply]
  show V c main_v37 _ = V c main_v37 _
  congr 1
  funext a
  apply Fin.ext
  match a with
  | ⟨0, _⟩ => show win2_0.index t (0 : Fin 2) * 1024 + 1 * p.val = r.val; omega
  | ⟨1, _⟩ => show win2_0.index t (1 : Fin 2) * 128 + 1 * k.val = k.val; omega

/-- The second input's block at point `t`, entry `(p, k)`: the array's entry `(1024 (t % 8) + p, k)`. -/
theorem iblk2_1_apply (c : Dev nD) (t : Fin cfg2.N) (p : Fin 1024) (k : Fin 128) (r : Fin 8192)
    (hr : r.val = t.val % 8 * 1024 + p.val) :
    (Fr.iblk2 V c 1 t : Vec Ideal S1024x128 .f32) (ix2 p k) = (V c main_v37 : S8192x128.Idx → EReal) (ix2 r k) := by
  obtain ⟨-, -, e2, e3, -⟩ := idx_facts2 t
  unfold Fr.iblk2
  rw [View.read_apply]
  show V c main_v37 _ = V c main_v37 _
  congr 1
  funext a
  apply Fin.ext
  match a with
  | ⟨0, _⟩ => show win2_1.index t (0 : Fin 2) * 1024 + 1 * p.val = r.val; omega
  | ⟨1, _⟩ => show win2_1.index t (1 : Fin 2) * 128 + 1 * k.val = k.val; omega

/-- One entry of a block product: when row `p` of the left block is row `r` of `A` and row `q` of the right block is
    row `s` of `A`, entry `(p, q)` of the left block times the right block's transpose is entry `(r, s)` of `A · Aᵀ`. -/
theorem point2 (A : Cert.Gcn.Mat 8192 128) (x0 x1 : Vec Ideal S1024x128 .f32) (p q : Fin 1024) (r s : Fin 8192)
    (h0 : ∀ k : Fin 128, x0 (ix2 p k) = A (ix2 r k)) (h1 : ∀ k : Fin 128, x1 (ix2 q k) = A (ix2 s k)) :
    Gen.k2_pay1 (F := Ideal) x0 x1 (ix2 p q) = Cert.Gcn.gram A (ix2 r s) := by
  refine (Pay.k2_pay1_apply x0 x1 p q).trans ?_
  unfold Cert.Gcn.gram
  refine Finset.sum_congr rfl fun k _ => ?_
  show x0 (ix2 p k) * x1 (ix2 q k) = A (ix2 r k) * A (ix2 s k)
  rw [h0 k, h1 k]

variable (q : Fin cfg2.W → PosShare TreeShare)

/-- What point `t` writes back is its block of the array times its transpose. -/
theorem flushed2_eq (c : Dev nD) (t : Fin cfg2.N) :
    (Fr.dat2 (F := Ideal) V q c).flushed 2 t
      = ((cfg2.win 2).blk t).view.read (Elt Ideal) (Cert.Gcn.gram (V c main_v37)) := by
  show (cfg2.win 2).cut (grid2.coords t) ((Fr.dat2 V q c).after 2 t) = _
  rw [Fr.after2_2]
  unfold Fr.out2_2
  rw [View.canon_unit_zero hz]
  simp only [View.ld_unit_zero (S := S1024x128) hz]
  funext j
  obtain ⟨p, q', rfl⟩ : ∃ (p : Fin 1024) (q' : Fin 1024), j = ix2 p q' := ⟨j 0, j 1, eq_ix2 j⟩
  obtain ⟨-, -, -, -, e4, e5⟩ := idx_facts2 t
  have hN : grid2.N = 64 := N_2
  have ht : t.val < 64 := hN ▸ t.isLt
  rw [View.read_apply]
  have hemb : ((cfg2.win 2).blk t).view.emb (ix2 p q')
      = (ix2 (⟨t.val / 8 * 1024 + p.val, by omega⟩ : Fin 8192) (⟨t.val % 8 * 1024 + q'.val, by omega⟩ : Fin 8192) : S8192x8192.Idx) := by
    funext a; apply Fin.ext
    match a with
    | ⟨0, _⟩ => show win2_2.index t (0 : Fin 2) * 1024 + 1 * p.val = t.val / 8 * 1024 + p.val; omega
    | ⟨1, _⟩ => show win2_2.index t (1 : Fin 2) * 1024 + 1 * q'.val = t.val % 8 * 1024 + q'.val; omega
  rw [hemb]
  exact point2 _ (Fr.iblk2 V c 0 t) (Fr.iblk2 V c 1 t) p q' _ _ (fun k => iblk2_0_apply V c t p k _ rfl)
    (fun k => iblk2_1_apply V c t q' k _ rfl)

/-- An index of the result is in point `t`'s block iff each coordinate is in the block's range on its axis. -/
theorem mem_blk2 (t : Fin cfg2.N) (i : S8192x8192.Idx) :
    i ∈ ((cfg2.win 2).blk t).view.set ↔ ∀ a : Fin 2, win2_2.index t a * S1024x1024.size a ≤ (i a).val
      ∧ (i a).val < win2_2.index t a * S1024x1024.size a + S1024x1024.size a := by
  show i ∈ ((View.whole main_v39).slice (win2_2.rect t)).set ↔ _
  rw [View.set_slice_whole, Rect.mem_set_unit]
  exact Iff.rfl

/-- Every index of the result is in the block of the point its row block and column block name. -/
theorem cover2 (i : S8192x8192.Idx) : ∃ t : Fin cfg2.N, (cfg2.win 2).flush t = true ∧ i ∈ ((cfg2.win 2).blk t).view.set := by
  have hN : grid2.N = 64 := N_2
  have hi0 : (i 0).val < 8192 := (i 0).isLt
  have hi1 : (i 1).val < 8192 := (i 1).isLt
  refine ⟨⟨8 * ((i 0).val / 1024) + (i 1).val / 1024, by rw [show cfg2.N = 64 from N_2]; omega⟩, flush2_2 _, ?_⟩
  rw [mem_blk2]
  obtain ⟨-, -, -, -, e4, e5⟩ := idx_facts2 ⟨8 * ((i 0).val / 1024) + (i 1).val / 1024, by rw [show cfg2.N = 64 from N_2]; omega⟩
  intro a
  match a with
  | ⟨0, _⟩ =>
    show win2_2.index _ (0 : Fin 2) * 1024 ≤ (i 0).val ∧ (i 0).val < win2_2.index _ (0 : Fin 2) * 1024 + 1024
    rw [e4]
    show (8 * ((i 0).val / 1024) + (i 1).val / 1024) / 8 * 1024 ≤ (i 0).val
      ∧ (i 0).val < (8 * ((i 0).val / 1024) + (i 1).val / 1024) / 8 * 1024 + 1024
    omega
  | ⟨1, _⟩ =>
    show win2_2.index _ (1 : Fin 2) * 1024 ≤ (i 1).val ∧ (i 1).val < win2_2.index _ (1 : Fin 2) * 1024 + 1024
    rw [e5]
    show (8 * ((i 0).val / 1024) + (i 1).val / 1024) % 8 * 1024 ≤ (i 1).val
      ∧ (i 1).val < (8 * ((i 0).val / 1024) + (i 1).val / 1024) % 8 * 1024 + 1024
    omega

/-- THE RESULT ARRAY after region 2: the input array, as the region finds it, times its own transpose. -/
theorem final2 (c : Dev nD) :
    (Fr.dat2 (F := Ideal) V q c).arrAt 2 cfg2.N = Cert.Gcn.gram (V c main_v37) :=
  (Fr.dat2 (F := Ideal) V q c).arrAt_eq_of_cover 2 _ (fun t _ => flushed2_eq V q c t) cover2

end Cert.KernelIdeal.Val

end
-- ==== Proof.RowOpsInst.lean ====
/-
  The row gather and the accumulating row scatter of the two programs, read at an index.

  Both programs gather rows of an `[8192, C]` table at a column of 262144 start words and scatter-add `[262144, C]`
  updates into an `[8192, C]` table, for `C = 256` (both programs) and `C = 128` (the second program). Their
  dimension numbers are the row gather's and the row scatter's, so entry `(e, c)` of a gather is the table's entry
  `(r e, c)` at the clamped word `r e`, and entry `(r, c)` of a scatter is the operand's entry plus the sum of the
  updates `(e, c)` over the edges `e` whose word is `r`.
-/
import proofs.«152238_j13048110646074_1_alg».proof.KernelIdeal
import proofs.«152238_j13048110646074_1_alg».proof.ReferenceIdeal
import proofs.«152238_j13048110646074_1_alg».proof.Proof.LibRowOps

noncomputable section

open scoped BigOperators

namespace Cert.RowOps

open Idealize.ShloMosaic Idealize.ShloMosaic.ValueIdx

section Kernel
variable [Cert.KernelIdeal.Facts₀]

/-- The first program's row gather over 256 columns at `(e, c)`. -/
theorem gatherK256_apply {α : Type} (x : (⟨2, ![8192, 256]⟩ : Shape).Idx → α) (idx : IVec ⟨2, ![262144, 1]⟩ 32)
    (e : Fin 262144) (c : Fin 256) :
    Host.gather Cert.KernelIdeal.gather_S8192x256_S262144x1_S262144x256_1_0_n_n_0_1_1256 x idx (ix2 e c)
      = x (ix2 (gatherRow 8192 (by decide) idx e) c) :=
  gather_rows_apply (N := 8192) (E := 262144) (C := 256) (by decide)
    Cert.KernelIdeal.Facts₀.gather_S8192x256_S262144x1_S262144x256_1_0_n_n_0_1_1256_wf x idx e c

/-- The first program's accumulating row scatter over 256 columns at `(r, c)`. -/
theorem scatterK256_apply (x : (⟨2, ![8192, 256]⟩ : Shape).Idx → EReal) (idx : IVec ⟨2, ![262144, 1]⟩ 32)
    (upd : (⟨2, ![262144, 256]⟩ : Shape).Idx → EReal) (r : Fin 8192) (c : Fin 256) :
    Host.scatterAdd (F := Ideal) (φ := .f32) Cert.KernelIdeal.scatter_S8192x256_S262144x1_S262144x256_1_0_0_1 x idx upd
        (ix2 r c)
      = x (ix2 r c) + ∑ e ∈ Finset.univ.filter (fun e : Fin 262144 => scatterRow idx e = (r.val : Int)), upd (ix2 e c) :=
  scatterAdd_rows_apply (N := 8192) (E := 262144) (C := 256)
    Cert.KernelIdeal.Facts₀.scatter_S8192x256_S262144x1_S262144x256_1_0_0_1_wf x idx upd r c

end Kernel

section Reference
variable [Cert.ReferenceIdeal.Facts₀]

/-- The second program's row gather over 256 columns at `(e, c)`. -/
theorem gatherR256_apply {α : Type} (x : (⟨2, ![8192, 256]⟩ : Shape).Idx → α) (idx : IVec ⟨2, ![262144, 1]⟩ 32)
    (e : Fin 262144) (c : Fin 256) :
    Host.gather Cert.ReferenceIdeal.gather_S8192x256_S262144x1_S262144x256_1_0_n_n_0_1_1256 x idx (ix2 e c)
      = x (ix2 (gatherRow 8192 (by decide) idx e) c) :=
  gather_rows_apply (N := 8192) (E := 262144) (C := 256) (by decide)
    Cert.ReferenceIdeal.Facts₀.gather_S8192x256_S262144x1_S262144x256_1_0_n_n_0_1_1256_wf x idx e c

/-- The second program's accumulating row scatter over 256 columns at `(r, c)`. -/
theorem scatterR256_apply (x : (⟨2, ![8192, 256]⟩ : Shape).Idx → EReal) (idx : IVec ⟨2, ![262144, 1]⟩ 32)
    (upd : (⟨2, ![262144, 256]⟩ : Shape).Idx → EReal) (r : Fin 8192) (c : Fin 256) :
    Host.scatterAdd (F := Ideal) (φ := .f32) Cert.ReferenceIdeal.scatter_S8192x256_S262144x1_S262144x256_1_0_0_1 x idx upd
        (ix2 r c)
      = x (ix2 r c) + ∑ e ∈ Finset.univ.filter (fun e : Fin 262144 => scatterRow idx e = (r.val : Int)), upd (ix2 e c) :=
  scatterAdd_rows_apply (N := 8192) (E := 262144) (C := 256)
    Cert.ReferenceIdeal.Facts₀.scatter_S8192x256_S262144x1_S262144x256_1_0_0_1_wf x idx upd r c

/-- The second program's row gather over 128 columns at `(e, c)`. -/
theorem gatherR128_apply {α : Type} (x : (⟨2, ![8192, 128]⟩ : Shape).Idx → α) (idx : IVec ⟨2, ![262144, 1]⟩ 32)
    (e : Fin 262144) (c : Fin 128) :
    Host.gather Cert.ReferenceIdeal.gather_S8192x128_S262144x1_S262144x128_1_0_n_n_0_1_1128 x idx (ix2 e c)
      = x (ix2 (gatherRow 8192 (by decide) idx e) c) :=
  gather_rows_apply (N := 8192) (E := 262144) (C := 128) (by decide)
    Cert.ReferenceIdeal.Facts₀.gather_S8192x128_S262144x1_S262144x128_1_0_n_n_0_1_1128_wf x idx e c

/-- The second program's accumulating row scatter over 128 columns at `(r, c)`. -/
theorem scatterR128_apply (x : (⟨2, ![8192, 128]⟩ : Shape).Idx → EReal) (idx : IVec ⟨2, ![262144, 1]⟩ 32)
    (upd : (⟨2, ![262144, 128]⟩ : Shape).Idx → EReal) (r : Fin 8192) (c : Fin 128) :
    Host.scatterAdd (F := Ideal) (φ := .f32) Cert.ReferenceIdeal.scatter_S8192x128_S262144x1_S262144x128_1_0_0_1 x idx upd
        (ix2 r c)
      = x (ix2 r c) + ∑ e ∈ Finset.univ.filter (fun e : Fin 262144 => scatterRow idx e = (r.val : Int)), upd (ix2 e c) :=
  scatterAdd_rows_apply (N := 8192) (E := 262144) (C := 128)
    Cert.ReferenceIdeal.Facts₀.scatter_S8192x128_S262144x1_S262144x128_1_0_0_1_wf x idx upd r c

end Reference

end Cert.RowOps

end
-- ==== Proof.KHost.lean ====
/-
  The two stretches of host operations of the kernel program, read over the extended reals.

  Each stretch takes the rows of the edge table, turns row 0 into source words (a negative word has 8192 added) and
  keeps row 1 as destination words, gathers the source rows of a table, scales each gathered row by its edge's
  weight and adds it into the destination row of a zero table. The first stretch also joins the two weight matrices
  side by side; the second cuts its result into its left and right halves. Read at an entry, the table each stretch
  leaves is the weighted neighbourhood sum of the table it started from, column by column.
-/
import proofs.«152238_j13048110646074_1_alg».proof.Proof.Gen.KernelIdeal.Launch
import Idealize.ShloMosaic.Lib.StableHlo.Run
import Idealize.ShloMosaic.Lib.ValueIdx
import Idealize.ShloMosaic.Lib.Pipeline.Value
import Idealize.ShloMosaic.Lib.IdealHost
import proofs.«152238_j13048110646074_1_alg».proof.Proof.Spec
import proofs.«152238_j13048110646074_1_alg».proof.Proof.RowOpsInst

noncomputable section

open scoped BigOperators

namespace Cert.KernelIdeal.KHost

open Cert.KernelIdeal Cert.KernelIdeal.Gen Idealize.ShloMosaic Idealize.ShloMosaic.ValueIdx Idealize.ShloMosaic.StableHlo
  Idealize.SL.Sem

/-- The edge table: two rows of 262144 words. -/
abbrev EdgeTable : Type := (⟨S2x262144, .i32⟩ : BufTy).Contents (Elt Ideal)
/-- The edge weights. -/
abbrev EdgeWeights : Type := (⟨S262144, .f32⟩ : BufTy).Contents (Elt Ideal)
/-- A table of 8192 rows and 256 columns. -/
abbrev Table : Type := (⟨S8192x256, .f32⟩ : BufTy).Contents (Elt Ideal)

/-- The value of the zero pattern, never evaluated. -/
abbrev z : EReal := Ideal.ofBits .f32 0x00000000#32

/-- Row 0 of the edge table as a flat list of words. -/
def srcFlat (a1 : EdgeTable) : IVec S262144 32 :=
  shapeCast S262144 (extractStridedSlice S1x262144 ![0, 0] a1 Gen.slices_S2x262144_S1x262144_0_0)
    Gen.shapeCasts_S1x262144_S262144
/-- Row 1 of the edge table as a flat list of words. -/
def dstFlat (a1 : EdgeTable) : IVec S262144 32 :=
  shapeCast S262144 (extractStridedSlice S1x262144 ![1, 0] a1 Gen.slices_S2x262144_S1x262144_1_0)
    Gen.shapeCasts_S1x262144_S262144

/-- The source words as a column: a word below zero has 8192 added, the others are kept. -/
def srcWords (a1 : EdgeTable) : IVec S262144x1 32 :=
  broadcastInDim S262144x1 ![0] Gen.bcast_S262144_S262144x1_0
    (select
      (cmpi CmpIPredicate.slt (srcFlat a1) (broadcastInDim S262144 ![] Gen.bcast_S_S262144 (constantI S_ 32 0#32)))
      (addi (srcFlat a1) (broadcastInDim S262144 ![] Gen.bcast_S_S262144 (constantI S_ 32 8192#32)))
      (srcFlat a1))
/-- The destination words as a column, as they stand in the table. -/
def dstWords (a1 : EdgeTable) : IVec S262144x1 32 :=
  broadcastInDim S262144x1 ![0] Gen.bcast_S262144_S262144x1_0 (dstFlat a1)
/-- The weight of edge `e`. -/
def wgtOf (a2 : EdgeWeights) (e : Fin 262144) : EReal := a2 (ix1 e)

/-- What a stretch leaves in its result table: the source rows of `T`, each scaled by its edge's weight, added into
    their destination rows of the zero table. -/
def aggTerm (T : Table) (a1 : EdgeTable) (a2 : EdgeWeights) : Table :=
  Host.scatterAdd (F := Ideal) scatter_S8192x256_S262144x1_S262144x256_1_0_0_1
    (broadcastInDim S8192x256 ![] Gen.bcast_S_S8192x256 (constant (F := Ideal) S_ .f32 0x00000000#32))
    (dstWords a1)
    (mulf
      (Host.gather gather_S8192x256_S262144x1_S262144x256_1_0_n_n_0_1_1256 T (srcWords a1))
      (broadcastInDim S262144x256 ![0, 1] Gen.bcast_S262144x1_S262144x256_0_1
        (broadcastInDim S262144x1 ![0] Gen.bcast_S262144_S262144x1_0 a2)))

/-! ### What the stretches leave, as terms -/

section After
variable (V : Valuation τ sig (Elt Ideal))

/-- After the first stretch the scattered table is the weighted sum of the first product's table. -/
theorem after1_v17 :
    StableHlo.after (Gen.hostOps1 (F := Ideal)) V (Proc.devRef .tc main_v17)
      = aggTerm (V (Proc.devRef .tc main_v0)) (V (Proc.devRef .tc main_arg1)) (V (Proc.devRef .tc main_arg2)) := by
  show StableHlo.after (Gen.hostOps1 (F := Ideal)) V (Proc.devRef .tc main_v17) = _
  dsimp only [Gen.hostOps1]
  after_results
  rfl

/-- After the first stretch the joined weight matrix is the two weight matrices side by side. -/
theorem after1_v18 :
    StableHlo.after (Gen.hostOps1 (F := Ideal)) V (Proc.devRef .tc main_v18)
      = concatenate S256x256 1 [⟨S256x128, V (Proc.devRef .tc main_arg4)⟩, ⟨S256x128, V (Proc.devRef .tc main_arg5)⟩]
          Gen.concatenates_S256x128_S256x128_S256x256_d1 := by
  show StableHlo.after (Gen.hostOps1 (F := Ideal)) V (Proc.devRef .tc main_v18) = _
  dsimp only [Gen.hostOps1]
  after_results

set_option maxHeartbeats 400000 in
/-- After the second stretch the scattered table is the weighted sum of the second product's table. -/
theorem after2_v36 :
    StableHlo.after (Gen.hostOps2 (F := Ideal)) V (Proc.devRef .tc main_v36)
      = aggTerm (V (Proc.devRef .tc main_v19)) (V (Proc.devRef .tc main_arg1)) (V (Proc.devRef .tc main_arg2)) := by
  show StableHlo.after (Gen.hostOps2 (F := Ideal)) V (Proc.devRef .tc main_v36) = _
  dsimp only [Gen.hostOps2]
  after_results
  rfl

/-- Its left half. -/
theorem after2_v37 :
    StableHlo.after (Gen.hostOps2 (F := Ideal)) V (Proc.devRef .tc main_v37)
      = extractStridedSlice S8192x128 ![0, 0]
          (aggTerm (V (Proc.devRef .tc main_v19)) (V (Proc.devRef .tc main_arg1)) (V (Proc.devRef .tc main_arg2)))
          Gen.slices_S8192x256_S8192x128_0_0 := by
  show StableHlo.after (Gen.hostOps2 (F := Ideal)) V (Proc.devRef .tc main_v37) = _
  dsimp only [Gen.hostOps2]
  after_results_simp
  rfl

/-- Its right half. -/
theorem after2_v38 :
    StableHlo.after (Gen.hostOps2 (F := Ideal)) V (Proc.devRef .tc main_v38)
      = extractStridedSlice S8192x128 ![0, 128]
          (aggTerm (V (Proc.devRef .tc main_v19)) (V (Proc.devRef .tc main_arg1)) (V (Proc.devRef .tc main_arg2)))
          Gen.slices_S8192x256_S8192x128_0_128 := by
  show StableHlo.after (Gen.hostOps2 (F := Ideal)) V (Proc.devRef .tc main_v38) = _
  dsimp only [Gen.hostOps2]
  after_results_simp
  rfl

end After

/-! ### The same at an entry -/

/-- The zero table reads the zero pattern at every entry. -/
theorem zeroTable_apply (i : S8192x256.Idx) :
    broadcastInDim S8192x256 ![] Gen.bcast_S_S8192x256 (constant (F := Ideal) S_ .f32 0x00000000#32) i = z := by
  rw [broadcastInDim_scalar_apply]
  rfl

/-- The weights spread over the columns read edge `e`'s weight in every column. -/
theorem weightCol_apply (a2 : EdgeWeights) (e : Fin 262144) (c : Fin 256) :
    broadcastInDim S262144x256 ![0, 1] Gen.bcast_S262144x1_S262144x256_0_1
        (broadcastInDim S262144x1 ![0] Gen.bcast_S262144_S262144x1_0 a2) (ix2 e c) = wgtOf a2 e := by
  refine (broadcastInDim_apply ![0, 1] Gen.bcast_S262144x1_S262144x256_0_1 _ (ix2 e c) (ix2 e (0 : Fin 1)) ?_).trans ?_
  · intro a
    match a with
    | ⟨0, _⟩ => show e.val = if (262144 : ℕ) = 1 then 0 else e.val; rw [if_neg (by decide)]
    | ⟨1, _⟩ => show (0 : ℕ) = if (1 : ℕ) = 1 then 0 else c.val; rw [if_pos rfl]
  · refine (broadcastInDim_apply ![0] Gen.bcast_S262144_S262144x1_0 a2 (ix2 e (0 : Fin 1)) (ix1 e) ?_).trans rfl
    intro a
    match a with
    | ⟨0, _⟩ => show e.val = if (262144 : ℕ) = 1 then 0 else e.val; rw [if_neg (by decide)]

/-- The table a stretch leaves is the weighted neighbourhood sum of the table it started from. -/
theorem aggTerm_eq (T : Table) (a1 : EdgeTable) (a2 : EdgeWeights) :
    (aggTerm T a1 a2 : S8192x256.Idx → EReal)
      = Gcn.agg z (fun e => Cert.RowOps.gatherRow 8192 (by decide) (srcWords a1) e)
          (fun e => Cert.RowOps.scatterRow (dstWords a1) e) (wgtOf a2) T := by
  funext i
  obtain ⟨r, c, rfl⟩ : ∃ r c, i = ix2 r c := ⟨i 0, i 1, eq_ix2 i⟩
  unfold aggTerm Gcn.agg
  rw [Cert.RowOps.scatterK256_apply, zeroTable_apply]
  refine congrArg (z + ·) (Finset.sum_congr rfl fun e _ => ?_)
  rw [mulf_apply, Cert.RowOps.gatherK256_apply, weightCol_apply]

section AtEntry
variable (V : Valuation τ sig (Elt Ideal))

/-- After the first stretch: the weighted neighbourhood sum of the first product's table. -/
theorem after1_v17_eq :
    (StableHlo.after (Gen.hostOps1 (F := Ideal)) V (Proc.devRef .tc main_v17) : S8192x256.Idx → EReal)
      = Gcn.agg z (fun e => Cert.RowOps.gatherRow 8192 (by decide) (srcWords (V (Proc.devRef .tc main_arg1))) e)
          (fun e => Cert.RowOps.scatterRow (dstWords (V (Proc.devRef .tc main_arg1))) e) (wgtOf (V (Proc.devRef .tc main_arg2))) (V (Proc.devRef .tc main_v0)) :=
  (after1_v17 V).trans (aggTerm_eq _ _ _)

/-- After the first stretch: column `c` of the joined weight matrix is column `c` of the first matrix when
    `c < 128`, and column `c - 128` of the second otherwise. -/
theorem after1_v18_apply (k : Fin 256) (c : Fin 256) :
    (StableHlo.after (Gen.hostOps1 (F := Ideal)) V (Proc.devRef .tc main_v18) : S256x256.Idx → EReal) (ix2 k c)
      = if h : c.val < 128 then (V (Proc.devRef .tc main_arg4) : S256x128.Idx → EReal) (ix2 k ⟨c.val, h⟩)
        else (V (Proc.devRef .tc main_arg5) : S256x128.Idx → EReal)
          (ix2 k ⟨c.val - 128, by have := c.isLt; omega⟩) := by
  rw [after1_v18]
  split
  · rename_i h
    exact concatenate_pair_apply_left (t := S256x256) (s₁ := S256x128) (s₂ := S256x128) (1 : Fin 2)
      (V (Proc.devRef .tc main_arg4)) (V (Proc.devRef .tc main_arg5))
      Gen.concatenates_S256x128_S256x128_S256x256_d1 (ix2 k c) rfl (ix2 k ⟨c.val, h⟩) (fun b => by
        match b with
        | ⟨0, _⟩ => rfl
        | ⟨1, _⟩ => rfl)
  · rename_i h
    exact concatenate_pair_apply_right (t := S256x256) (s₁ := S256x128) (s₂ := S256x128) (1 : Fin 2)
      (V (Proc.devRef .tc main_arg4)) (V (Proc.devRef .tc main_arg5))
      Gen.concatenates_S256x128_S256x128_S256x256_d1 (ix2 k c) rfl rfl
      (ix2 k ⟨c.val - 128, by have := c.isLt; omega⟩) (fun b hb => by
        match b with
        | ⟨0, _⟩ => rfl
        | ⟨1, _⟩ => exact absurd rfl hb)
      (by show c.val - 128 + 128 = c.val; omega)

/-- After the second stretch: the weighted neighbourhood sum of the second product's table. -/
theorem after2_v36_eq :
    (StableHlo.after (Gen.hostOps2 (F := Ideal)) V (Proc.devRef .tc main_v36) : S8192x256.Idx → EReal)
      = Gcn.agg z (fun e => Cert.RowOps.gatherRow 8192 (by decide) (srcWords (V (Proc.devRef .tc main_arg1))) e)
          (fun e => Cert.RowOps.scatterRow (dstWords (V (Proc.devRef .tc main_arg1))) e) (wgtOf (V (Proc.devRef .tc main_arg2))) (V (Proc.devRef .tc main_v19)) :=
  (after2_v36 V).trans (aggTerm_eq _ _ _)

/-- Its left half: columns `0 … 127` of that sum. -/
theorem after2_v37_eq :
    (StableHlo.after (Gen.hostOps2 (F := Ideal)) V (Proc.devRef .tc main_v37) : S8192x128.Idx → EReal)
      = fun i => Gcn.agg z (fun e => Cert.RowOps.gatherRow 8192 (by decide) (srcWords (V (Proc.devRef .tc main_arg1))) e)
          (fun e => Cert.RowOps.scatterRow (dstWords (V (Proc.devRef .tc main_arg1))) e) (wgtOf (V (Proc.devRef .tc main_arg2))) (V (Proc.devRef .tc main_v19))
          (ix2 (i 0) (⟨(i 1).val, by have := idx2_lt1 i; omega⟩ : Fin 256)) := by
  rw [after2_v37]
  funext i
  have e := extractStridedSlice_apply (s := S8192x256) (t := S8192x128) ![0, 0]
    (aggTerm (V (Proc.devRef .tc main_v19)) (V (Proc.devRef .tc main_arg1)) (V (Proc.devRef .tc main_arg2)))
    Gen.slices_S8192x256_S8192x128_0_0 i
    (ix2 (i 0) (⟨(i 1).val, by have := idx2_lt1 i; omega⟩ : Fin 256)) (fun a => by
      match a with
      | ⟨0, _⟩ => show (i 0).val = 0 + (i 0).val; omega
      | ⟨1, _⟩ => show (i 1).val = 0 + (i 1).val; omega)
  exact e.trans (congrFun (aggTerm_eq _ _ _) _)

/-- Its right half: columns `128 … 255` of that sum. -/
theorem after2_v38_eq :
    (StableHlo.after (Gen.hostOps2 (F := Ideal)) V (Proc.devRef .tc main_v38) : S8192x128.Idx → EReal)
      = fun i => Gcn.agg z (fun e => Cert.RowOps.gatherRow 8192 (by decide) (srcWords (V (Proc.devRef .tc main_arg1))) e)
          (fun e => Cert.RowOps.scatterRow (dstWords (V (Proc.devRef .tc main_arg1))) e) (wgtOf (V (Proc.devRef .tc main_arg2))) (V (Proc.devRef .tc main_v19))
          (ix2 (i 0) (⟨(i 1).val + 128, by have := idx2_lt1 i; omega⟩ : Fin 256)) := by
  rw [after2_v38]
  funext i
  have e := extractStridedSlice_apply (s := S8192x256) (t := S8192x128) ![0, 128]
    (aggTerm (V (Proc.devRef .tc main_v19)) (V (Proc.devRef .tc main_arg1)) (V (Proc.devRef .tc main_arg2)))
    Gen.slices_S8192x256_S8192x128_0_128 i
    (ix2 (i 0) (⟨(i 1).val + 128, by have := idx2_lt1 i; omega⟩ : Fin 256)) (fun a => by
      match a with
      | ⟨0, _⟩ => show (i 0).val = 0 + (i 0).val; omega
      | ⟨1, _⟩ => show (i 1).val + 128 = 128 + (i 1).val; omega)
  exact e.trans (congrFun (aggTerm_eq _ _ _) _)

end AtEntry

end Cert.KernelIdeal.KHost

end
-- ==== Proof.Bridge.lean ====
/-
  The fused second layer, column by column.

  The kernel multiplies the hidden layer by the two head matrices side by side, `[W2 | W3]`, aggregates the
  256-column result over the edges once, and cuts the aggregate into its two column halves. Entry `(d, c)` of an
  aggregate reads column `c` of its table only, and column `c` of `H · [W2 | W3]` is column `c` of `H · W2`
  (for `c < 128`) or column `c - 128` of `H · W3`: so each half IS the aggregate of the head's own product.
  Only the definitions are unfolded; no law of the extended reals is used.
-/
import proofs.«152238_j13048110646074_1_alg».proof.Proof.Spec

noncomputable section

open scoped BigOperators

namespace Cert.Gcn

open Idealize.ShloMosaic Idealize.ShloMosaic.ValueIdx

/-- Reading the aggregate of `H · Wc` at the columns `f c` gives the aggregate of `H · W`, when column `f c` of
    `Wc` is column `c` of `W`. -/
theorem agg_mm_cols {N E K C C' : Nat} (z : EReal) (src : Fin E → Fin N) (dst : Fin E → Int) (wgt : Fin E → EReal)
    (H : Mat N K) (Wc : Mat K C') (W : Mat K C) (f : Fin C → Fin C')
    (h : ∀ (k : Fin K) (c : Fin C), Wc (ix2 k (f c)) = W (ix2 k c)) :
    (fun i : (⟨2, ![N, C]⟩ : Shape).Idx =>
        agg z src dst wgt (mm H Wc) (ix2 (⟨(i 0).val, idx2_lt0 i⟩ : Fin N) (f ⟨(i 1).val, idx2_lt1 i⟩)))
      = agg z src dst wgt (mm H W) := by
  funext i
  obtain ⟨r, c, rfl⟩ : ∃ (r : Fin N) (c : Fin C), i = ix2 r c := ⟨i 0, i 1, eq_ix2 i⟩
  show z + ∑ e ∈ Finset.univ.filter (fun e : Fin E => dst e = (r.val : Int)), (∑ t : Fin K, H (ix2 (src e) t) * Wc (ix2 t (f c))) * wgt e
    = z + ∑ e ∈ Finset.univ.filter (fun e : Fin E => dst e = (r.val : Int)), (∑ t : Fin K, H (ix2 (src e) t) * W (ix2 t c)) * wgt e
  refine congrArg (z + ·) (Finset.sum_congr rfl fun e _ => congrArg (· * wgt e) (Finset.sum_congr rfl fun t _ => ?_))
  rw [h]

section Heads

variable (z : EReal) (src : Fin 262144 → Fin 8192) (dst : Fin 262144 → Int) (wgt : Fin 262144 → EReal)
  (x : Mat 8192 512) (W1 : Mat 512 256) (W2 W3 : Mat 256 128) (Wc : Mat 256 256)

/-- The left column half of the fused aggregate is the mean head. -/
theorem fused_lo (hlo : ∀ (k : Fin 256) (c : Fin 128), Wc (ix2 k ⟨c.val, by omega⟩) = W2 (ix2 k c)) :
    (fun i : (⟨2, ![8192, 128]⟩ : Shape).Idx =>
        agg z src dst wgt (mm (hidden z src dst wgt x W1) Wc)
          (ix2 (⟨(i 0).val, idx2_lt0 i⟩ : Fin 8192) (⟨(i 1).val, by have := idx2_lt1 i; omega⟩ : Fin 256)))
      = mu z src dst wgt x W1 W2 :=
  agg_mm_cols z src dst wgt (hidden z src dst wgt x W1) Wc W2 (fun c => ⟨c.val, by omega⟩) hlo

/-- The right column half of the fused aggregate is the log-variance head. -/
theorem fused_hi (hhi : ∀ (k : Fin 256) (c : Fin 128), Wc (ix2 k ⟨c.val + 128, by omega⟩) = W3 (ix2 k c)) :
    (fun i : (⟨2, ![8192, 128]⟩ : Shape).Idx =>
        agg z src dst wgt (mm (hidden z src dst wgt x W1) Wc)
          (ix2 (⟨(i 0).val, idx2_lt0 i⟩ : Fin 8192) (⟨(i 1).val + 128, by have := idx2_lt1 i; omega⟩ : Fin 256)))
      = logvar z src dst wgt x W1 W3 :=
  agg_mm_cols z src dst wgt (hidden z src dst wgt x W1) Wc W3 (fun c => ⟨c.val + 128, by omega⟩) hhi

end Heads

end Cert.Gcn

end
-- ==== Proof.KiValue.lean ====
/-
  What the idealized kernel computes. The last contents of the fold are read array by array:
  region 0 leaves `x · W1`; the first host stretch aggregates it over the edges and joins the two head matrices
  side by side; region 1 leaves `max(·, 0)` of the aggregate times the joined matrix; the second host stretch
  aggregates that and cuts the two column halves, which are the two heads' own aggregates (column by column);
  region 2 leaves the product of the mean head with its transpose. The run is then re-posted with the three
  result arrays at those functions of the argument arrays, and the arguments unchanged.
-/
import proofs.«152238_j13048110646074_1_alg».proof.Proof.KiRun
import proofs.«152238_j13048110646074_1_alg».proof.Proof.KiVal0
import proofs.«152238_j13048110646074_1_alg».proof.Proof.KiVal1
import proofs.«152238_j13048110646074_1_alg».proof.Proof.KiVal2
import proofs.«152238_j13048110646074_1_alg».proof.Proof.KHost
import proofs.«152238_j13048110646074_1_alg».proof.Proof.Bridge

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem

variable (m : (ℓ : Loc nD τ sig) → Buf (Elt Ideal) ℓ) (ρ : Dev nD → PrngReg)

/-- The value of the zero pattern, never evaluated. -/
abbrev zK : EReal := Ideal.ofBits .f32 0x00000000#32
/-- Each edge's source row, destination word and weight, read off the launch memory of core `c`. -/
abbrev srcK (c : Dev nD) : Fin 262144 → Fin 8192 :=
  fun e => Cert.RowOps.gatherRow 8192 (by decide) (KHost.srcWords (m ((c.tc : Thread nD τ).loc main_arg1))) e
abbrev dstK (c : Dev nD) : Fin 262144 → Int :=
  fun e => Cert.RowOps.scatterRow (KHost.dstWords (m ((c.tc : Thread nD τ).loc main_arg1))) e
abbrev wgtK (c : Dev nD) : Fin 262144 → EReal := KHost.wgtOf (m ((c.tc : Thread nD τ).loc main_arg2))

/-- A buffer the first host stretch does not write and region 1 does not own holds after region 1 what it held
    after region 0. -/
theorem W3_to_W1 (c : Dev nD) (b : Ref sig .tc) (hs1 : ∀ w, Pipeline.arrRef spec1 w ≠ b) (h1 : b ∉ hostOps1_W) :
    W3 m ρ c (Proc.devRef .tc b) = W1 m ρ c (Proc.devRef .tc b) :=
  (W3_of_ne m ρ c b hs1).trans (StableHlo.after_of_writes_sub hostOps1 _ hostOps1_writes h1)

/-- Region 0 leaves the first product. -/
theorem t1_eq (c : Dev nD) :
    W1 m ρ c (Proc.devRef .tc main_v0)
      = Gcn.mm (m ((c.tc : Thread nD τ).loc main_arg0)) (m ((c.tc : Thread nD τ).loc main_arg3)) :=
  (W1_arr m ρ c 2).trans (final0 (V0 m ρ) qFull0 c)

/-- The first host stretch leaves the aggregate of the first product. -/
theorem a1_eq (c : Dev nD) :
    W2 m ρ c (Proc.devRef .tc main_v17)
      = Gcn.agg zK (srcK m c) (dstK m c) (wgtK m c)
          (Gcn.mm (m ((c.tc : Thread nD τ).loc main_arg0)) (m ((c.tc : Thread nD τ).loc main_arg3))) := by
  refine (KHost.after1_v17_eq (W1 m ρ c)).trans ?_
  rw [t1_eq, W1_main_arg1, W1_main_arg2]

/-- The joined head matrix, column by column. -/
theorem wcat_lo (c : Dev nD) (k : Fin 256) (c' : Fin 128) :
    (W2 m ρ c (Proc.devRef .tc main_v18) : S256x256.Idx → EReal) (ix2 k ⟨c'.val, by omega⟩)
      = m ((c.tc : Thread nD τ).loc main_arg4) (ix2 k c') := by
  refine (KHost.after1_v18_apply (W1 m ρ c) k ⟨c'.val, by omega⟩).trans ?_
  rw [dif_pos (show (⟨c'.val, by omega⟩ : Fin 256).val < 128 from c'.isLt), W1_main_arg4]
theorem wcat_hi (c : Dev nD) (k : Fin 256) (c' : Fin 128) :
    (W2 m ρ c (Proc.devRef .tc main_v18) : S256x256.Idx → EReal) (ix2 k ⟨c'.val + 128, by omega⟩)
      = m ((c.tc : Thread nD τ).loc main_arg5) (ix2 k c') := by
  refine (KHost.after1_v18_apply (W1 m ρ c) k ⟨c'.val + 128, by omega⟩).trans ?_
  rw [dif_neg (show ¬ (⟨c'.val + 128, by omega⟩ : Fin 256).val < 128 from by show ¬ c'.val + 128 < 128; omega), W1_main_arg5]
  exact congrArg _ (congrArg (ix2 k) (Fin.ext (by show c'.val + 128 - 128 = c'.val; omega)))

/-- Region 1 leaves the hidden layer times the joined head matrix. -/
theorem t2_eq (c : Dev nD) :
    W3 m ρ c (Proc.devRef .tc main_v19)
      = Gcn.mm (Gcn.hidden zK (srcK m c) (dstK m c) (wgtK m c)
            (m ((c.tc : Thread nD τ).loc main_arg0)) (m ((c.tc : Thread nD τ).loc main_arg3)))
          (W2 m ρ c (Proc.devRef .tc main_v18)) := by
  refine ((W3_arr m ρ c 2).trans (final1 (V2 m ρ) qFull1 c)).trans ?_
  show Gcn.mm (Gcn.relu zK (W2 m ρ c (Proc.devRef .tc main_v17))) (W2 m ρ c (Proc.devRef .tc main_v18)) = _
  rw [a1_eq]
  rfl

/-- The mean head: the left column half of the second aggregate. -/
theorem mu_eq (c : Dev nD) :
    W4 m ρ c (Proc.devRef .tc main_v37)
      = Gcn.mu zK (srcK m c) (dstK m c) (wgtK m c)
          (m ((c.tc : Thread nD τ).loc main_arg0)) (m ((c.tc : Thread nD τ).loc main_arg3)) (m ((c.tc : Thread nD τ).loc main_arg4)) := by
  refine (KHost.after2_v37_eq (W3 m ρ c)).trans ?_
  rw [t2_eq, W3_to_W1 m ρ c main_arg1 (by decide) (by decide), W3_to_W1 m ρ c main_arg2 (by decide) (by decide),
    W1_main_arg1, W1_main_arg2]
  exact Gcn.fused_lo zK (srcK m c) (dstK m c) (wgtK m c) _ _ _ (W2 m ρ c (Proc.devRef .tc main_v18)) (wcat_lo m ρ c)

/-- The log-variance head: the right column half of the second aggregate. -/
theorem logvar_eq (c : Dev nD) :
    W4 m ρ c (Proc.devRef .tc main_v38)
      = Gcn.logvar zK (srcK m c) (dstK m c) (wgtK m c)
          (m ((c.tc : Thread nD τ).loc main_arg0)) (m ((c.tc : Thread nD τ).loc main_arg3)) (m ((c.tc : Thread nD τ).loc main_arg5)) := by
  refine (KHost.after2_v38_eq (W3 m ρ c)).trans ?_
  rw [t2_eq, W3_to_W1 m ρ c main_arg1 (by decide) (by decide), W3_to_W1 m ρ c main_arg2 (by decide) (by decide),
    W1_main_arg1, W1_main_arg2]
  exact Gcn.fused_hi zK (srcK m c) (dstK m c) (wgtK m c) _ _ _ (W2 m ρ c (Proc.devRef .tc main_v18)) (wcat_hi m ρ c)

/-- Region 2 leaves the product of the mean head with its transpose. -/
theorem adj_eq (c : Dev nD) :
    W5 m ρ c (Proc.devRef .tc main_v39)
      = Gcn.adj zK (srcK m c) (dstK m c) (wgtK m c)
          (m ((c.tc : Thread nD τ).loc main_arg0)) (m ((c.tc : Thread nD τ).loc main_arg3)) (m ((c.tc : Thread nD τ).loc main_arg4)) := by
  refine ((W5_out m ρ c).trans (final2 (V4 m ρ) qHalf2 c)).trans ?_
  show Gcn.gram (W4 m ρ c (Proc.devRef .tc main_v37)) = _
  rw [mu_eq]
  rfl

/-- THE KERNEL'S RUN, READ: every weakly fair execution terminates, nothing faulting, with the three result arrays
    at the model's functions of the launch memory and the argument arrays unchanged. -/
theorem kernel_run : θ_run defs (onTc (τ := τ) (main (F := Ideal))) ⟨m, fun _ => 0, ρ⟩ (fun r => ∀ c : Dev nD,
      r.2.mem ((c.tc : Thread nD τ).loc main_v39)
        = Gcn.adj zK (srcK m c) (dstK m c) (wgtK m c) (m ((c.tc : Thread nD τ).loc main_arg0)) (m ((c.tc : Thread nD τ).loc main_arg3)) (m ((c.tc : Thread nD τ).loc main_arg4))
      ∧ r.2.mem ((c.tc : Thread nD τ).loc main_v37)
        = Gcn.mu zK (srcK m c) (dstK m c) (wgtK m c) (m ((c.tc : Thread nD τ).loc main_arg0)) (m ((c.tc : Thread nD τ).loc main_arg3)) (m ((c.tc : Thread nD τ).loc main_arg4))
      ∧ r.2.mem ((c.tc : Thread nD τ).loc main_v38)
        = Gcn.logvar zK (srcK m c) (dstK m c) (wgtK m c) (m ((c.tc : Thread nD τ).loc main_arg0)) (m ((c.tc : Thread nD τ).loc main_arg3)) (m ((c.tc : Thread nD τ).loc main_arg5))
      ∧ r.2.mem ((c.tc : Thread nD τ).loc main_v37)
        = Gcn.mu zK (srcK m c) (dstK m c) (wgtK m c) (m ((c.tc : Thread nD τ).loc main_arg0)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    have hmu := ((h c _ (mem_uc main_v37 (by decide))).trans (W5_of_ne m ρ c main_v37 (by decide))).trans (mu_eq m ρ c)
    ⟨(h c _ (mem_uc main_v39 (by decide))).trans (adj_eq m ρ c),
     hmu,
     ((h c _ (mem_uc main_v38 (by decide))).trans (W5_of_ne m ρ c main_v38 (by decide))).trans (logvar_eq m ρ c),
     hmu,
     (h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c),
     (h c _ (mem_uc main_arg5 (by decide))).trans (W5_main_arg5 m ρ c)⟩) (run_all m ρ)

end Cert.KernelIdeal.Val

end
-- ==== Proof.RefValue.lean ====
/-
  The second program's results in closed form, over the extended reals.

  Its results are built from the six argument arrays by: the product `x · W1`; a row gather at the source words, each
  gathered row times its edge's weight, scatter-added into a zero table at the destination words (the weighted
  neighbourhood sum); the entrywise maximum with zero; the products with `W2` and with `W3`, each followed by the same
  neighbourhood sum; and the product of the mean head with its own transpose. Read entry by entry these are the
  model's `agg`, `hidden`, `mu`, `logvar` and `adj`: a contraction over one axis is the sum over that axis, a gathered
  entry `(e, c)` is the table's entry `(src e, c)`, a scatter-added entry `(r, c)` is the zero word's value plus the sum
  of the updates `(e, c)` over the edges with `dst e = r`, and the transpose swaps the two coordinates. Only
  commutative-monoid facts about sums of extended reals are used; no entry needs to be finite.

  The source words are row 0 of the edge list with a negative word moved up by 8192; the destination words are row 1
  as it stands. Both are kept as the printed chains and never evaluated: `src e` is the source word read signed and
  clamped into the table, `dst e` the destination word read signed (outside `[0, 8192)` it names no row).
-/
import proofs.«152238_j13048110646074_1_alg».proof.Proof.Gen.ReferenceIdeal.Read
import proofs.«152238_j13048110646074_1_alg».proof.Proof.Spec
import proofs.«152238_j13048110646074_1_alg».proof.Proof.RowOpsInst
import Idealize.ShloMosaic.Lib.ValueIdx
import Idealize.ShloMosaic.Lib.Pipeline.Value

noncomputable section

open scoped BigOperators

namespace Cert.ReferenceIdeal.RefValue

open Cert.ReferenceIdeal Cert.ReferenceIdeal.Gen Cert.ReferenceIdeal.Read Idealize.ShloMosaic Idealize.ShloMosaic.ValueIdx Idealize.ShloMosaic.TcCoe Idealize.SL.Sem Idealize.ShloMosaic.StableHlo

/-- The source words: row 0 of the edge list, a negative word moved up by the table's height, as a column. -/
def srcWords (a1 : (⟨S2x262144, .i32⟩ : BufTy).Contents (Elt Ideal)) : IVec S262144x1 32 :=
  broadcastInDim S262144x1 ![0] bcast_S262144_S262144x1_0 (select (cmpi .slt (shapeCast _ (extractStridedSlice S1x262144 ![0, 0] a1 slices_S2x262144_S1x262144_0_0) shapeCasts_S1x262144_S262144) (broadcastInDim S262144 ![] bcast_S_S262144 (constantI S_ 32 0#32))) (addi (shapeCast _ (extractStridedSlice S1x262144 ![0, 0] a1 slices_S2x262144_S1x262144_0_0) shapeCasts_S1x262144_S262144) (broadcastInDim S262144 ![] bcast_S_S262144 (constantI S_ 32 8192#32))) (shapeCast _ (extractStridedSlice S1x262144 ![0, 0] a1 slices_S2x262144_S1x262144_0_0) shapeCasts_S1x262144_S262144))

/-- The destination words: row 1 of the edge list as it stands, as a column. -/
def dstWords (a1 : (⟨S2x262144, .i32⟩ : BufTy).Contents (Elt Ideal)) : IVec S262144x1 32 :=
  broadcastInDim S262144x1 ![0] bcast_S262144_S262144x1_0 (shapeCast _ (extractStridedSlice S1x262144 ![1, 0] a1 slices_S2x262144_S1x262144_1_0) shapeCasts_S1x262144_S262144)

/-- The weight of edge `e`. -/
def wgtOf (a2 : (⟨S262144, .f32⟩ : BufTy).Contents (Elt Ideal)) (e : Fin 262144) : EReal := a2 (ix1 e)

/-- The table row edge `e` reads: its source word read signed and clamped into the table. -/
abbrev srcOf (a1 : (⟨S2x262144, .i32⟩ : BufTy).Contents (Elt Ideal)) : Fin 262144 → Fin 8192 :=
  fun e => Cert.RowOps.gatherRow 8192 (by decide) (srcWords a1) e
/-- The row edge `e` is added into: its destination word read signed (outside the table: no row). -/
abbrev dstOf (a1 : (⟨S2x262144, .i32⟩ : BufTy).Contents (Elt Ideal)) : Fin 262144 → Int :=
  fun e => Cert.RowOps.scatterRow (dstWords a1) e

/-- The three printings of the source chain are this one column … -/
theorem srcWords_v10 (a1 : (⟨S2x262144, .i32⟩ : BufTy).Contents (Elt Ideal)) : val_main_v10 (F := Ideal) a1 = srcWords a1 := rfl
theorem srcWords_v29 (a1 : (⟨S2x262144, .i32⟩ : BufTy).Contents (Elt Ideal)) : val_main_v29 (F := Ideal) a1 = srcWords a1 := rfl
theorem srcWords_v47 (a1 : (⟨S2x262144, .i32⟩ : BufTy).Contents (Elt Ideal)) : val_main_v47 (F := Ideal) a1 = srcWords a1 := rfl
/-- … and so are the three of the destination chain. -/
theorem dstWords_v16 (a1 : (⟨S2x262144, .i32⟩ : BufTy).Contents (Elt Ideal)) : val_main_v16 (F := Ideal) a1 = dstWords a1 := rfl
theorem dstWords_v35 (a1 : (⟨S2x262144, .i32⟩ : BufTy).Contents (Elt Ideal)) : val_main_v35 (F := Ideal) a1 = dstWords a1 := rfl
theorem dstWords_v53 (a1 : (⟨S2x262144, .i32⟩ : BufTy).Contents (Elt Ideal)) : val_main_v53 (F := Ideal) a1 = dstWords a1 := rfl

/-! ## The matrix products: a contraction over one axis is the sum over that axis -/

theorem mm_xW1 (x0 : (⟨S8192x512, .f32⟩ : BufTy).Contents (Elt Ideal)) (x3 : (⟨S512x256, .f32⟩ : BufTy).Contents (Elt Ideal)) :
    val_main_v0 (F := Ideal) x0 x3 = Cert.Gcn.mm x0 x3 := by
  funext i
  rw [val_main_v0_apply]
  unfold Cert.Gcn.mm
  refine Finset.sum_congr rfl fun k _ => ?_
  have hl : lidx_main_v0 i k = ix2 (i 0) k := funext fun a => by match a with | ⟨0, _⟩ => rfl | ⟨1, _⟩ => rfl
  have hr : ridx_main_v0 i k = ix2 k (i 1) := funext fun a => by match a with | ⟨0, _⟩ => rfl | ⟨1, _⟩ => rfl
  rw [hl, hr]
  rfl

theorem mm_hW2 (x0 : (⟨S8192x512, .f32⟩ : BufTy).Contents (Elt Ideal)) (x1 : (⟨S2x262144, .i32⟩ : BufTy).Contents (Elt Ideal)) (x2 : (⟨S262144, .f32⟩ : BufTy).Contents (Elt Ideal)) (x3 : (⟨S512x256, .f32⟩ : BufTy).Contents (Elt Ideal)) (x4 : (⟨S256x128, .f32⟩ : BufTy).Contents (Elt Ideal)) :
    val_main_v19 (F := Ideal) x0 x1 x2 x3 x4 = Cert.Gcn.mm (val_main_v18 (F := Ideal) x0 x1 x2 x3) x4 := by
  funext i
  rw [val_main_v19_apply]
  unfold Cert.Gcn.mm
  refine Finset.sum_congr rfl fun k _ => ?_
  have hl : lidx_main_v19 i k = ix2 (i 0) k := funext fun a => by match a with | ⟨0, _⟩ => rfl | ⟨1, _⟩ => rfl
  have hr : ridx_main_v19 i k = ix2 k (i 1) := funext fun a => by match a with | ⟨0, _⟩ => rfl | ⟨1, _⟩ => rfl
  rw [hl, hr]
  rfl

theorem mm_hW3 (x0 : (⟨S8192x512, .f32⟩ : BufTy).Contents (Elt Ideal)) (x1 : (⟨S2x262144, .i32⟩ : BufTy).Contents (Elt Ideal)) (x2 : (⟨S262144, .f32⟩ : BufTy).Contents (Elt Ideal)) (x3 : (⟨S512x256, .f32⟩ : BufTy).Contents (Elt Ideal)) (x5 : (⟨S256x128, .f32⟩ : BufTy).Contents (Elt Ideal)) :
    val_main_v37 (F := Ideal) x0 x1 x2 x3 x5 = Cert.Gcn.mm (val_main_v18 (F := Ideal) x0 x1 x2 x3) x5 := by
  funext i
  rw [val_main_v37_apply]
  unfold Cert.Gcn.mm
  refine Finset.sum_congr rfl fun k _ => ?_
  have hl : lidx_main_v37 i k = ix2 (i 0) k := funext fun a => by match a with | ⟨0, _⟩ => rfl | ⟨1, _⟩ => rfl
  have hr : ridx_main_v37 i k = ix2 k (i 1) := funext fun a => by match a with | ⟨0, _⟩ => rfl | ⟨1, _⟩ => rfl
  rw [hl, hr]
  rfl

/-! ## The weighted neighbourhood sum -/

/-- A zero table, scatter-added with the gathered rows each times its edge's weight, is the weighted neighbourhood sum
    (256 columns). -/
theorem agg256 (zt : FVec Ideal S8192x256 .f32) (hz : ∀ i, zt i = (Ideal.ofBits .f32 0x00000000#32)) (sw dw : IVec S262144x1 32)
    (wb : FVec Ideal S262144x256 .f32) (w : Fin 262144 → EReal) (hw : ∀ (e : Fin 262144) (c : Fin 256), wb (ix2 e c) = w e)
    (T : FVec Ideal S8192x256 .f32) :
    Host.scatterAdd (F := Ideal) (φ := .f32) scatter_S8192x256_S262144x1_S262144x256_1_0_0_1 zt dw
        (mulf (Host.gather gather_S8192x256_S262144x1_S262144x256_1_0_n_n_0_1_1256 T sw) wb)
      = Cert.Gcn.agg (Ideal.ofBits .f32 0x00000000#32) (fun e => Cert.RowOps.gatherRow 8192 (by decide) sw e)
          (fun e => Cert.RowOps.scatterRow dw e) w T := by
  funext i
  obtain ⟨r, c, rfl⟩ : ∃ (r : Fin 8192) (c : Fin 256), i = ix2 r c := ⟨i 0, i 1, eq_ix2 i⟩
  rw [Cert.RowOps.scatterR256_apply, hz]
  unfold Cert.Gcn.agg
  refine congrArg (fun s => (Ideal.ofBits .f32 0x00000000#32) + s) (Finset.sum_congr rfl fun e _ => ?_)
  rw [mulf_apply, Cert.RowOps.gatherR256_apply, hw]

/-- A zero table, scatter-added with the gathered rows each times its edge's weight, is the weighted neighbourhood sum
    (128 columns). -/
theorem agg128 (zt : FVec Ideal S8192x128 .f32) (hz : ∀ i, zt i = (Ideal.ofBits .f32 0x00000000#32)) (sw dw : IVec S262144x1 32)
    (wb : FVec Ideal S262144x128 .f32) (w : Fin 262144 → EReal) (hw : ∀ (e : Fin 262144) (c : Fin 128), wb (ix2 e c) = w e)
    (T : FVec Ideal S8192x128 .f32) :
    Host.scatterAdd (F := Ideal) (φ := .f32) scatter_S8192x128_S262144x1_S262144x128_1_0_0_1 zt dw
        (mulf (Host.gather gather_S8192x128_S262144x1_S262144x128_1_0_n_n_0_1_1128 T sw) wb)
      = Cert.Gcn.agg (Ideal.ofBits .f32 0x00000000#32) (fun e => Cert.RowOps.gatherRow 8192 (by decide) sw e)
          (fun e => Cert.RowOps.scatterRow dw e) w T := by
  funext i
  obtain ⟨r, c, rfl⟩ : ∃ (r : Fin 8192) (c : Fin 128), i = ix2 r c := ⟨i 0, i 1, eq_ix2 i⟩
  rw [Cert.RowOps.scatterR128_apply, hz]
  unfold Cert.Gcn.agg
  refine congrArg (fun s => (Ideal.ofBits .f32 0x00000000#32) + s) (Finset.sum_congr rfl fun e _ => ?_)
  rw [mulf_apply, Cert.RowOps.gatherR128_apply, hw]

/-- The broadcast weight column reads the edge's weight in every column (256 columns). -/
theorem wgt_col256 (x2 : (⟨S262144, .f32⟩ : BufTy).Contents (Elt Ideal)) (e : Fin 262144) (c : Fin 256) : val_main_v13 (F := Ideal) x2 (ix2 e c) = wgtOf x2 e := by
  rw [val_main_v13_apply, val_main_v12_apply]
  exact congrArg x2 (funext fun a => by match a with | ⟨0, _⟩ => rfl)
/-- The same, 128 columns (the mean head's printing). -/
theorem wgt_col128_mu (x2 : (⟨S262144, .f32⟩ : BufTy).Contents (Elt Ideal)) (e : Fin 262144) (c : Fin 128) : val_main_v32 (F := Ideal) x2 (ix2 e c) = wgtOf x2 e := by
  rw [val_main_v32_apply, val_main_v31_apply]
  exact congrArg x2 (funext fun a => by match a with | ⟨0, _⟩ => rfl)
/-- The same, 128 columns (the log-variance head's printing). -/
theorem wgt_col128_logvar (x2 : (⟨S262144, .f32⟩ : BufTy).Contents (Elt Ideal)) (e : Fin 262144) (c : Fin 128) : val_main_v50 (F := Ideal) x2 (ix2 e c) = wgtOf x2 e := by
  rw [val_main_v50_apply, val_main_v49_apply]
  exact congrArg x2 (funext fun a => by match a with | ⟨0, _⟩ => rfl)

/-! ## The layers -/

/-- The first aggregate: the neighbourhood sum of `x · W1`. -/
theorem agg1 (x0 : (⟨S8192x512, .f32⟩ : BufTy).Contents (Elt Ideal)) (x1 : (⟨S2x262144, .i32⟩ : BufTy).Contents (Elt Ideal)) (x2 : (⟨S262144, .f32⟩ : BufTy).Contents (Elt Ideal)) (x3 : (⟨S512x256, .f32⟩ : BufTy).Contents (Elt Ideal)) :
    val_main_v17 (F := Ideal) x0 x1 x2 x3 = Cert.Gcn.agg (Ideal.ofBits .f32 0x00000000#32) (srcOf x1) (dstOf x1) (wgtOf x2) (Cert.Gcn.mm x0 x3) := by
  unfold val_main_v17 val_main_v14 val_main_v11
  rw [mm_xW1]
  exact agg256 _ (fun i => by rw [val_main_v15_apply, val_main_cst_apply]; rfl) (val_main_v10 (F := Ideal) x1) (val_main_v16 (F := Ideal) x1) _ (wgtOf x2) (wgt_col256 x2) _

/-- The hidden layer. -/
theorem hidden (x0 : (⟨S8192x512, .f32⟩ : BufTy).Contents (Elt Ideal)) (x1 : (⟨S2x262144, .i32⟩ : BufTy).Contents (Elt Ideal)) (x2 : (⟨S262144, .f32⟩ : BufTy).Contents (Elt Ideal)) (x3 : (⟨S512x256, .f32⟩ : BufTy).Contents (Elt Ideal)) :
    val_main_v18 (F := Ideal) x0 x1 x2 x3 = Cert.Gcn.hidden (Ideal.ofBits .f32 0x00000000#32) (srcOf x1) (dstOf x1) (wgtOf x2) x0 x3 := by
  funext i
  rw [val_main_v18_apply, agg1, val_main_call0_v0_apply, val_main_call0_cst_apply]
  rfl

/-- The mean head. -/
theorem mu (x0 : (⟨S8192x512, .f32⟩ : BufTy).Contents (Elt Ideal)) (x1 : (⟨S2x262144, .i32⟩ : BufTy).Contents (Elt Ideal)) (x2 : (⟨S262144, .f32⟩ : BufTy).Contents (Elt Ideal)) (x3 : (⟨S512x256, .f32⟩ : BufTy).Contents (Elt Ideal)) (x4 : (⟨S256x128, .f32⟩ : BufTy).Contents (Elt Ideal)) :
    val_main_v36 (F := Ideal) x0 x1 x2 x3 x4 = Cert.Gcn.mu (Ideal.ofBits .f32 0x00000000#32) (srcOf x1) (dstOf x1) (wgtOf x2) x0 x3 x4 := by
  unfold val_main_v36 val_main_v33 val_main_v30 Cert.Gcn.mu
  rw [mm_hW2, hidden]
  exact agg128 _ (fun i => by rw [val_main_v34_apply, val_main_cst_3_apply]; rfl) (val_main_v29 (F := Ideal) x1) (val_main_v35 (F := Ideal) x1) _ (wgtOf x2) (wgt_col128_mu x2) _

/-- The log-variance head. -/
theorem logvar (x0 : (⟨S8192x512, .f32⟩ : BufTy).Contents (Elt Ideal)) (x1 : (⟨S2x262144, .i32⟩ : BufTy).Contents (Elt Ideal)) (x2 : (⟨S262144, .f32⟩ : BufTy).Contents (Elt Ideal)) (x3 : (⟨S512x256, .f32⟩ : BufTy).Contents (Elt Ideal)) (x5 : (⟨S256x128, .f32⟩ : BufTy).Contents (Elt Ideal)) :
    val_main_v54 (F := Ideal) x0 x1 x2 x3 x5 = Cert.Gcn.logvar (Ideal.ofBits .f32 0x00000000#32) (srcOf x1) (dstOf x1) (wgtOf x2) x0 x3 x5 := by
  unfold val_main_v54 val_main_v51 val_main_v48 Cert.Gcn.logvar
  rw [mm_hW3, hidden]
  exact agg128 _ (fun i => by rw [val_main_v52_apply, val_main_cst_6_apply]; rfl) (val_main_v47 (F := Ideal) x1) (val_main_v53 (F := Ideal) x1) _ (wgtOf x2) (wgt_col128_logvar x2) _

/-- The product with the transpose is the Gram matrix. -/
theorem gram_mu (x0 : (⟨S8192x512, .f32⟩ : BufTy).Contents (Elt Ideal)) (x1 : (⟨S2x262144, .i32⟩ : BufTy).Contents (Elt Ideal)) (x2 : (⟨S262144, .f32⟩ : BufTy).Contents (Elt Ideal)) (x3 : (⟨S512x256, .f32⟩ : BufTy).Contents (Elt Ideal)) (x4 : (⟨S256x128, .f32⟩ : BufTy).Contents (Elt Ideal)) :
    val_main_v56 (F := Ideal) x0 x1 x2 x3 x4 = Cert.Gcn.gram (val_main_v36 (F := Ideal) x0 x1 x2 x3 x4) := by
  funext i
  rw [val_main_v56_apply]
  unfold Cert.Gcn.gram
  refine Finset.sum_congr rfl fun k _ => ?_
  rw [val_main_v55_apply]
  have hl : lidx_main_v56 i k = ix2 (i 0) k := funext fun a => by match a with | ⟨0, _⟩ => rfl | ⟨1, _⟩ => rfl
  have hr : idx_main_v55 (ridx_main_v56 i k) = ix2 (i 1) k := funext fun a => by match a with | ⟨0, _⟩ => rfl | ⟨1, _⟩ => rfl
  rw [hl, hr]
  rfl

/-- The reconstructed adjacency. -/
theorem adj (x0 : (⟨S8192x512, .f32⟩ : BufTy).Contents (Elt Ideal)) (x1 : (⟨S2x262144, .i32⟩ : BufTy).Contents (Elt Ideal)) (x2 : (⟨S262144, .f32⟩ : BufTy).Contents (Elt Ideal)) (x3 : (⟨S512x256, .f32⟩ : BufTy).Contents (Elt Ideal)) (x4 : (⟨S256x128, .f32⟩ : BufTy).Contents (Elt Ideal)) :
    val_main_v56 (F := Ideal) x0 x1 x2 x3 x4 = Cert.Gcn.adj (Ideal.ofBits .f32 0x00000000#32) (srcOf x1) (dstOf x1) (wgtOf x2) x0 x3 x4 := by
  rw [gram_mu, mu]
  rfl

/-! ## The run's result terms -/

/-- The term the reference's run leaves in the mean head's buffer (and in the fourth result, the same buffer) is the
    model's mean head of the argument arrays. -/
theorem ref_mu (a0 : FVec Ideal S8192x512 .f32) (a1 : IVec S2x262144 32) (a2 : FVec Ideal S262144 .f32) (a3 : FVec Ideal S512x256 .f32) (a4 : FVec Ideal S256x128 .f32) :
    Host.scatterAdd (F := Ideal) (φ := .f32) scatter_S8192x128_S262144x1_S262144x128_1_0_0_1 (broadcastInDim S8192x128 ![] bcast_S_S8192x128 (constant S_ .f32 0x00000000#32)) (broadcastInDim S262144x1 ![0] bcast_S262144_S262144x1_0 (shapeCast _ (extractStridedSlice S1x262144 ![1, 0] a1 slices_S2x262144_S1x262144_1_0) shapeCasts_S1x262144_S262144)) (mulf (Host.gather gather_S8192x128_S262144x1_S262144x128_1_0_n_n_0_1_1128 (Host.dotGeneral dot_S8192x256_S256x128_S8192x128_1_0_0_1_n_n none (maximumf (Host.scatterAdd scatter_S8192x256_S262144x1_S262144x256_1_0_0_1 (broadcastInDim S8192x256 ![] bcast_S_S8192x256 (constant S_ .f32 0x00000000#32)) (broadcastInDim S262144x1 ![0] bcast_S262144_S262144x1_0 (shapeCast _ (extractStridedSlice S1x262144 ![1, 0] a1 slices_S2x262144_S1x262144_1_0) shapeCasts_S1x262144_S262144)) (mulf (Host.gather gather_S8192x256_S262144x1_S262144x256_1_0_n_n_0_1_1256 (Host.dotGeneral dot_S8192x512_S512x256_S8192x256_1_0_0_1_n_n none a0 a3) (broadcastInDim S262144x1 ![0] bcast_S262144_S262144x1_0 (select (cmpi .slt (shapeCast _ (extractStridedSlice S1x262144 ![0, 0] a1 slices_S2x262144_S1x262144_0_0) shapeCasts_S1x262144_S262144) (broadcastInDim S262144 ![] bcast_S_S262144 (constantI S_ 32 0#32))) (addi (shapeCast _ (extractStridedSlice S1x262144 ![0, 0] a1 slices_S2x262144_S1x262144_0_0) shapeCasts_S1x262144_S262144) (broadcastInDim S262144 ![] bcast_S_S262144 (constantI S_ 32 8192#32))) (shapeCast _ (extractStridedSlice S1x262144 ![0, 0] a1 slices_S2x262144_S1x262144_0_0) shapeCasts_S1x262144_S262144)))) (broadcastInDim S262144x256 ![0, 1] bcast_S262144x1_S262144x256_0_1 (broadcastInDim S262144x1 ![0] bcast_S262144_S262144x1_0 a2)))) (broadcastInDim S8192x256 ![] bcast_S_S8192x256 (constant S_ .f32 0x00000000#32))) a4) (broadcastInDim S262144x1 ![0] bcast_S262144_S262144x1_0 (select (cmpi .slt (shapeCast _ (extractStridedSlice S1x262144 ![0, 0] a1 slices_S2x262144_S1x262144_0_0) shapeCasts_S1x262144_S262144) (broadcastInDim S262144 ![] bcast_S_S262144 (constantI S_ 32 0#32))) (addi (shapeCast _ (extractStridedSlice S1x262144 ![0, 0] a1 slices_S2x262144_S1x262144_0_0) shapeCasts_S1x262144_S262144) (broadcastInDim S262144 ![] bcast_S_S262144 (constantI S_ 32 8192#32))) (shapeCast _ (extractStridedSlice S1x262144 ![0, 0] a1 slices_S2x262144_S1x262144_0_0) shapeCasts_S1x262144_S262144)))) (broadcastInDim S262144x128 ![0, 1] bcast_S262144x1_S262144x128_0_1 (broadcastInDim S262144x1 ![0] bcast_S262144_S262144x1_0 a2)))
      = Cert.Gcn.mu (Ideal.ofBits .f32 0x00000000#32) (srcOf a1) (dstOf a1) (wgtOf a2) a0 a3 a4 :=
  (val_main_v36_eq (F := Ideal) a0 a1 a2 a3 a4).trans (mu a0 a1 a2 a3 a4)

/-- The term the run leaves in the log-variance head's buffer is the model's log-variance head. -/
theorem ref_logvar (a0 : FVec Ideal S8192x512 .f32) (a1 : IVec S2x262144 32) (a2 : FVec Ideal S262144 .f32) (a3 : FVec Ideal S512x256 .f32) (a5 : FVec Ideal S256x128 .f32) :
    Host.scatterAdd (F := Ideal) (φ := .f32) scatter_S8192x128_S262144x1_S262144x128_1_0_0_1 (broadcastInDim S8192x128 ![] bcast_S_S8192x128 (constant S_ .f32 0x00000000#32)) (broadcastInDim S262144x1 ![0] bcast_S262144_S262144x1_0 (shapeCast _ (extractStridedSlice S1x262144 ![1, 0] a1 slices_S2x262144_S1x262144_1_0) shapeCasts_S1x262144_S262144)) (mulf (Host.gather gather_S8192x128_S262144x1_S262144x128_1_0_n_n_0_1_1128 (Host.dotGeneral dot_S8192x256_S256x128_S8192x128_1_0_0_1_n_n none (maximumf (Host.scatterAdd scatter_S8192x256_S262144x1_S262144x256_1_0_0_1 (broadcastInDim S8192x256 ![] bcast_S_S8192x256 (constant S_ .f32 0x00000000#32)) (broadcastInDim S262144x1 ![0] bcast_S262144_S262144x1_0 (shapeCast _ (extractStridedSlice S1x262144 ![1, 0] a1 slices_S2x262144_S1x262144_1_0) shapeCasts_S1x262144_S262144)) (mulf (Host.gather gather_S8192x256_S262144x1_S262144x256_1_0_n_n_0_1_1256 (Host.dotGeneral dot_S8192x512_S512x256_S8192x256_1_0_0_1_n_n none a0 a3) (broadcastInDim S262144x1 ![0] bcast_S262144_S262144x1_0 (select (cmpi .slt (shapeCast _ (extractStridedSlice S1x262144 ![0, 0] a1 slices_S2x262144_S1x262144_0_0) shapeCasts_S1x262144_S262144) (broadcastInDim S262144 ![] bcast_S_S262144 (constantI S_ 32 0#32))) (addi (shapeCast _ (extractStridedSlice S1x262144 ![0, 0] a1 slices_S2x262144_S1x262144_0_0) shapeCasts_S1x262144_S262144) (broadcastInDim S262144 ![] bcast_S_S262144 (constantI S_ 32 8192#32))) (shapeCast _ (extractStridedSlice S1x262144 ![0, 0] a1 slices_S2x262144_S1x262144_0_0) shapeCasts_S1x262144_S262144)))) (broadcastInDim S262144x256 ![0, 1] bcast_S262144x1_S262144x256_0_1 (broadcastInDim S262144x1 ![0] bcast_S262144_S262144x1_0 a2)))) (broadcastInDim S8192x256 ![] bcast_S_S8192x256 (constant S_ .f32 0x00000000#32))) a5) (broadcastInDim S262144x1 ![0] bcast_S262144_S262144x1_0 (select (cmpi .slt (shapeCast _ (extractStridedSlice S1x262144 ![0, 0] a1 slices_S2x262144_S1x262144_0_0) shapeCasts_S1x262144_S262144) (broadcastInDim S262144 ![] bcast_S_S262144 (constantI S_ 32 0#32))) (addi (shapeCast _ (extractStridedSlice S1x262144 ![0, 0] a1 slices_S2x262144_S1x262144_0_0) shapeCasts_S1x262144_S262144) (broadcastInDim S262144 ![] bcast_S_S262144 (constantI S_ 32 8192#32))) (shapeCast _ (extractStridedSlice S1x262144 ![0, 0] a1 slices_S2x262144_S1x262144_0_0) shapeCasts_S1x262144_S262144)))) (broadcastInDim S262144x128 ![0, 1] bcast_S262144x1_S262144x128_0_1 (broadcastInDim S262144x1 ![0] bcast_S262144_S262144x1_0 a2)))
      = Cert.Gcn.logvar (Ideal.ofBits .f32 0x00000000#32) (srcOf a1) (dstOf a1) (wgtOf a2) a0 a3 a5 :=
  (val_main_v54_eq (F := Ideal) a0 a1 a2 a3 a5).trans (logvar a0 a1 a2 a3 a5)

/-- The term the run names for the adjacency's buffer is the model's adjacency of the launch contents of the arguments. -/
theorem ref_adj (m : (ℓ : Loc nD τ sig) → Buf (Elt Ideal) ℓ) (c : Dev nD) :
    Cert.ReferenceIdeal.Value.res_main_v56 (F := Ideal) m c
      = Cert.Gcn.adj (Ideal.ofBits .f32 0x00000000#32) (srcOf (m ((c.tc : Thread nD τ).loc main_arg1))) (dstOf (m ((c.tc : Thread nD τ).loc main_arg1))) (wgtOf (m ((c.tc : Thread nD τ).loc main_arg2))) (m ((c.tc : Thread nD τ).loc main_arg0)) (m ((c.tc : Thread nD τ).loc main_arg3)) (m ((c.tc : Thread nD τ).loc main_arg4)) :=
  (val_main_v56_eq (F := Ideal) m c).trans (adj _ _ _ _ _)

end Cert.ReferenceIdeal.RefValue

end
-- ==== Proof.RefRun.lean ====
/-
  The second program's run with its results in closed form.

  Every weakly fair execution of the second program terminates; its four result buffers then hold the model's
  adjacency, mean head, log-variance head and (the same buffer again) mean head of the argument arrays as the run
  found them, and the six argument arrays are unchanged. The run itself is the composed term of the program's
  operations; the closed forms of those terms are the previous module's. Dropping the results leaves the frame:
  the program runs and its arguments end unchanged.
-/
import proofs.«152238_j13048110646074_1_alg».proof.Proof.RefValue

noncomputable section

namespace Cert.ReferenceIdeal.RefValue

open Cert.ReferenceIdeal Cert.ReferenceIdeal.Gen Idealize.ShloMosaic Idealize.ShloMosaic.TcCoe Idealize.SL.Sem Idealize.ShloMosaic.StableHlo

/-- The run, each result at the model's function of the launch contents of the arguments. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v56) = Cert.Gcn.adj (Ideal.ofBits .f32 0x00000000#32) (srcOf (m ((c.tc : Thread nD τ).loc main_arg1))) (dstOf (m ((c.tc : Thread nD τ).loc main_arg1))) (wgtOf (m ((c.tc : Thread nD τ).loc main_arg2))) (m ((c.tc : Thread nD τ).loc main_arg0)) (m ((c.tc : Thread nD τ).loc main_arg3)) (m ((c.tc : Thread nD τ).loc main_arg4))
      ∧ r.2.mem ((c.tc : Thread nD τ).loc main_v36) = Cert.Gcn.mu (Ideal.ofBits .f32 0x00000000#32) (srcOf (m ((c.tc : Thread nD τ).loc main_arg1))) (dstOf (m ((c.tc : Thread nD τ).loc main_arg1))) (wgtOf (m ((c.tc : Thread nD τ).loc main_arg2))) (m ((c.tc : Thread nD τ).loc main_arg0)) (m ((c.tc : Thread nD τ).loc main_arg3)) (m ((c.tc : Thread nD τ).loc main_arg4))
      ∧ r.2.mem ((c.tc : Thread nD τ).loc main_v54) = Cert.Gcn.logvar (Ideal.ofBits .f32 0x00000000#32) (srcOf (m ((c.tc : Thread nD τ).loc main_arg1))) (dstOf (m ((c.tc : Thread nD τ).loc main_arg1))) (wgtOf (m ((c.tc : Thread nD τ).loc main_arg2))) (m ((c.tc : Thread nD τ).loc main_arg0)) (m ((c.tc : Thread nD τ).loc main_arg3)) (m ((c.tc : Thread nD τ).loc main_arg5))
      ∧ r.2.mem ((c.tc : Thread nD τ).loc main_v36) = Cert.Gcn.mu (Ideal.ofBits .f32 0x00000000#32) (srcOf (m ((c.tc : Thread nD τ).loc main_arg1))) (dstOf (m ((c.tc : Thread nD τ).loc main_arg1))) (wgtOf (m ((c.tc : Thread nD τ).loc main_arg2))) (m ((c.tc : Thread nD τ).loc main_arg0)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨by rw [(h c).1, ref_adj], by rw [(h c).2.1, ref_mu], by rw [(h c).2.2.1, ref_logvar],
      by rw [(h c).2.2.2.1, ref_mu], (h c).2.2.2.2⟩)
    (Cert.ReferenceIdeal.Value.run (F := Ideal) m ρ)

/-- The frame: the program runs and its six argument arrays end unchanged. -/
theorem ref_frame (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2.2.2.2) (Cert.ReferenceIdeal.Value.run (F := Ideal) m ρ)

end Cert.ReferenceIdeal.RefValue

end
-- ==== Proof.lean ====
/-
  The certificate's five claims for the graph auto-encoder kernel against its reference.

  Both programs compute, over the extended reals, the model of Proof/Spec.lean: a two-layer graph convolution —
  the weighted neighbourhood sum `agg` over the edges of `x · W1`, its maximum with zero, the two heads
  `agg (h · W2)` and `agg (h · W3)` — and the inner-product decoder `mu · muᵀ`. The kernel forms the matrix
  products in three pallas calls (row blocks of 1024; 1024 × 1024 blocks for the decoder), fuses the two heads
  into one product with `[W2 | W3]` and cuts the aggregate into its column halves; the reference computes the
  heads separately. The two agree entry by entry because an aggregate is column by column and column `c` of
  `h · [W2 | W3]` is a column of `h · W2` or of `h · W3` (Proof/Bridge.lean): no law of the extended reals is
  needed, and the precondition is not used.

  * the frames: each kernel program is run as three regions among two stretches of host operations
    (Proof/KRun.lean, Proof/KiRun.lean); the reference is a host program whose run is read back;
  * the idealization rewrote nothing, so what it must preserve is trivial;
  * the values: the kernel's three result arrays read off its run (Proof/KiValue.lean) and the reference's
    (Proof/RefValue.lean, Proof/RefRun.lean) are the model's `adj`, `mu`, `logvar` of the same arguments.
-/
import proofs.«152238_j13048110646074_1_alg».proof.Defs
import proofs.«152238_j13048110646074_1_alg».proof.Proof.Gen.Kernel
import proofs.«152238_j13048110646074_1_alg».proof.Proof.Gen.KernelIdeal
import proofs.«152238_j13048110646074_1_alg».proof.Proof.Gen.ReferenceIdeal
import proofs.«152238_j13048110646074_1_alg».proof.Proof.Gen.ReferenceIdeal.Run
import proofs.«152238_j13048110646074_1_alg».proof.Proof.Gen.ReferenceIdeal.Read
import proofs.«152238_j13048110646074_1_alg».proof.Proof.Gen.Pre_finite_inputs
import proofs.«152238_j13048110646074_1_alg».proof.Proof.KRun
import proofs.«152238_j13048110646074_1_alg».proof.Proof.KiRun
import proofs.«152238_j13048110646074_1_alg».proof.Proof.KiValue
import proofs.«152238_j13048110646074_1_alg».proof.Proof.RefRun
import Idealize.ShloMosaic.Adequacy
import Idealize.ShloMosaic.Init

noncomputable section

namespace Cert.Proof

open Idealize.ShloMosaic Idealize.SL.Sem

/-! ## The two programs read the same edges -/

/-- The source words, the destination words and the weights are the same operations on the same edge table and
    weight vector in both programs. -/
theorem srcWords_eq (a1 : Cert.KernelIdeal.KHost.EdgeTable) :
    Cert.ReferenceIdeal.RefValue.srcWords a1 = Cert.KernelIdeal.KHost.srcWords a1 := rfl
theorem dstWords_eq (a1 : Cert.KernelIdeal.KHost.EdgeTable) :
    Cert.ReferenceIdeal.RefValue.dstWords a1 = Cert.KernelIdeal.KHost.dstWords a1 := rfl
theorem wgtOf_eq (a2 : Cert.KernelIdeal.KHost.EdgeWeights) :
    Cert.ReferenceIdeal.RefValue.wgtOf a2 = Cert.KernelIdeal.KHost.wgtOf a2 := rfl

/-! ## The claims -/

theorem frame_k : @Cert.frame_Kernel Cert.Kernel.Gen.facts Cert.Pre_finite_inputs.Gen.facts :=
  fun m ρ _ => Cert.Kernel.Fr.frame m ρ

theorem frame_ki : @Cert.frame_KernelIdeal Cert.KernelIdeal.Gen.facts Cert.Pre_finite_inputs.Gen.facts :=
  fun m ρ _ => Cert.KernelIdeal.Fr.frame m ρ

theorem frame_ri : @Cert.frame_ReferenceIdeal Cert.ReferenceIdeal.Gen.facts Cert.Pre_finite_inputs.Gen.facts :=
  fun m ρ _ => Cert.ReferenceIdeal.RefValue.ref_frame m ρ

/-- The idealization changed no operation. -/
theorem preserves : Cert.preserves_Kernel_KernelIdeal := trivial

/-- From memories agreeing on the arguments both idealized programs end with the model's `adj`, `mu`, `logvar`,
    `mu` of the arguments in their result arrays. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨_, _, _, _, Cert.KernelIdeal.Val.kernel_run m ρ, ?_⟩
  refine (θ_run Cert.ReferenceIdeal.defs _ _).mono (fun r h c => ?_) (Cert.ReferenceIdeal.RefValue.ref_run m' ρ')
  obtain ⟨e0, e1, e2, e3, e4, e5⟩ := hagree c
  obtain ⟨hadj, hmu, hlv, hmu', k0, k1, k2, k3, k4, k5⟩ := h c
  rw [e0, e1, e2, e3, e4] at hadj hmu hmu'
  rw [e0, e1, e2, e3, e5] at hlv
  unfold Cert.ReferenceIdeal.RefValue.srcOf Cert.ReferenceIdeal.RefValue.dstOf at hadj hmu hlv hmu'
  rw [srcWords_eq, dstWords_eq, wgtOf_eq] at hadj hmu hlv hmu'
  exact ⟨hadj, hmu, hlv, hmu', k0, k1, k2, k3, k4, k5⟩

end Cert.Proof

/-- The certificate. -/
theorem Cert.Proof.claim : Cert.Claim :=
  ⟨Cert.Kernel.Gen.facts, Cert.KernelIdeal.Gen.facts, Cert.ReferenceIdeal.Gen.facts, Cert.Pre_finite_inputs.Gen.facts,
    Cert.Proof.frame_k, Cert.Proof.frame_ki, Cert.Proof.frame_ri, Cert.Proof.preserves, Cert.Proof.algebraic⟩

end
